-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S256x256 : Shape := ⟨2, ![256, 256]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S4x4096x256 .f32) (main_arg1 : FVec F S256x256 .f32) (main_arg2 : FVec F S256x256 .f32) (main_arg3 : FVec F S256x256 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S4x4096x256 : Shape := ⟨3, ![4, 4096, 256]⟩
abbrev S256x256 : Shape := ⟨2, ![256, 256]⟩
abbrev S1x1024x256 : Shape := ⟨3, ![1, 1024, 256]⟩
abbrev S1024x256 : Shape := ⟨2, ![1024, 256]⟩
abbrev S4096x256 : Shape := ⟨2, ![4096, 256]⟩
abbrev S1024x1 : Shape := ⟨2, ![1024, 1]⟩
abbrev S256x1024 : Shape := ⟨2, ![256, 1024]⟩
abbrev S1024x1024 : Shape := ⟨2, ![1024, 1024]⟩
abbrev S1024 : Shape := ⟨1, ![1024]⟩

abbrev nBuf : Space → Nat
  | .hbm => 5
  | .vmem => 15
  | .smem => 0
  | _ => 0

abbrev bufTy : (tb : Table) → Fin (tcTables nBuf tb) → BufTy
  | .hbm, ⟨0, _⟩ => ⟨S4x4096x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S4x4096x256, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x256, .f32⟩
  | .local _ .vmem, ⟨3, _⟩ => ⟨S1x1024x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S1x1024x256, .f32⟩
  | .local _ .vmem, ⟨8, _⟩ => ⟨S1x1024x256, .f32⟩
  | .local _ .vmem, ⟨9, _⟩ => ⟨S1024x256, .f32⟩
  | .local _ .vmem, ⟨10, _⟩ => ⟨S4096x256, .bf16⟩
  | .local _ .vmem, ⟨11, _⟩ => ⟨S4096x256, .bf16⟩
  | .local _ .vmem, ⟨12, _⟩ => ⟨S1024x1, .f32⟩
  | .local _ .vmem, ⟨13, _⟩ => ⟨S1024x1, .f32⟩
  | .local _ .vmem, ⟨14, _⟩ => ⟨S1024x256, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨3, ![4, 4, 4], ![false, false, false]⟩

def k0_mult1 (i : grid0.Coords) : BitVec 32 :=
  let arg2 : BitVec 32 := BitVec.ofNat 32 (i 2).val
  let c1024_i32 : BitVec 32 := 1024#32
  let v0 : BitVec 32 := Scalar.muli arg2 c1024_i32
  v0
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg2 : BitVec 32 := BitVec.ofNat 32 (i 2).val
  let c1024_i32 : BitVec 32 := 1024#32
  let v0 : BitVec 32 := Scalar.muli arg2 c1024_i32
  let v1 : BitVec 32 := v0
  let v60 : Index := Scalar.indexCast v1
  let c0_31 : Index := 0#32
  ![v60.toNat, 0]
def k0_off2 (i : grid0.Coords) : Fin 2 → Nat :=
  let arg2 : BitVec 32 := BitVec.ofNat 32 (i 2).val
  let c1024_i32 : BitVec 32 := 1024#32
  let v0 : BitVec 32 := Scalar.muli arg2 c1024_i32
  let v1 : BitVec 32 := v0
  let v8 : Index := Scalar.indexCast v1
  let c0 : Index := 0#32
  ![v8.toNat, 0]
def k0_cond3 (i : grid0.Coords) : BitVec 1 :=
  let arg2 : BitVec 32 := BitVec.ofNat 32 (i 2).val
  let c3_i32 : BitVec 32 := 3#32
  let v45 : BitVec 1 := Scalar.cmpi .eq arg2 c3_i32
  let v46 : BitVec 32 := Scalar.extui v45
  let c0_i32_21 : BitVec 32 := 0#32
  let v47 : BitVec 1 := Scalar.cmpi .ne v46 c0_i32_21
  v47

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 32 := Scalar.select v0 arg2 c0_i32_0
  let c0_i32_1 : BitVec 32 := 0#32
  let c0_i32_2 : BitVec 32 := 0#32
  ![arg0.toNat, v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  h_S1024x256 : 0 < S1024x256.numel
  shapeCasts_S1024x256_S1024x256 : S1024x256.ShapeCasts S1024x256
  inb_S1024x256_S1024x256_0_0 : ∀ a, (![0, 0] : Fin 2 → Nat) a + S1024x256.size a ≤ S1024x256.size a
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  transposes_S1024x256_p1_0_S256x1024 : S1024x256.Transposes [1, 0] S256x1024
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x256 : S1024x1.Broadcasts S1024x256
  shapeCasts_S1024x256_S1x1024x256 : S1024x256.ShapeCasts S1x1024x256
  dot_S1024x256_S256x256_S1024x256_1_0_0_1_n_n_wf : DotDims.WF S1024x256 S256x256 S1024x256 [1] [0] [0] [1] [] []
  dot_S1024x256_S256x1024_S1024x1024_1_0_0_1_n_n_wf : DotDims.WF S1024x256 S256x1024 S1024x1024 [1] [0] [0] [1] [] []
  dot_S1024x1024_S1024x256_S1024x256_1_0_0_1_n_n_wf : DotDims.WF S1024x1024 S1024x256 S1024x256 [1] [0] [0] [1] [] []
  hrank0 : 0 < grid0.rank
  k0_mult1_dvd : ∀ i : grid0.Coords, 1024 ∣ (k0_mult1 i).toNat
  k0_off1_inb : ∀ i : grid0.Coords, ∀ (k0_h1 : k0_cond1 i = 1#1), ∀ a, (k0_off1 i) a + S1024x256.size a ≤ S4096x256.size a
  k0_off1_packedbf16 : ∀ i : grid0.Coords, ∀ (k0_h1 : k0_cond1 i = 1#1), (Rect.unit (s := S4096x256) (k0_off1 i) S1024x256.size (k0_off1_inb i k0_h1)).PackedRows (EltTy.packing .bf16)
  k0_off2_inb : ∀ i : grid0.Coords, ∀ a, (k0_off2 i) a + S1024x256.size a ≤ S4096x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S4x4096x256.size a
  hwx0_0 : ∀ i : grid0.Coords, EltTy.bits .f32 = 32 ∨ (Rect.block (s := S4x4096x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S4x4096x256.size a
  hwx0_1 : ∀ i : grid0.Coords, EltTy.bits .f32 = 32 ∨ (Rect.block (s := S4x4096x256) S1x1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x256.size a ≤ S4x4096x256.size a
  hwx0_5 : ∀ i : grid0.Coords, EltTy.bits .f32 = 32 ∨ (Rect.block (s := S4x4096x256) S1x1024x256.size (cc0_transform_5 i) (hinb0_5 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond3 i == 1#1) | ⟨_ + 6, h⟩ => absurd h (Nat.not_lt.2 (Nat.le_add_left _ _))

class Facts : Prop extends Facts₀ where

variable [Facts]
-- ==== ReferenceIdeal.lean ====
abbrev S4x4096x256 : Shape := ⟨3, ![4, 4096, 256]⟩
abbrev S256x256 : Shape := ⟨2, ![256, 256]⟩
abbrev S_ : Shape := ⟨0, ![]⟩
abbrev S4x4096x4096 : Shape := ⟨3, ![4, 4096, 4096]⟩
abbrev S4x4096 : Shape := ⟨2, ![4, 4096]⟩
abbrev S4x4096x1 : Shape := ⟨3, ![4, 4096, 1]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S4x4096x256, .f32⟩
  | .hbm, ⟨5, _⟩ => ⟨S4x4096x256, .f32⟩
  | .hbm, ⟨6, _⟩ => ⟨S4x4096x256, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096, .f32⟩
  | .hbm, ⟨16, _⟩ => ⟨S_, .f32⟩
  | .hbm, ⟨17, _⟩ => ⟨S4x4096, .f32⟩
  | .hbm, ⟨18, _⟩ => ⟨S4x4096, .f32⟩
  | .hbm, ⟨19, _⟩ => ⟨S4x4096x1, .f32⟩
  | .hbm, ⟨20, _⟩ => ⟨S4x4096x4096, .f32⟩
  | .hbm, ⟨21, _⟩ => ⟨S4x4096x4096, .f32⟩
  | .hbm, ⟨22, _⟩ => ⟨S4x4096x4096, .f32⟩
  | .hbm, ⟨23, _⟩ => ⟨S_, .f32⟩
  | .hbm, ⟨24, _⟩ => ⟨S4x4096, .f32⟩
  | .hbm, ⟨25, _⟩ => ⟨S4x4096x1, .f32⟩
  | .hbm, ⟨26, _⟩ => ⟨S4x4096x4096, .f32⟩
  | .hbm, ⟨27, _⟩ => ⟨S4x4096x4096, .f32⟩
  | .hbm, ⟨28, _⟩ => ⟨S4x4096x256, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x256_S256x256_S4x4096x256_2_1_01_0_n_n_wf : DotDims.WF S4x4096x256 S256x256 S4x4096x256 [2] [1] [0, 1] [0] [] []
  dot_S4x4096x256_S4x4096x256_S4x4096x4096_2_2_1_1_0_0_wf : DotDims.WF S4x4096x256 S4x4096x256 S4x4096x4096 [2] [2] [1] [1] [0] [0]
  dot_S4x4096x4096_S4x4096x256_S4x4096x256_2_1_1_2_0_0_wf : DotDims.WF S4x4096x4096 S4x4096x256 S4x4096x256 [2] [1] [1] [2] [0] [0]

variable [Facts₀]

def dot_S4x4096x256_S256x256_S4x4096x256_2_1_01_0_n_n : DotDims S4x4096x256 S256x256 S4x4096x256 where
  lhsContracting := [2]
  rhsContracting := [1]
  lhsNonContracting := [0, 1]
  rhsNonContracting := [0]
  lhsBatch := []
  rhsBatch := []
  wf := dot_S4x4096x256_S256x256_S4x4096x256_2_1_01_0_n_n_wf
def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf
def dot_S4x4096x4096_S4x4096x256_S4x4096x256_2_1_1_2_0_0 : DotDims S4x4096x4096 S4x4096x256 S4x4096x256 where
  lhsContracting := [2]
  rhsContracting := [1]
  lhsNonContracting := [1]
  rhsNonContracting := [2]
  lhsBatch := [0]
  rhsBatch := [0]
  wf := dot_S4x4096x4096_S4x4096x256_S4x4096x256_2_1_1_2_0_0_wf

class Facts : Prop extends Facts₀ where

variable [Facts]
-- ==== Proof.RefFrame.lean ====
/-
  The reference program is straight-line host code: its run terminates with every result at the composed term of
  the arguments and leaves the four argument arrays as it found them. Dropping the result from that run is the
  frame claim of the reference. The idealization of the kernel rewrote no operation, so the statement that the
  idealized kernel is the kernel's sanctioned idealization has no conjunct to prove.
-/
import proofs.«127055_j20289425507095_2_alg».proof.Defs
import proofs.«127055_j20289425507095_2_alg».proof.Proof.Gen.ReferenceIdeal
import proofs.«127055_j20289425507095_2_alg».proof.Proof.Gen.Pre_finite_inputs
import proofs.«127055_j20289425507095_2_alg».proof.Proof.Gen.ReferenceIdeal.Run

noncomputable section

namespace Cert.Proof.RefSide

open Idealize.ShloMosaic Idealize.ShloMosaic.TcCoe Idealize.SL.Sem

/-- Every weakly fair execution of the reference terminates without a fault and leaves the arguments unchanged:
    the generated run with its statement about the result forgotten. -/
theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2)
    (Cert.ReferenceIdeal.Value.run (F := Ideal) m ρ)

/-- The ideal pass rewrote nothing, so there is nothing to preserve. -/
theorem preserves : Cert.preserves_Kernel_KernelIdeal := trivial

end Cert.Proof.RefSide

end
-- ==== Proof.KI.Spec.lean ====
/-
  What the attention kernel computes, stated without the pipeline.

  For one batch element and one tile of 1024 query rows the kernel keeps four arrays between the key tiles it
  visits: the scaled query projection `q` (the tile's rows of `x` times the transposed query weights, times 1/16),
  the running row maximum `mx`, the running row sum `l` and the running accumulator `acc`. At the row's first
  key tile they are reset (`mx` to minus infinity, `l` and `acc` to zero); at every key tile, with `kt` and `vt`
  that tile's key and value projections, `s = q ktᵀ`, the new maximum is `max mx (rowmax s)`, and with
  `a = exp (mx - mx')` and `p = exp (s - mx')` the sum becomes `a * l + rowsum p` and the accumulator
  `a * acc + p vt`; after the last key tile the output block is `acc / l`. These are the body's own pure terms,
  so the recursion below is a statement about the printed program at any float instance.

  At the ideal instance the reference computes, for the same arrays, the textbook attention
  `softmax ((x Wqᵀ)(x Wkᵀ)ᵀ / 16) (x Wvᵀ)` with the row maximum subtracted before exponentiating: `G` below.
-/
import proofs.«127055_j20289425507095_2_alg».proof.Proof.Gen.KernelIdeal.Skeleton
import Idealize.ShloMosaic.Lib.ValueIdx
import Idealize.ShloMosaic.PureOps.Ideal

noncomputable section

namespace Cert.KernelIdeal.Spec

open Cert.KernelIdeal Cert.KernelIdeal.Gen
open Idealize.ShloMosaic Idealize.ShloMosaic.ValueIdx

variable {F : FTy → Type} [FloatOps F]

/-- What the kernel carries from one key tile to the next, for one tile of query rows. -/
structure OSt (F : FTy → Type) [FloatOps F] where
  q : Vec F S1024x256 .f32
  mx : Vec F S1024x1 .f32
  l : Vec F S1024x1 .f32
  acc : Vec F S1024x256 .f32

/-- One key tile's key projection: the tile's rows of `x` times the transposed key weights. -/
def kTile (xk : Vec F S1x1024x256 .f32) (wk : Vec F S256x256 .f32) : Vec F S1024x256 .bf16 := k0_pay5 xk wk
/-- One key tile's value projection. -/
def vTile (xk : Vec F S1x1024x256 .f32) (wv : Vec F S256x256 .f32) : Vec F S1024x256 .bf16 := k0_pay6 xk wv

/-- The state at the start of a row of key tiles: the scaled query projection, maximum minus infinity, sum and
    accumulator zero. -/
def freshSt (xq : Vec F S1x1024x256 .f32) (wq : Vec F S256x256 .f32) : OSt F :=
  ⟨k0_pay7 xq wq, k0_pay8, k0_pay9, k0_pay10⟩

/-- One key tile absorbed: the online softmax update. -/
def stepSt (kt vt : Vec F S1024x256 .bf16) (s : OSt F) : OSt F :=
  ⟨s.q, k0_pay2 (k0_pay12 kt s.q s.mx), k0_pay15 kt s.q s.mx s.l,
    k0_pay1 vt (k0_pay13 kt s.q s.mx) (k0_pay14 kt s.q s.mx) s.acc⟩

/-- The output block once the last key tile is absorbed: the accumulator over the sum. -/
def outOf (s : OSt F) : Vec F S1x1024x256 .f32 := k0_pay3 s.acc s.l

/-- The state after key tiles `0 … j` of a row, given each tile's key and value projections. -/
def rowSt (xq : Vec F S1x1024x256 .f32) (wq : Vec F S256x256 .f32) (kt vt : ℕ → Vec F S1024x256 .bf16) : ℕ → OSt F
  | 0 => stepSt (kt 0) (vt 0) (freshSt xq wq)
  | j + 1 => stepSt (kt (j + 1)) (vt (j + 1)) (rowSt xq wq kt vt j)

theorem rowSt_zero (xq : Vec F S1x1024x256 .f32) (wq : Vec F S256x256 .f32) (kt vt : ℕ → Vec F S1024x256 .bf16) :
    rowSt xq wq kt vt 0 = stepSt (kt 0) (vt 0) (freshSt xq wq) := rfl
theorem rowSt_succ (xq : Vec F S1x1024x256 .f32) (wq : Vec F S256x256 .f32) (kt vt : ℕ → Vec F S1024x256 .bf16) (j : ℕ) :
    rowSt xq wq kt vt (j + 1) = stepSt (kt (j + 1)) (vt (j + 1)) (rowSt xq wq kt vt j) := rfl

/-! ## The reference's function, on the extended reals -/

section Reference

variable (X : S4x4096x256.Idx → EReal) (Wq Wk Wv : S256x256.Idx → EReal)

/-- A projection: row `s` of batch `b` of `x` against row `a` of a weight matrix. -/
def proj (W : S256x256.Idx → EReal) (b : Fin 4) (s : Fin 4096) (a : Fin 256) : EReal :=
  ∑ d : Fin 256, X (ix3 b s d) * W (ix2 a d)

/-- The scaled score of query row `i` against key row `j`. -/
def score (b : Fin 4) (i j : Fin 4096) : EReal :=
  (∑ a : Fin 256, proj X Wq b i a * proj X Wk b j a) * (((1 : ℝ) / 16 : ℝ) : EReal)

/-- The row's maximal score. -/
def rowMax (b : Fin 4) (i : Fin 4096) : EReal := Finset.univ.fold max ⊥ fun j : Fin 4096 => score X Wq Wk b i j

/-- The exponential of a score less the row's maximum. -/
def ex (b : Fin 4) (i j : Fin 4096) : EReal := Ideal.exp (score X Wq Wk b i j - rowMax X Wq Wk b i)

/-- The row's normalizer. -/
def den (b : Fin 4) (i : Fin 4096) : EReal := ∑ j : Fin 4096, ex X Wq Wk b i j

/-- Softmax attention at one entry of the result. -/
def attn (b : Fin 4) (i : Fin 4096) (e : Fin 256) : EReal :=
  ∑ j : Fin 4096, Ideal.div (ex X Wq Wk b i j) (den X Wq Wk b i) * proj X Wv b j e

/-- Tile `j` of 1024 consecutive rows of batch `b` of `x`, as the block a window hands the body. -/
def blkOf (b : Fin 4) (j : Fin 4) : S1x1024x256.Idx → EReal := fun y =>
  X (ix3 b ⟨1024 * j.val + (y 1).val, by
    have h1 : (y 1).val < 1024 := (y 1).isLt
    have h2 := j.isLt
    omega⟩ (y 2))

/-- The reference's result array as one function of the four argument arrays. -/
def G : S4x4096x256.Idx → EReal := fun y => attn X Wq Wk Wv (y 0) (y 1) (y 2)

end Reference

end Cert.KernelIdeal.Spec

end
-- ==== Proof.RefIsG.lean ====
/-
  The reference program at the ideal instance computes softmax attention.

  Stage by stage, each operation of the reference read at an index: the three projections are sums over the
  contracted axis; the scale is 1 / sqrt 256 = 1/16; a score is the scaled inner product of a query row's and a key
  row's projections; the row maximum is the fold of max from minus infinity over the key axis (the extra maximum
  with minus infinity changes nothing); the exponentials, their row sum (from zero) and the quotient follow; the
  result is the sum over keys of the normalized weight times the value projection.
-/
import proofs.«127055_j20289425507095_2_alg».proof.Proof.Gen.ReferenceIdeal.Read
import proofs.«127055_j20289425507095_2_alg».proof.Proof.KI.Spec

noncomputable section

namespace Cert.Proof.RefIsG

open Cert.ReferenceIdeal Cert.ReferenceIdeal.Gen Cert.ReferenceIdeal.Read
open Idealize.ShloMosaic Idealize.ShloMosaic.ValueIdx
open Cert.KernelIdeal.Spec (proj score rowMax ex den attn G)

variable (X : (⟨S4x4096x256, .f32⟩ : BufTy).Contents (Elt Ideal))
variable (Wq Wk Wv : (⟨S256x256, .f32⟩ : BufTy).Contents (Elt Ideal))

/-! ## The constants -/

/-- The word of 256.0 denotes the real 256. -/
theorem ofBits_256 : Ideal.ofBits .f32 0x43800000#32 = ((256 : ℝ) : EReal) := by
  simp [Ideal.ofBits, Ideal.ieee, -EReal.coe_mul]; norm_num

/-- The word of 1.0 denotes 1. -/
theorem ofBits_one : Ideal.ofBits .f32 0x3F800000#32 = ((1 : ℝ) : EReal) := by
  simp [Ideal.ofBits, Ideal.ieee, -EReal.coe_mul]; norm_num

/-- The word of minus infinity denotes the bottom element. -/
theorem ofBits_neg_inf : Ideal.ofBits .f32 0xFF800000#32 = (⊥ : EReal) := by
  simp [Ideal.ofBits, Ideal.ieee]

/-- The square root of 256 is 16. -/
theorem sqrt_256 : Ideal.sqrt ((256 : ℝ) : EReal) = ((16 : ℝ) : EReal) := by
  show (if (256 : ℝ) < 0 then (⊥ : EReal) else (Real.sqrt 256 : EReal)) = _
  rw [if_neg (by norm_num)]
  have h : Real.sqrt 256 = 16 := by
    rw [show (256 : ℝ) = 16 * 16 by norm_num]
    exact Real.sqrt_mul_self (by norm_num)
  rw [h]

/-- The reference's scale, one over the square root of 256, is the real 1/16. -/
theorem scale_eq (j : S_.Idx) : val_main_v4 (F := Ideal) j = (((1 : ℝ) / 16 : ℝ) : EReal) := by
  rw [val_main_v4_apply, val_main_v3_apply, val_main_cst_0_apply, val_main_cst_apply]
  simp only [Ideal.hostDivf_def, Ideal.hostUnary_sqrt_def, Ideal.ofBits_def]
  rw [ofBits_256, ofBits_one, sqrt_256, Ideal.div_coe (by norm_num : (16 : ℝ) ≠ 0), ← EReal.coe_mul, one_mul]

/-! ## The projections -/

theorem lidx_v0 (i : S4x4096x256.Idx) (k : Fin 256) : lidx_main_v0 i k = ix3 (i 0) (i 1) k :=
  funext fun a => by match a with | ⟨0, _⟩ => rfl | ⟨1, _⟩ => rfl | ⟨2, _⟩ => rfl
theorem ridx_v0 (i : S4x4096x256.Idx) (k : Fin 256) : ridx_main_v0 i k = ix2 (i 2) k :=
  funext fun a => by match a with | ⟨0, _⟩ => rfl | ⟨1, _⟩ => rfl

/-- The query projection at an index. -/
theorem v0_at (i : S4x4096x256.Idx) : val_main_v0 (F := Ideal) X Wq i = proj X Wq (i 0) (i 1) (i 2) := by
  rw [val_main_v0_apply]
  exact Finset.sum_congr rfl fun k _ => by rw [lidx_v0, ridx_v0]; rfl

/-- The key projection at an index. -/
theorem v1_at (i : S4x4096x256.Idx) : val_main_v1 (F := Ideal) X Wk i = proj X Wk (i 0) (i 1) (i 2) := by
  rw [val_main_v1_apply]
  exact Finset.sum_congr rfl fun k _ => by
    rw [show lidx_main_v1 i k = ix3 (i 0) (i 1) k from
          funext fun a => by match a with | ⟨0, _⟩ => rfl | ⟨1, _⟩ => rfl | ⟨2, _⟩ => rfl,
        show ridx_main_v1 i k = ix2 (i 2) k from
          funext fun a => by match a with | ⟨0, _⟩ => rfl | ⟨1, _⟩ => rfl]
    rfl

/-- The value projection at an index. -/
theorem v2_at (i : S4x4096x256.Idx) : val_main_v2 (F := Ideal) X Wv i = proj X Wv (i 0) (i 1) (i 2) := by
  rw [val_main_v2_apply]
  exact Finset.sum_congr rfl fun k _ => by
    rw [show lidx_main_v2 i k = ix3 (i 0) (i 1) k from
          funext fun a => by match a with | ⟨0, _⟩ => rfl | ⟨1, _⟩ => rfl | ⟨2, _⟩ => rfl,
        show ridx_main_v2 i k = ix2 (i 2) k from
          funext fun a => by match a with | ⟨0, _⟩ => rfl | ⟨1, _⟩ => rfl]
    rfl

/-! ## The scores -/

/-- The unscaled score: the inner product of a query row's and a key row's projections. -/
theorem v5_at (i : S4x4096x4096.Idx) :
    val_main_v5 (F := Ideal) X Wq Wk i = ∑ a : Fin 256, proj X Wq (i 0) (i 1) a * proj X Wk (i 0) (i 2) a := by
  rw [val_main_v5_apply]
  exact Finset.sum_congr rfl fun k _ => by rw [v0_at, v1_at]; rfl

/-- The scaled score. -/
theorem v7_at (i : S4x4096x4096.Idx) :
    val_main_v7 (F := Ideal) X Wq Wk i = score X Wq Wk (i 0) (i 1) (i 2) := by
  rw [val_main_v7_apply, val_main_v6_apply, scale_eq, v5_at]
  rfl

/-! ## The row maximum -/

theorem reduces_d2 : S4x4096x4096.Reduces [2] S4x4096 := by decide

/-- A row index with key coordinate `k` put back on the reduced axis. -/
theorem lift_d2 (j : S4x4096.Idx) (k : Fin 4096) : reduces_d2.lift j k = ix3 (j 0) (j 1) k := by
  funext c; apply Fin.ext
  match c with | ⟨0, _⟩ => rfl | ⟨1, _⟩ => rfl | ⟨2, _⟩ => rfl

/-- The reduce with a maximum body from minus infinity over the key axis is the row's maximal score. -/
theorem v8_at (j : S4x4096.Idx) :
    val_main_v8 (F := Ideal) X Wq Wk j = rowMax X Wq Wk (j 0) (j 1) := by
  unfold val_main_v8
  rw [Host.reduce_eq_fold_single FloatOps.maximumf _ _ reducesTo_S4x4096x4096_S4x4096_d2 reduces_d2 h_S_]
  have hf : (val_main_v7 (F := Ideal) X Wq Wk ∘ reduces_d2.lift j) = fun k : Fin 4096 => score X Wq Wk (j 0) (j 1) k :=
    funext fun (k : Fin 4096) =>
      (congrArg (val_main_v7 (F := Ideal) X Wq Wk) (lift_d2 j k)).trans (v7_at X Wq Wk (ix3 (j 0) (j 1) k))
  rw [hf, val_main_cst_1_apply, Ideal.ofBits_def, ofBits_neg_inf]
  rfl

/-- The further maximum with minus infinity changes nothing. -/
theorem v10_at (j : S4x4096.Idx) :
    val_main_v10 (F := Ideal) X Wq Wk j = rowMax X Wq Wk (j 0) (j 1) := by
  rw [val_main_v10_apply, val_main_v9_apply, val_main_cst_2_apply, v8_at, Ideal.maximumf_def, Ideal.ofBits_def,
    ofBits_neg_inf]
  exact max_bot_left _

/-- The row maximum broadcast along the key axis. -/
theorem v12_at (i : S4x4096x4096.Idx) :
    val_main_v12 (F := Ideal) X Wq Wk i = rowMax X Wq Wk (i 0) (i 1) := by
  rw [val_main_v12_apply, val_main_v11_apply, v10_at]; rfl

/-! ## The exponentials, their row sum and the weights -/

theorem v14_at (i : S4x4096x4096.Idx) :
    val_main_v14 (F := Ideal) X Wq Wk i = ex X Wq Wk (i 0) (i 1) (i 2) := by
  rw [val_main_v14_apply, val_main_v13_apply, v7_at, v12_at]; rfl

/-- The sum from zero over the key axis is the row's normalizer. -/
theorem v15_at (j : S4x4096.Idx) :
    val_main_v15 (F := Ideal) X Wq Wk j = den X Wq Wk (j 0) (j 1) := by
  rw [val_main_v15_apply, val_main_cst_3_apply, Ideal.ofBits_def, Ideal.ofBits_zero_f32, zero_add]
  exact Finset.sum_congr rfl fun k _ => by rw [v14_at]; rfl

theorem v17_at (i : S4x4096x4096.Idx) :
    val_main_v17 (F := Ideal) X Wq Wk i = den X Wq Wk (i 0) (i 1) := by
  rw [val_main_v17_apply, val_main_v16_apply, v15_at]; rfl

theorem v18_at (i : S4x4096x4096.Idx) :
    val_main_v18 (F := Ideal) X Wq Wk i
      = Ideal.div (ex X Wq Wk (i 0) (i 1) (i 2)) (den X Wq Wk (i 0) (i 1)) := by
  rw [val_main_v18_apply, v14_at, v17_at]; rfl

/-! ## The result -/

/-- The reference's last stage, at the ideal instance, is softmax attention index by index. -/
theorem ref_eq_G : val_main_v19 (F := Ideal) X Wq Wk Wv = G X Wq Wk Wv := by
  funext i
  rw [val_main_v19_apply]
  show _ = ∑ j : Fin 4096, Ideal.div (ex X Wq Wk (i 0) (i 1) j) (den X Wq Wk (i 0) (i 1)) * proj X Wv (i 0) j (i 2)
  exact Finset.sum_congr rfl fun k _ => by rw [v18_at, v2_at]; rfl

end Cert.Proof.RefIsG

end
-- ==== Proof.Finite.lean ====
/-
  Finite inputs.

  The certificate's precondition says, of each of the four argument arrays, that every entry's absolute value is
  below plus infinity. On the extended reals an entry whose absolute value `max x (-x)` is below `⊤` is neither
  `⊤` nor `⊥`, so it is a real. The precondition is a conjunction of four reductions by `and` over all axes, each
  of which is one exactly when every compared entry is one.
-/
import proofs.«127055_j20289425507095_2_alg».proof.Defs
import proofs.«127055_j20289425507095_2_alg».proof.Proof.Gen.KernelIdeal
import proofs.«127055_j20289425507095_2_alg».proof.Proof.Gen.Pre_finite_inputs
import Idealize.ShloMosaic.Lib.ReduceAll
import Idealize.ShloMosaic.Lib.ValueIdx

namespace Cert.Proof.Finite

open Idealize.ShloMosaic Idealize.ShloMosaic.ValueIdx Idealize.SL.Sem

/-- The f32 pattern of plus infinity denotes `⊤`. -/
theorem ofBits_inf : Ideal.ofBits .f32 0x7F800000#32 = (⊤ : EReal) := by
  simp [Ideal.ofBits, Ideal.ieee]

/-- An extended real whose absolute value is below plus infinity is a real. -/
theorem real_of_abs_lt_top (x : EReal) (h : max x (-x) < ⊤) : ∃ r : ℝ, x = (r : EReal) := by
  induction x using EReal.rec with
  | bot => simp at h
  | coe r => exact ⟨r, rfl⟩
  | top => simp at h

/-- The element test `|x| < +inf` being one says `x` is a real. -/
theorem real_of_test (x : EReal)
    (h : FloatOps.cmpf (F := Ideal) (φ := .f32) .olt (FloatOps.hostAbsf (F := Ideal) (φ := .f32) x)
      (Ideal.ofBits .f32 0x7F800000#32) = 1#1) : ∃ r : ℝ, x = (r : EReal) := by
  rw [ofBits_inf] at h
  refine real_of_abs_lt_top x ?_
  by_contra hn
  have : FloatOps.cmpf (F := Ideal) (φ := .f32) .olt (FloatOps.hostAbsf (F := Ideal) (φ := .f32) x) (⊤ : EReal) = 0#1 := by
    show BitVec.ofBool (decide (max x (-x) < ⊤)) = 0#1
    rw [decide_eq_false hn]; rfl
  rw [this] at h
  exact absurd h (by decide)

/-- The shape of rank zero has one index. -/
local instance : Subsingleton Cert.Pre_finite_inputs.S_.Idx := ⟨fun a b => funext fun d => d.elim0⟩

/-- One array's reduction by `and`, over all axes, of the tests `|x| < +inf` being one says every entry of the
    array is a real. -/
theorem array_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
        (cmpf .olt (Host.absf x)
          (broadcastInDim s ![] hb (constant (F := Ideal) Cert.Pre_finite_inputs.S_ .f32 0x7F800000#32)))
        init hr hu ix0 = 1#1) :
    ∀ y, ∃ r : ℝ, x y = (r : EReal) := fun y =>
  real_of_test (x y) (Host.reduce_andi_all _ init hr hu ix0 e y)

/-- Under the precondition every entry of each of the four argument arrays is a real, on every device. -/
theorem finite_of_pre
    (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m)
    (c : Dev Cert.KernelIdeal.nD) :
    (∀ y, ∃ r : ℝ, m ((c.tc : Thread Cert.KernelIdeal.nD Cert.KernelIdeal.τ).loc Cert.KernelIdeal.main_arg0) y = (r : EReal))
    ∧ (∀ y, ∃ r : ℝ, m ((c.tc : Thread Cert.KernelIdeal.nD Cert.KernelIdeal.τ).loc Cert.KernelIdeal.main_arg1) y = (r : EReal))
    ∧ (∀ y, ∃ r : ℝ, m ((c.tc : Thread Cert.KernelIdeal.nD Cert.KernelIdeal.τ).loc Cert.KernelIdeal.main_arg2) y = (r : EReal))
    ∧ (∀ y, ∃ r : ℝ, m ((c.tc : Thread Cert.KernelIdeal.nD Cert.KernelIdeal.τ).loc Cert.KernelIdeal.main_arg3) y = (r : EReal)) := by
  have h0 := congrFun (h c) ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨array_real _ _ _ _ _ h0', array_real _ _ _ _ _ h1, array_real _ _ _ _ _ h2, array_real _ _ _ _ _ h3⟩

end Cert.Proof.Finite
-- ==== Proof.KI.Conds.lean ====
/-
  The attention kernel's grid is (batch, query tile, key tile) = (4, 4, 4), visited in row-major order, so the
  point at position t has key tile t mod 4 and query tile (t / 4) mod 4. The body branches on three conditions of
  the point: the query tile is the batch's first (the key and value projections of the current key tile are
  computed and stored into their caches), the key tile is the row's first (the scaled query projection is stored
  and the running maximum, the running sum and the accumulator are reset), and the key tile is the row's last (the
  accumulator divided by the running sum is stored into the output block). Each is decided over the 64 points.
-/
import proofs.«127055_j20289425507095_2_alg».proof.Proof.Gen.KernelIdeal.Launch
import proofs.«127055_j20289425507095_2_alg».proof.Proof.Gen.KernelIdeal.Skeleton
import proofs.«127055_j20289425507095_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The query tile is the batch's first. -/
abbrev condQi0 (i : grid0.Coords) : Prop := k0_cond1 i = 1#1
/-- The key tile is the row's first. -/
abbrev condKi0 (i : grid0.Coords) : Prop := (Scalar.cmpi .ne (Scalar.extui (Scalar.cmpi .eq (BitVec.ofNat 32 (i 2).val) 0#32)) 0#32) = 1#1
/-- The key tile is the row's last. -/
abbrev condKi3 (i : grid0.Coords) : Prop := k0_cond3 i = 1#1

theorem hcondQi0 : ∀ t : Fin cfg0.N, condQi0 (grid0.coords t) ↔ (t.val / 4) % 4 = 0 :=
  (by decide +kernel : ∀ t : Fin grid0.N, condQi0 (grid0.coords t) ↔ (t.val / 4) % 4 = 0)
theorem hcondKi0 : ∀ t : Fin cfg0.N, condKi0 (grid0.coords t) ↔ t.val % 4 = 0 :=
  (by decide +kernel : ∀ t : Fin grid0.N, condKi0 (grid0.coords t) ↔ t.val % 4 = 0)
theorem hcondKi3 : ∀ t : Fin cfg0.N, condKi3 (grid0.coords t) ↔ t.val % 4 = 3 :=
  (by decide +kernel : ∀ t : Fin grid0.N, condKi3 (grid0.coords t) ↔ t.val % 4 = 3)

end Cert.KernelIdeal.Body

end
-- ==== Proof.LibWholeStore.lean ====
/-
  Reading back a buffer after a list of stores whose newest store covers the whole buffer: the newest store's value,
  whatever the buffer held before and whatever the earlier stores were. And a block loaded through a unit-stride
  rectangle of a named offset does not depend on how the offset is spelled.
-/
import Idealize.ShloMosaic.Lib.WritesUnit
import Idealize.ShloMosaic.Lib.Pipeline.Value

namespace Cert.LibWholeStore

open Idealize.ShloMosaic

variable {sig : RefSig} {κ : Kind} {sp : Space} {S : Shape} {e : EltTy} {Val : EltTy → Type}

/-- The newest piece covers the whole shape (offsets zero, the shape's own sizes): the buffer reads its payload. -/
theorem read_writes_cons_whole (v : View sig κ sp S e) (f : v.ty.Contents Val) {off : Fin S.rank → ℕ}
    (h : off = fun _ => 0) (inb : ∀ a, off a + S.size a ≤ S.size a)
    (w : (Rect.unit off S.size inb).shape.Idx → Val e) (L : List (View.Piece Val S e)) :
    v.read Val (v.writes Val f ((⟨Rect.unit off S.size inb, w⟩ : View.Piece Val S e) :: L)) = w := by
  funext y
  exact View.read_writes_cons_unit_of_mem v f inb w L y y h fun a => (Nat.zero_add _).symm

/-- A block loaded through a unit-stride rectangle, the offsets given up to an equation. -/
theorem ld_unit_congr {T : Shape} (X : T.Idx → Val e) {off off' : Fin T.rank → ℕ} {size : Fin T.rank → ℕ}
    (h : off = off') (inb : ∀ a, off a + size a ≤ T.size a) (inb' : ∀ a, off' a + size a ≤ T.size a) :
    View.ld X (Rect.unit off size inb) = View.ld X (Rect.unit off' size inb') := by
  subst h; rfl

end Cert.LibWholeStore
-- ==== Proof.KI.Data.lean ====
/-
  The attention kernel over its grid: what each window hands the body at each point, which key and value
  projections each point stores into the two caches, and the per-row online-softmax state the scratch buffers hold
  after each point, as the specification's recursion read along the grid's order. The point at position n has batch
  n / 16, query tile (n / 4) mod 4 and key tile n mod 4; the key and value projections of key tile j of a batch are
  stored when the first query tile of that batch visits it, at position 16 (n / 16) + j, and a row of key tiles
  starts at position n - n mod 4.
-/
import proofs.«127055_j20289425507095_2_alg».proof.Proof.Gen.KernelIdeal.Launch
import proofs.«127055_j20289425507095_2_alg».proof.Proof.Gen.KernelIdeal.Skeleton
import proofs.«127055_j20289425507095_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«127055_j20289425507095_2_alg».proof.Proof.KI.Conds
import proofs.«127055_j20289425507095_2_alg».proof.Proof.KI.Spec
import proofs.«127055_j20289425507095_2_alg».proof.Proof.LibWholeStore

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Spec Cert.LibWholeStore

variable (m : (ℓ : Loc nD τ sig) → Buf (Elt F) ℓ)

/-- The TensorCore buffers' contents when the region is entered (no host operation precedes it). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem N_eq : cfg0.N = 64 := N_0

/-- The grid point at position `n` (positions are taken modulo the 64 points). -/
def pt (n : ℕ) : Fin cfg0.N := ⟨n % 64, by rw [N_eq]; exact Nat.mod_lt _ (by decide)⟩

theorem val_lt (t : Fin cfg0.N) : t.val < 64 := lt_of_lt_of_eq t.isLt N_eq

theorem pt_val (t : Fin cfg0.N) : pt t.val = t := Fin.ext (Nat.mod_eq_of_lt (val_lt t))

/-- The five input blocks at the point of position `n`: the query rows, the key rows, and the three weight matrices. -/
def XQ (c : Dev nD) (n : ℕ) : Vec F S1x1024x256 .f32 := iblk m c 0 (pt n)
def XK (c : Dev nD) (n : ℕ) : Vec F S1x1024x256 .f32 := iblk m c 1 (pt n)
def WQ (c : Dev nD) (n : ℕ) : Vec F S256x256 .f32 := iblk m c 2 (pt n)
def WK (c : Dev nD) (n : ℕ) : Vec F S256x256 .f32 := iblk m c 3 (pt n)
def WV (c : Dev nD) (n : ℕ) : Vec F S256x256 .f32 := iblk m c 4 (pt n)

/-- The key and value projections the point of position `n` computes from its key rows. -/
def KT (c : Dev nD) (n : ℕ) : Vec F S1024x256 .bf16 := kTile (XK m c n) (WK m c n)
def VT (c : Dev nD) (n : ℕ) : Vec F S1024x256 .bf16 := vTile (XK m c n) (WV m c n)

/-- Where key tile `j` of the batch of position `n` is projected: at the batch's first query tile. -/
def kvPt (n j : ℕ) : ℕ := 16 * (n / 16) + j
/-- Where the row of key tiles of position `n` starts. -/
def rowPt (n : ℕ) : ℕ := n - n % 4

/-- The online-softmax state after the point of position `n`: the row's key tiles `0 … n mod 4` absorbed. -/
def ST (c : Dev nD) (n : ℕ) : OSt F :=
  rowSt (XQ m c (rowPt n)) (WQ m c (rowPt n)) (fun j => KT m c (kvPt n j)) (fun j => VT m c (kvPt n j)) (n % 4)

/-- The output block the point of position `n` would store: accumulator over sum. -/
def OUT (c : Dev nD) (n : ℕ) : Vec F S1x1024x256 .f32 := outOf (ST m c n)

/-- At a row's first key tile the state is one update of the fresh state. -/
theorem ST_first (c : Dev nD) (n : ℕ) (h : n % 4 = 0) :
    ST m c n = stepSt (KT m c (kvPt n 0)) (VT m c (kvPt n 0)) (freshSt (XQ m c n) (WQ m c n)) := by
  unfold ST
  rw [h, show rowPt n = n from by unfold rowPt; omega]
  rfl

/-- At a later key tile it is one update of the state the point before left. -/
theorem ST_next (c : Dev nD) (n : ℕ) (h : n % 4 ≠ 0) :
    ST m c n = stepSt (KT m c (kvPt n (n % 4))) (VT m c (kvPt n (n % 4))) (ST m c (n - 1)) := by
  unfold ST
  obtain ⟨j, hj⟩ : ∃ j, n % 4 = j + 1 := ⟨n % 4 - 1, by omega⟩
  have h1 : (n - 1) % 4 = j := by omega
  have h2 : rowPt (n - 1) = rowPt n := by unfold rowPt; omega
  have h3 : (fun j' => KT m c (kvPt (n - 1) j')) = fun j' => KT m c (kvPt n j') :=
    funext fun j' => by rw [show kvPt (n - 1) j' = kvPt n j' from by unfold kvPt; omega]
  have h4 : (fun j' => VT m c (kvPt (n - 1) j')) = fun j' => VT m c (kvPt n j') :=
    funext fun j' => by rw [show kvPt (n - 1) j' = kvPt n j' from by unfold kvPt; omega]
  rw [hj, h1, h2, h3, h4]
  rfl

/-! ## The caches' tiles -/

theorem tile_inb (j : ℕ) (hj : j < 4) : ∀ a, (![1024 * j, 0] : Fin 2 → ℕ) a + S1024x256.size a ≤ S4096x256.size a := by
  intro a
  match a with
  | ⟨0, _⟩ => show 1024 * j + 1024 ≤ 4096; omega
  | ⟨1, _⟩ => show 0 + 256 ≤ 256; omega

/-- Rows `1024 j … 1024 j + 1023` of a cache. -/
def tile (x : Vec F S4096x256 .bf16) (j : ℕ) (hj : j < 4) : Vec F S1024x256 .bf16 :=
  View.ld x (Rect.unit ![1024 * j, 0] S1024x256.size (tile_inb j hj))

/-- The body's two offset chains into the caches are the key tile's first row, column zero. -/
theorem off2_eq : ∀ t : Fin cfg0.N, k0_off2 (grid0.coords t) = ![1024 * (t.val % 4), 0] :=
  (by decide +kernel : ∀ t : Fin grid0.N, k0_off2 (grid0.coords t) = ![1024 * (t.val % 4), 0])
theorem off1_eq : ∀ t : Fin cfg0.N, k0_off1 (grid0.coords t) = ![1024 * (t.val % 4), 0] :=
  (by decide +kernel : ∀ t : Fin grid0.N, k0_off1 (grid0.coords t) = ![1024 * (t.val % 4), 0])

end Cert.KernelIdeal.Body

end
-- ==== Proof.KI.RunA.lean ====
/-
  The kernel body run once, symbolically, at a point of one control case: first query tile, first key tile.
-/
import proofs.«127055_j20289425507095_2_alg».proof.Proof.Gen.KernelIdeal.Launch
import proofs.«127055_j20289425507095_2_alg».proof.Proof.Gen.KernelIdeal.Skeleton
import proofs.«127055_j20289425507095_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«127055_j20289425507095_2_alg».proof.Proof.KI.Conds

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The whole body at a point of this case (first query tile, first key tile), on whole staging and scratch buffers owned at named contents:
    it runs to its end, every buffer it only reads is handed back as it was, and every buffer it stores into ends at
    its former contents with the stored pieces written over them, the pieces being those the run meets. -/
noncomputable def runA (c : Dev nD) (i : grid0.Coords) (arg3 : Memref sig .tc .vmem S1x1024x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x256 .f32) (harg14 : arg14.IsWhole)
    (hc1 : condQi0 i) (hc2 : condKi0 i) (hc3 : ¬condKi3 i)
    (x3 : Vec F S1x1024x256 .f32) (x4 : Vec F S1x1024x256 .f32) (x5 : Vec F S256x256 .f32) (x6 : Vec F S256x256 .f32) (x7 : Vec F S256x256 .f32) (x8 : Vec F S1x1024x256 .f32) (x9 : Vec F S1024x256 .f32) (x10 : Vec F S4096x256 .bf16) (x11 : Vec F S4096x256 .bf16) (x12 : Vec F S1024x1 .f32) (x13 : Vec F S1024x1 .f32) (x14 : Vec F S1024x256 .f32) :
    Σ' (L9 : List (View.Piece (Elt F) S1024x256 .f32)) (L10 : List (View.Piece (Elt F) S4096x256 .bf16)) (L11 : List (View.Piece (Elt F) S4096x256 .bf16)) (L12 : List (View.Piece (Elt F) S1024x1 .f32)) (L13 : List (View.Piece (Elt F) S1024x1 .f32)), { L14 : List (View.Piece (Elt F) S1024x256 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (arg9.view.read (Elt F) (arg9.view.writes (Elt F) (harg9.unread x9) L9)) ∗ owns (c : Thread nD τ) arg10 fullShare (arg10.view.read (Elt F) (arg10.view.writes (Elt F) (harg10.unread x10) L10)) ∗ owns (c : Thread nD τ) arg11 fullShare (arg11.view.read (Elt F) (arg11.view.writes (Elt F) (harg11.unread x11) L11)) ∗ owns (c : Thread nD τ) arg12 fullShare (arg12.view.read (Elt F) (arg12.view.writes (Elt F) (harg12.unread x12) L12)) ∗ owns (c : Thread nD τ) arg13 fullShare (arg13.view.read (Elt F) (arg13.view.writes (Elt F) (harg13.unread x13) L13)) ∗ owns (c : Thread nD τ) arg14 fullShare (arg14.view.read (Elt F) (arg14.view.writes (Elt F) (harg14.unread x14) L14))) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [cc0__attn_kernel_eq_skeleton]; unfold cc0__attn_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
    sl_exec (disch := first | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    iexists _; isplitr; swap; · iexact H14
    ipureintro; rfl

end Cert.KernelIdeal.Body

end
-- ==== Proof.KI.RunB.lean ====
/-
  The kernel body run once, symbolically, at a point of one control case: first query tile, a middle key tile.
-/
import proofs.«127055_j20289425507095_2_alg».proof.Proof.Gen.KernelIdeal.Launch
import proofs.«127055_j20289425507095_2_alg».proof.Proof.Gen.KernelIdeal.Skeleton
import proofs.«127055_j20289425507095_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«127055_j20289425507095_2_alg».proof.Proof.KI.Conds

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The whole body at a point of this case (first query tile, a middle key tile), on whole staging and scratch buffers owned at named contents:
    it runs to its end, every buffer it only reads is handed back as it was, and every buffer it stores into ends at
    its former contents with the stored pieces written over them, the pieces being those the run meets. -/
noncomputable def runB (c : Dev nD) (i : grid0.Coords) (arg3 : Memref sig .tc .vmem S1x1024x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x256 .f32) (harg14 : arg14.IsWhole)
    (hc1 : condQi0 i) (hc2 : ¬condKi0 i) (hc3 : ¬condKi3 i)
    (x3 : Vec F S1x1024x256 .f32) (x4 : Vec F S1x1024x256 .f32) (x5 : Vec F S256x256 .f32) (x6 : Vec F S256x256 .f32) (x7 : Vec F S256x256 .f32) (x8 : Vec F S1x1024x256 .f32) (x9 : Vec F S1024x256 .f32) (x10 : Vec F S4096x256 .bf16) (x11 : Vec F S4096x256 .bf16) (x12 : Vec F S1024x1 .f32) (x13 : Vec F S1024x1 .f32) (x14 : Vec F S1024x256 .f32) :
    Σ' (L10 : List (View.Piece (Elt F) S4096x256 .bf16)) (L11 : List (View.Piece (Elt F) S4096x256 .bf16)) (L12 : List (View.Piece (Elt F) S1024x1 .f32)) (L13 : List (View.Piece (Elt F) S1024x1 .f32)), { L14 : List (View.Piece (Elt F) S1024x256 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (arg10.view.read (Elt F) (arg10.view.writes (Elt F) (harg10.unread x10) L10)) ∗ owns (c : Thread nD τ) arg11 fullShare (arg11.view.read (Elt F) (arg11.view.writes (Elt F) (harg11.unread x11) L11)) ∗ owns (c : Thread nD τ) arg12 fullShare (arg12.view.read (Elt F) (arg12.view.writes (Elt F) (harg12.unread x12) L12)) ∗ owns (c : Thread nD τ) arg13 fullShare (arg13.view.read (Elt F) (arg13.view.writes (Elt F) (harg13.unread x13) L13)) ∗ owns (c : Thread nD τ) arg14 fullShare (arg14.view.read (Elt F) (arg14.view.writes (Elt F) (harg14.unread x14) L14))) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0__attn_kernel_eq_skeleton]; unfold cc0__attn_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
    sl_exec (disch := first | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; swap; · iexact H10
      ipureintro; rfl
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    iexists _; isplitr; swap; · iexact H14
    ipureintro; rfl

end Cert.KernelIdeal.Body

end
-- ==== Proof.KI.RunC.lean ====
/-
  The kernel body run once, symbolically, at a point of one control case: first query tile, last key tile.
-/
import proofs.«127055_j20289425507095_2_alg».proof.Proof.Gen.KernelIdeal.Launch
import proofs.«127055_j20289425507095_2_alg».proof.Proof.Gen.KernelIdeal.Skeleton
import proofs.«127055_j20289425507095_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«127055_j20289425507095_2_alg».proof.Proof.KI.Conds

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The whole body at a point of this case (first query tile, last key tile), on whole staging and scratch buffers owned at named contents:
    it runs to its end, every buffer it only reads is handed back as it was, and every buffer it stores into ends at
    its former contents with the stored pieces written over them, the pieces being those the run meets. -/
noncomputable def runC (c : Dev nD) (i : grid0.Coords) (arg3 : Memref sig .tc .vmem S1x1024x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x256 .f32) (harg14 : arg14.IsWhole)
    (hc1 : condQi0 i) (hc2 : ¬condKi0 i) (hc3 : condKi3 i)
    (x3 : Vec F S1x1024x256 .f32) (x4 : Vec F S1x1024x256 .f32) (x5 : Vec F S256x256 .f32) (x6 : Vec F S256x256 .f32) (x7 : Vec F S256x256 .f32) (x8 : Vec F S1x1024x256 .f32) (x9 : Vec F S1024x256 .f32) (x10 : Vec F S4096x256 .bf16) (x11 : Vec F S4096x256 .bf16) (x12 : Vec F S1024x1 .f32) (x13 : Vec F S1024x1 .f32) (x14 : Vec F S1024x256 .f32) :
    Σ' (L8 : List (View.Piece (Elt F) S1x1024x256 .f32)) (L10 : List (View.Piece (Elt F) S4096x256 .bf16)) (L11 : List (View.Piece (Elt F) S4096x256 .bf16)) (L12 : List (View.Piece (Elt F) S1024x1 .f32)) (L13 : List (View.Piece (Elt F) S1024x1 .f32)), { L14 : List (View.Piece (Elt F) S1024x256 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (arg8.view.read (Elt F) (arg8.view.writes (Elt F) (harg8.unread x8) L8)) ∗ owns (c : Thread nD τ) arg9 fullShare x9 ∗ owns (c : Thread nD τ) arg10 fullShare (arg10.view.read (Elt F) (arg10.view.writes (Elt F) (harg10.unread x10) L10)) ∗ owns (c : Thread nD τ) arg11 fullShare (arg11.view.read (Elt F) (arg11.view.writes (Elt F) (harg11.unread x11) L11)) ∗ owns (c : Thread nD τ) arg12 fullShare (arg12.view.read (Elt F) (arg12.view.writes (Elt F) (harg12.unread x12) L12)) ∗ owns (c : Thread nD τ) arg13 fullShare (arg13.view.read (Elt F) (arg13.view.writes (Elt F) (harg13.unread x13) L13)) ∗ owns (c : Thread nD τ) arg14 fullShare (arg14.view.read (Elt F) (arg14.view.writes (Elt F) (harg14.unread x14) L14))) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [cc0__attn_kernel_eq_skeleton]; unfold cc0__attn_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
    sl_exec (disch := first | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro; rfl
    isplitl [H9]
    · iexists _; isplitr; · ipureintro; exact harg9.read_unread _
      iexact H9
    isplitl [H10]
    · iexists _; isplitr; swap; · iexact H10
      ipureintro; rfl
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    iexists _; isplitr; swap; · iexact H14
    ipureintro; rfl

end Cert.KernelIdeal.Body

end
-- ==== Proof.KI.RunD.lean ====
/-
  The kernel body run once, symbolically, at a point of one control case: a later query tile, first key tile.
-/
import proofs.«127055_j20289425507095_2_alg».proof.Proof.Gen.KernelIdeal.Launch
import proofs.«127055_j20289425507095_2_alg».proof.Proof.Gen.KernelIdeal.Skeleton
import proofs.«127055_j20289425507095_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«127055_j20289425507095_2_alg».proof.Proof.KI.Conds

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The whole body at a point of this case (a later query tile, first key tile), on whole staging and scratch buffers owned at named contents:
    it runs to its end, every buffer it only reads is handed back as it was, and every buffer it stores into ends at
    its former contents with the stored pieces written over them, the pieces being those the run meets. -/
noncomputable def runD (c : Dev nD) (i : grid0.Coords) (arg3 : Memref sig .tc .vmem S1x1024x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x256 .f32) (harg14 : arg14.IsWhole)
    (hc1 : ¬condQi0 i) (hc2 : condKi0 i) (hc3 : ¬condKi3 i)
    (x3 : Vec F S1x1024x256 .f32) (x4 : Vec F S1x1024x256 .f32) (x5 : Vec F S256x256 .f32) (x6 : Vec F S256x256 .f32) (x7 : Vec F S256x256 .f32) (x8 : Vec F S1x1024x256 .f32) (x9 : Vec F S1024x256 .f32) (x10 : Vec F S4096x256 .bf16) (x11 : Vec F S4096x256 .bf16) (x12 : Vec F S1024x1 .f32) (x13 : Vec F S1024x1 .f32) (x14 : Vec F S1024x256 .f32) :
    Σ' (L9 : List (View.Piece (Elt F) S1024x256 .f32)) (L12 : List (View.Piece (Elt F) S1024x1 .f32)) (L13 : List (View.Piece (Elt F) S1024x1 .f32)), { L14 : List (View.Piece (Elt F) S1024x256 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (arg9.view.read (Elt F) (arg9.view.writes (Elt F) (harg9.unread x9) L9)) ∗ owns (c : Thread nD τ) arg10 fullShare x10 ∗ owns (c : Thread nD τ) arg11 fullShare x11 ∗ owns (c : Thread nD τ) arg12 fullShare (arg12.view.read (Elt F) (arg12.view.writes (Elt F) (harg12.unread x12) L12)) ∗ owns (c : Thread nD τ) arg13 fullShare (arg13.view.read (Elt F) (arg13.view.writes (Elt F) (harg13.unread x13) L13)) ∗ owns (c : Thread nD τ) arg14 fullShare (arg14.view.read (Elt F) (arg14.view.writes (Elt F) (harg14.unread x14) L14))) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0__attn_kernel_eq_skeleton]; unfold cc0__attn_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
    sl_exec (disch := first | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; swap; · iexact H9
      ipureintro; rfl
    isplitl [H10]
    · iexists _; isplitr; · ipureintro; exact harg10.read_unread _
      iexact H10
    isplitl [H11]
    · iexists _; isplitr; · ipureintro; exact harg11.read_unread _
      iexact H11
    isplitl [H12]
    · iexists _; isplitr; swap; · iexact H12
      ipureintro; rfl
    isplitl [H13]
    · iexists _; isplitr; swap; · iexact H13
      ipureintro; rfl
    iexists _; isplitr; swap; · iexact H14
    ipureintro; rfl

end Cert.KernelIdeal.Body

end
-- ==== Proof.KI.RunE.lean ====
/-
  The kernel body run once, symbolically, at a point of one control case: a later query tile, a middle key tile.
-/
import proofs.«127055_j20289425507095_2_alg».proof.Proof.Gen.KernelIdeal.Launch
import proofs.«127055_j20289425507095_2_alg».proof.Proof.Gen.KernelIdeal.Skeleton
import proofs.«127055_j20289425507095_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«127055_j20289425507095_2_alg».proof.Proof.KI.Conds

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The whole body at a point of this case (a later query tile, a middle key tile), on whole staging and scratch buffers owned at named contents:
    it runs to its end, every buffer it only reads is handed back as it was, and every buffer it stores into ends at
    its former contents with the stored pieces written over them, the pieces being those the run meets. -/
noncomputable def runE (c : Dev nD) (i : grid0.Coords) (arg3 : Memref sig .tc .vmem S1x1024x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x256 .f32) (harg14 : arg14.IsWhole)
    (hc1 : ¬condQi0 i) (hc2 : ¬condKi0 i) (hc3 : ¬condKi3 i)
    (x3 : Vec F S1x1024x256 .f32) (x4 : Vec F S1x1024x256 .f32) (x5 : Vec F S256x256 .f32) (x6 : Vec F S256x256 .f32) (x7 : Vec F S256x256 .f32) (x8 : Vec F S1x1024x256 .f32) (x9 : Vec F S1024x256 .f32) (x10 : Vec F S4096x256 .bf16) (x11 : Vec F S4096x256 .bf16) (x12 : Vec F S1024x1 .f32) (x13 : Vec F S1024x1 .f32) (x14 : Vec F S1024x256 .f32) :
    Σ' (L12 : List (View.Piece (Elt F) S1024x1 .f32)) (L13 : List (View.Piece (Elt F) S1024x1 .f32)), { L14 : List (View.Piece (Elt F) S1024x256 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (arg12.view.read (Elt F) (arg12.view.writes (Elt F) (harg12.unread x12) L12)) ∗ owns (c : Thread nD τ) arg13 fullShare (arg13.view.read (Elt F) (arg13.view.writes (Elt F) (harg13.unread x13) L13)) ∗ owns (c : Thread nD τ) arg14 fullShare (arg14.view.read (Elt F) (arg14.view.writes (Elt F) (harg14.unread x14) L14))) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0__attn_kernel_eq_skeleton]; unfold cc0__attn_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
    sl_exec (disch := first | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; swap; · iexact H12
      ipureintro; rfl
    isplitl [H13]
    · iexists _; isplitr; swap; · iexact H13
      ipureintro; rfl
    iexists _; isplitr; swap; · iexact H14
    ipureintro; rfl

end Cert.KernelIdeal.Body

end
-- ==== Proof.KI.RunG.lean ====
/-
  The kernel body run once, symbolically, at a point of one control case: a later query tile, last key tile.
-/
import proofs.«127055_j20289425507095_2_alg».proof.Proof.Gen.KernelIdeal.Launch
import proofs.«127055_j20289425507095_2_alg».proof.Proof.Gen.KernelIdeal.Skeleton
import proofs.«127055_j20289425507095_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«127055_j20289425507095_2_alg».proof.Proof.KI.Conds

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The whole body at a point of this case (a later query tile, last key tile), on whole staging and scratch buffers owned at named contents:
    it runs to its end, every buffer it only reads is handed back as it was, and every buffer it stores into ends at
    its former contents with the stored pieces written over them, the pieces being those the run meets. -/
noncomputable def runG (c : Dev nD) (i : grid0.Coords) (arg3 : Memref sig .tc .vmem S1x1024x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x256 .f32) (harg14 : arg14.IsWhole)
    (hc1 : ¬condQi0 i) (hc2 : ¬condKi0 i) (hc3 : condKi3 i)
    (x3 : Vec F S1x1024x256 .f32) (x4 : Vec F S1x1024x256 .f32) (x5 : Vec F S256x256 .f32) (x6 : Vec F S256x256 .f32) (x7 : Vec F S256x256 .f32) (x8 : Vec F S1x1024x256 .f32) (x9 : Vec F S1024x256 .f32) (x10 : Vec F S4096x256 .bf16) (x11 : Vec F S4096x256 .bf16) (x12 : Vec F S1024x1 .f32) (x13 : Vec F S1024x1 .f32) (x14 : Vec F S1024x256 .f32) :
    Σ' (L8 : List (View.Piece (Elt F) S1x1024x256 .f32)) (L12 : List (View.Piece (Elt F) S1024x1 .f32)) (L13 : List (View.Piece (Elt F) S1024x1 .f32)), { L14 : List (View.Piece (Elt F) S1024x256 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (arg8.view.read (Elt F) (arg8.view.writes (Elt F) (harg8.unread x8) L8)) ∗ owns (c : Thread nD τ) arg9 fullShare x9 ∗ owns (c : Thread nD τ) arg10 fullShare x10 ∗ owns (c : Thread nD τ) arg11 fullShare x11 ∗ owns (c : Thread nD τ) arg12 fullShare (arg12.view.read (Elt F) (arg12.view.writes (Elt F) (harg12.unread x12) L12)) ∗ owns (c : Thread nD τ) arg13 fullShare (arg13.view.read (Elt F) (arg13.view.writes (Elt F) (harg13.unread x13) L13)) ∗ owns (c : Thread nD τ) arg14 fullShare (arg14.view.read (Elt F) (arg14.view.writes (Elt F) (harg14.unread x14) L14))) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0__attn_kernel_eq_skeleton]; unfold cc0__attn_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
    sl_exec (disch := first | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro; rfl
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; swap; · iexact H12
      ipureintro; rfl
    isplitl [H13]
    · iexists _; isplitr; swap; · iexact H13
      ipureintro; rfl
    iexists _; isplitr; swap; · iexact H14
    ipureintro; rfl

end Cert.KernelIdeal.Body

end
-- ==== Proof.KI.Steps.lean ====
/-
  What the body leaves in each buffer it stores into, case by case, in the specification's terms. In every case
  the maximum, sum and accumulator scratches end at one online-softmax update of a state s0 with a key tile kt and a
  value tile vt: s0 is the fresh state at a row's first key tile and what the scratches held otherwise; kt and vt
  are the projections just computed from the key rows while the batch's first query tile fills the caches, and the
  current key tile's rows of the caches otherwise. At a row's first key tile the query scratch ends at the scaled
  query projection; while the caches are being filled they end with the current tile's rows overwritten by the new
  projections; at a row's last key tile the output block ends at accumulator over sum.
-/
import proofs.«127055_j20289425507095_2_alg».proof.Proof.Gen.KernelIdeal.Launch
import proofs.«127055_j20289425507095_2_alg».proof.Proof.Gen.KernelIdeal.Skeleton
import proofs.«127055_j20289425507095_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«127055_j20289425507095_2_alg».proof.Proof.KI.Data
import proofs.«127055_j20289425507095_2_alg».proof.Proof.KI.RunA
import proofs.«127055_j20289425507095_2_alg».proof.Proof.KI.RunB
import proofs.«127055_j20289425507095_2_alg».proof.Proof.KI.RunC
import proofs.«127055_j20289425507095_2_alg».proof.Proof.KI.RunD
import proofs.«127055_j20289425507095_2_alg».proof.Proof.KI.RunE
import proofs.«127055_j20289425507095_2_alg».proof.Proof.KI.RunG

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Spec Cert.LibWholeStore

theorem hz2 : (![0, 0] : Fin 2 → ℕ) = fun _ => 0 := funext fun a => by fin_cases a <;> rfl
theorem hz3 : (![0, 0, 0] : Fin 3 → ℕ) = fun _ => 0 := funext fun a => by fin_cases a <;> rfl

/-- The rows a cache was just stored into, read back through the same rectangle (the body's two offset chains are
    one chain): the stored tile. -/
theorem readCov_tile {κ : Kind} {sp : Space} (v : View sig κ sp S4096x256 .bf16) (i : grid0.Coords) (size : Fin 2 → ℕ)
    (inb1 : ∀ a, (k0_off1 i) a + size a ≤ S4096x256.size a) (inb2 : ∀ a, (k0_off2 i) a + size a ≤ S4096x256.size a)
    (w : (Rect.unit (s := S4096x256) (k0_off1 i) size inb1).shape.Idx → Elt F .bf16) :
    v.readCov [(⟨Rect.unit (s := S4096x256) (k0_off1 i) size inb1, w⟩ : View.Piece (Elt F) S4096x256 .bf16)]
      (Rect.unit (s := S4096x256) (k0_off2 i) size inb2).toLoadRect = w :=
  View.readCov_cons_toLoadRect v _ w []

set_option maxHeartbeats 4000000 in
/-- What the body leaves at a point of this case (first query tile, first key tile). -/
theorem runA_leaves (c : Dev nD) (i : grid0.Coords) (arg3 : Memref sig .tc .vmem S1x1024x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x256 .f32) (harg14 : arg14.IsWhole)
    (hc1 : condQi0 i) (hc2 : condKi0 i) (hc3 : ¬condKi3 i) (x3 : Vec F S1x1024x256 .f32) (x4 : Vec F S1x1024x256 .f32) (x5 : Vec F S256x256 .f32) (x6 : Vec F S256x256 .f32) (x7 : Vec F S256x256 .f32) (x8 : Vec F S1x1024x256 .f32) (x9 : Vec F S1024x256 .f32) (x10 : Vec F S4096x256 .bf16) (x11 : Vec F S4096x256 .bf16) (x12 : Vec F S1024x1 .f32) (x13 : Vec F S1024x1 .f32) (x14 : Vec F S1024x256 .f32) :
    arg9.view.read (Elt F) (arg9.view.writes (Elt F) (harg9.unread x9) (runA c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).1) = (freshSt x3 x5).q
      ∧ arg10.view.read (Elt F) (arg10.view.writes (Elt F) (harg10.unread x10) (runA c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.1) = arg10.view.read (Elt F) (arg10.view.writes (Elt F) (harg10.unread x10) [(⟨Rect.unit (s := S4096x256) (k0_off1 i) S1024x256.size (k0_off1_inb i hc1), kTile x4 x6⟩ : View.Piece (Elt F) S4096x256 .bf16)])
      ∧ arg11.view.read (Elt F) (arg11.view.writes (Elt F) (harg11.unread x11) (runA c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.2.1) = arg11.view.read (Elt F) (arg11.view.writes (Elt F) (harg11.unread x11) [(⟨Rect.unit (s := S4096x256) (k0_off1 i) S1024x256.size (k0_off1_inb i hc1), vTile x4 x7⟩ : View.Piece (Elt F) S4096x256 .bf16)])
      ∧ arg12.view.read (Elt F) (arg12.view.writes (Elt F) (harg12.unread x12) (runA c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.2.2.1) = (stepSt (kTile x4 x6) (vTile x4 x7) (freshSt x3 x5)).mx
      ∧ arg13.view.read (Elt F) (arg13.view.writes (Elt F) (harg13.unread x13) (runA c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.2.2.2.1) = (stepSt (kTile x4 x6) (vTile x4 x7) (freshSt x3 x5)).l
      ∧ arg14.view.read (Elt F) (arg14.view.writes (Elt F) (harg14.unread x14) (runA c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.2.2.2.2.1) = (stepSt (kTile x4 x6) (vTile x4 x7) (freshSt x3 x5)).acc := by
  unfold runA
  dsimp only
  sl_unfold_run_names
  refine ⟨?_, ?_, ?_, ?_, ?_, ?_⟩
  all_goals
    first
      | rw [read_writes_cons_whole (S := S1024x1) _ _ hz2]
      | rw [read_writes_cons_whole (S := S1024x256) _ _ hz2]
      | rw [read_writes_cons_whole (S := S1x1024x256) _ _ hz3]
      | skip
  all_goals
    simp only [View.readAt_eq_ld, View.readCov_cons_toLoadRect, readCov_tile,
      harg3.read_unread, harg4.read_unread, harg5.read_unread, harg6.read_unread, harg7.read_unread, harg8.read_unread,
      harg9.read_unread, harg10.read_unread, harg11.read_unread, harg12.read_unread, harg13.read_unread, harg14.read_unread,
      View.ld_unit_zero (S := S1024x256) hz2, View.ld_unit_zero (S := S1024x1) hz2, View.ld_unit_zero (S := S256x256) hz2,
      View.ld_unit_zero (S := S1x1024x256) hz3]
  all_goals (try simp only [kTile, vTile, stepSt, freshSt, outOf])
  all_goals (try rfl)

set_option maxHeartbeats 4000000 in
/-- What the body leaves at a point of this case (first query tile, a middle key tile). -/
theorem runB_leaves (c : Dev nD) (i : grid0.Coords) (arg3 : Memref sig .tc .vmem S1x1024x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x256 .f32) (harg14 : arg14.IsWhole)
    (hc1 : condQi0 i) (hc2 : ¬condKi0 i) (hc3 : ¬condKi3 i) (x3 : Vec F S1x1024x256 .f32) (x4 : Vec F S1x1024x256 .f32) (x5 : Vec F S256x256 .f32) (x6 : Vec F S256x256 .f32) (x7 : Vec F S256x256 .f32) (x8 : Vec F S1x1024x256 .f32) (x9 : Vec F S1024x256 .f32) (x10 : Vec F S4096x256 .bf16) (x11 : Vec F S4096x256 .bf16) (x12 : Vec F S1024x1 .f32) (x13 : Vec F S1024x1 .f32) (x14 : Vec F S1024x256 .f32) :
    arg10.view.read (Elt F) (arg10.view.writes (Elt F) (harg10.unread x10) (runB c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).1) = arg10.view.read (Elt F) (arg10.view.writes (Elt F) (harg10.unread x10) [(⟨Rect.unit (s := S4096x256) (k0_off1 i) S1024x256.size (k0_off1_inb i hc1), kTile x4 x6⟩ : View.Piece (Elt F) S4096x256 .bf16)])
      ∧ arg11.view.read (Elt F) (arg11.view.writes (Elt F) (harg11.unread x11) (runB c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.1) = arg11.view.read (Elt F) (arg11.view.writes (Elt F) (harg11.unread x11) [(⟨Rect.unit (s := S4096x256) (k0_off1 i) S1024x256.size (k0_off1_inb i hc1), vTile x4 x7⟩ : View.Piece (Elt F) S4096x256 .bf16)])
      ∧ arg12.view.read (Elt F) (arg12.view.writes (Elt F) (harg12.unread x12) (runB c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.2.1) = (stepSt (kTile x4 x6) (vTile x4 x7) (⟨x9, x12, x13, x14⟩ : OSt F)).mx
      ∧ arg13.view.read (Elt F) (arg13.view.writes (Elt F) (harg13.unread x13) (runB c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.2.2.1) = (stepSt (kTile x4 x6) (vTile x4 x7) (⟨x9, x12, x13, x14⟩ : OSt F)).l
      ∧ arg14.view.read (Elt F) (arg14.view.writes (Elt F) (harg14.unread x14) (runB c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.2.2.2.1) = (stepSt (kTile x4 x6) (vTile x4 x7) (⟨x9, x12, x13, x14⟩ : OSt F)).acc := by
  unfold runB
  dsimp only
  sl_unfold_run_names
  refine ⟨?_, ?_, ?_, ?_, ?_⟩
  all_goals
    first
      | rw [read_writes_cons_whole (S := S1024x1) _ _ hz2]
      | rw [read_writes_cons_whole (S := S1024x256) _ _ hz2]
      | rw [read_writes_cons_whole (S := S1x1024x256) _ _ hz3]
      | skip
  all_goals
    simp only [View.readAt_eq_ld, View.readCov_cons_toLoadRect, readCov_tile,
      harg3.read_unread, harg4.read_unread, harg5.read_unread, harg6.read_unread, harg7.read_unread, harg8.read_unread,
      harg9.read_unread, harg10.read_unread, harg11.read_unread, harg12.read_unread, harg13.read_unread, harg14.read_unread,
      View.ld_unit_zero (S := S1024x256) hz2, View.ld_unit_zero (S := S1024x1) hz2, View.ld_unit_zero (S := S256x256) hz2,
      View.ld_unit_zero (S := S1x1024x256) hz3]
  all_goals (try simp only [kTile, vTile, stepSt, freshSt, outOf])
  all_goals (try rfl)

set_option maxHeartbeats 4000000 in
/-- What the body leaves at a point of this case (first query tile, last key tile). -/
theorem runC_leaves (c : Dev nD) (i : grid0.Coords) (arg3 : Memref sig .tc .vmem S1x1024x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x256 .f32) (harg14 : arg14.IsWhole)
    (hc1 : condQi0 i) (hc2 : ¬condKi0 i) (hc3 : condKi3 i) (x3 : Vec F S1x1024x256 .f32) (x4 : Vec F S1x1024x256 .f32) (x5 : Vec F S256x256 .f32) (x6 : Vec F S256x256 .f32) (x7 : Vec F S256x256 .f32) (x8 : Vec F S1x1024x256 .f32) (x9 : Vec F S1024x256 .f32) (x10 : Vec F S4096x256 .bf16) (x11 : Vec F S4096x256 .bf16) (x12 : Vec F S1024x1 .f32) (x13 : Vec F S1024x1 .f32) (x14 : Vec F S1024x256 .f32) :
    arg8.view.read (Elt F) (arg8.view.writes (Elt F) (harg8.unread x8) (runC c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).1) = outOf (stepSt (kTile x4 x6) (vTile x4 x7) (⟨x9, x12, x13, x14⟩ : OSt F))
      ∧ arg10.view.read (Elt F) (arg10.view.writes (Elt F) (harg10.unread x10) (runC c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.1) = arg10.view.read (Elt F) (arg10.view.writes (Elt F) (harg10.unread x10) [(⟨Rect.unit (s := S4096x256) (k0_off1 i) S1024x256.size (k0_off1_inb i hc1), kTile x4 x6⟩ : View.Piece (Elt F) S4096x256 .bf16)])
      ∧ arg11.view.read (Elt F) (arg11.view.writes (Elt F) (harg11.unread x11) (runC c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.2.1) = arg11.view.read (Elt F) (arg11.view.writes (Elt F) (harg11.unread x11) [(⟨Rect.unit (s := S4096x256) (k0_off1 i) S1024x256.size (k0_off1_inb i hc1), vTile x4 x7⟩ : View.Piece (Elt F) S4096x256 .bf16)])
      ∧ arg12.view.read (Elt F) (arg12.view.writes (Elt F) (harg12.unread x12) (runC c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.2.2.1) = (stepSt (kTile x4 x6) (vTile x4 x7) (⟨x9, x12, x13, x14⟩ : OSt F)).mx
      ∧ arg13.view.read (Elt F) (arg13.view.writes (Elt F) (harg13.unread x13) (runC c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.2.2.2.1) = (stepSt (kTile x4 x6) (vTile x4 x7) (⟨x9, x12, x13, x14⟩ : OSt F)).l
      ∧ arg14.view.read (Elt F) (arg14.view.writes (Elt F) (harg14.unread x14) (runC c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.2.2.2.2.1) = (stepSt (kTile x4 x6) (vTile x4 x7) (⟨x9, x12, x13, x14⟩ : OSt F)).acc := by
  unfold runC
  dsimp only
  sl_unfold_run_names
  refine ⟨?_, ?_, ?_, ?_, ?_, ?_⟩
  all_goals
    first
      | rw [read_writes_cons_whole (S := S1024x1) _ _ hz2]
      | rw [read_writes_cons_whole (S := S1024x256) _ _ hz2]
      | rw [read_writes_cons_whole (S := S1x1024x256) _ _ hz3]
      | skip
  all_goals
    simp only [View.readAt_eq_ld, View.readCov_cons_toLoadRect, readCov_tile,
      harg3.read_unread, harg4.read_unread, harg5.read_unread, harg6.read_unread, harg7.read_unread, harg8.read_unread,
      harg9.read_unread, harg10.read_unread, harg11.read_unread, harg12.read_unread, harg13.read_unread, harg14.read_unread,
      View.ld_unit_zero (S := S1024x256) hz2, View.ld_unit_zero (S := S1024x1) hz2, View.ld_unit_zero (S := S256x256) hz2,
      View.ld_unit_zero (S := S1x1024x256) hz3]
  all_goals (try simp only [kTile, vTile, stepSt, freshSt, outOf])
  all_goals (try rfl)

set_option maxHeartbeats 4000000 in
/-- What the body leaves at a point of this case (a later query tile, first key tile). -/
theorem runD_leaves (c : Dev nD) (i : grid0.Coords) (arg3 : Memref sig .tc .vmem S1x1024x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x256 .f32) (harg14 : arg14.IsWhole)
    (hc1 : ¬condQi0 i) (hc2 : condKi0 i) (hc3 : ¬condKi3 i) (x3 : Vec F S1x1024x256 .f32) (x4 : Vec F S1x1024x256 .f32) (x5 : Vec F S256x256 .f32) (x6 : Vec F S256x256 .f32) (x7 : Vec F S256x256 .f32) (x8 : Vec F S1x1024x256 .f32) (x9 : Vec F S1024x256 .f32) (x10 : Vec F S4096x256 .bf16) (x11 : Vec F S4096x256 .bf16) (x12 : Vec F S1024x1 .f32) (x13 : Vec F S1024x1 .f32) (x14 : Vec F S1024x256 .f32) :
    arg9.view.read (Elt F) (arg9.view.writes (Elt F) (harg9.unread x9) (runD c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).1) = (freshSt x3 x5).q
      ∧ arg12.view.read (Elt F) (arg12.view.writes (Elt F) (harg12.unread x12) (runD c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.1) = (stepSt (View.ld x10 (Rect.unit (s := S4096x256) (k0_off2 i) S1024x256.size (k0_off2_inb i))) (View.ld x11 (Rect.unit (s := S4096x256) (k0_off2 i) S1024x256.size (k0_off2_inb i))) (freshSt x3 x5)).mx
      ∧ arg13.view.read (Elt F) (arg13.view.writes (Elt F) (harg13.unread x13) (runD c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.2.1) = (stepSt (View.ld x10 (Rect.unit (s := S4096x256) (k0_off2 i) S1024x256.size (k0_off2_inb i))) (View.ld x11 (Rect.unit (s := S4096x256) (k0_off2 i) S1024x256.size (k0_off2_inb i))) (freshSt x3 x5)).l
      ∧ arg14.view.read (Elt F) (arg14.view.writes (Elt F) (harg14.unread x14) (runD c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.2.2.1) = (stepSt (View.ld x10 (Rect.unit (s := S4096x256) (k0_off2 i) S1024x256.size (k0_off2_inb i))) (View.ld x11 (Rect.unit (s := S4096x256) (k0_off2 i) S1024x256.size (k0_off2_inb i))) (freshSt x3 x5)).acc := by
  unfold runD
  dsimp only
  sl_unfold_run_names
  refine ⟨?_, ?_, ?_, ?_⟩
  all_goals
    first
      | rw [read_writes_cons_whole (S := S1024x1) _ _ hz2]
      | rw [read_writes_cons_whole (S := S1024x256) _ _ hz2]
      | rw [read_writes_cons_whole (S := S1x1024x256) _ _ hz3]
      | skip
  all_goals
    simp only [View.readAt_eq_ld, View.readCov_cons_toLoadRect, readCov_tile,
      harg3.read_unread, harg4.read_unread, harg5.read_unread, harg6.read_unread, harg7.read_unread, harg8.read_unread,
      harg9.read_unread, harg10.read_unread, harg11.read_unread, harg12.read_unread, harg13.read_unread, harg14.read_unread,
      View.ld_unit_zero (S := S1024x256) hz2, View.ld_unit_zero (S := S1024x1) hz2, View.ld_unit_zero (S := S256x256) hz2,
      View.ld_unit_zero (S := S1x1024x256) hz3]
  all_goals (try simp only [kTile, vTile, stepSt, freshSt, outOf])
  all_goals (try rfl)

set_option maxHeartbeats 4000000 in
/-- What the body leaves at a point of this case (a later query tile, a middle key tile). -/
theorem runE_leaves (c : Dev nD) (i : grid0.Coords) (arg3 : Memref sig .tc .vmem S1x1024x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x256 .f32) (harg14 : arg14.IsWhole)
    (hc1 : ¬condQi0 i) (hc2 : ¬condKi0 i) (hc3 : ¬condKi3 i) (x3 : Vec F S1x1024x256 .f32) (x4 : Vec F S1x1024x256 .f32) (x5 : Vec F S256x256 .f32) (x6 : Vec F S256x256 .f32) (x7 : Vec F S256x256 .f32) (x8 : Vec F S1x1024x256 .f32) (x9 : Vec F S1024x256 .f32) (x10 : Vec F S4096x256 .bf16) (x11 : Vec F S4096x256 .bf16) (x12 : Vec F S1024x1 .f32) (x13 : Vec F S1024x1 .f32) (x14 : Vec F S1024x256 .f32) :
    arg12.view.read (Elt F) (arg12.view.writes (Elt F) (harg12.unread x12) (runE c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).1) = (stepSt (View.ld x10 (Rect.unit (s := S4096x256) (k0_off2 i) S1024x256.size (k0_off2_inb i))) (View.ld x11 (Rect.unit (s := S4096x256) (k0_off2 i) S1024x256.size (k0_off2_inb i))) (⟨x9, x12, x13, x14⟩ : OSt F)).mx
      ∧ arg13.view.read (Elt F) (arg13.view.writes (Elt F) (harg13.unread x13) (runE c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.1) = (stepSt (View.ld x10 (Rect.unit (s := S4096x256) (k0_off2 i) S1024x256.size (k0_off2_inb i))) (View.ld x11 (Rect.unit (s := S4096x256) (k0_off2 i) S1024x256.size (k0_off2_inb i))) (⟨x9, x12, x13, x14⟩ : OSt F)).l
      ∧ arg14.view.read (Elt F) (arg14.view.writes (Elt F) (harg14.unread x14) (runE c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.2.1) = (stepSt (View.ld x10 (Rect.unit (s := S4096x256) (k0_off2 i) S1024x256.size (k0_off2_inb i))) (View.ld x11 (Rect.unit (s := S4096x256) (k0_off2 i) S1024x256.size (k0_off2_inb i))) (⟨x9, x12, x13, x14⟩ : OSt F)).acc := by
  unfold runE
  dsimp only
  sl_unfold_run_names
  refine ⟨?_, ?_, ?_⟩
  all_goals
    first
      | rw [read_writes_cons_whole (S := S1024x1) _ _ hz2]
      | rw [read_writes_cons_whole (S := S1024x256) _ _ hz2]
      | rw [read_writes_cons_whole (S := S1x1024x256) _ _ hz3]
      | skip
  all_goals
    simp only [View.readAt_eq_ld, View.readCov_cons_toLoadRect, readCov_tile,
      harg3.read_unread, harg4.read_unread, harg5.read_unread, harg6.read_unread, harg7.read_unread, harg8.read_unread,
      harg9.read_unread, harg10.read_unread, harg11.read_unread, harg12.read_unread, harg13.read_unread, harg14.read_unread,
      View.ld_unit_zero (S := S1024x256) hz2, View.ld_unit_zero (S := S1024x1) hz2, View.ld_unit_zero (S := S256x256) hz2,
      View.ld_unit_zero (S := S1x1024x256) hz3]
  all_goals (try simp only [kTile, vTile, stepSt, freshSt, outOf])
  all_goals (try rfl)

set_option maxHeartbeats 4000000 in
/-- What the body leaves at a point of this case (a later query tile, last key tile). -/
theorem runG_leaves (c : Dev nD) (i : grid0.Coords) (arg3 : Memref sig .tc .vmem S1x1024x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x256 .f32) (harg14 : arg14.IsWhole)
    (hc1 : ¬condQi0 i) (hc2 : ¬condKi0 i) (hc3 : condKi3 i) (x3 : Vec F S1x1024x256 .f32) (x4 : Vec F S1x1024x256 .f32) (x5 : Vec F S256x256 .f32) (x6 : Vec F S256x256 .f32) (x7 : Vec F S256x256 .f32) (x8 : Vec F S1x1024x256 .f32) (x9 : Vec F S1024x256 .f32) (x10 : Vec F S4096x256 .bf16) (x11 : Vec F S4096x256 .bf16) (x12 : Vec F S1024x1 .f32) (x13 : Vec F S1024x1 .f32) (x14 : Vec F S1024x256 .f32) :
    arg8.view.read (Elt F) (arg8.view.writes (Elt F) (harg8.unread x8) (runG c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).1) = outOf (stepSt (View.ld x10 (Rect.unit (s := S4096x256) (k0_off2 i) S1024x256.size (k0_off2_inb i))) (View.ld x11 (Rect.unit (s := S4096x256) (k0_off2 i) S1024x256.size (k0_off2_inb i))) (⟨x9, x12, x13, x14⟩ : OSt F))
      ∧ arg12.view.read (Elt F) (arg12.view.writes (Elt F) (harg12.unread x12) (runG c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.1) = (stepSt (View.ld x10 (Rect.unit (s := S4096x256) (k0_off2 i) S1024x256.size (k0_off2_inb i))) (View.ld x11 (Rect.unit (s := S4096x256) (k0_off2 i) S1024x256.size (k0_off2_inb i))) (⟨x9, x12, x13, x14⟩ : OSt F)).mx
      ∧ arg13.view.read (Elt F) (arg13.view.writes (Elt F) (harg13.unread x13) (runG c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.2.1) = (stepSt (View.ld x10 (Rect.unit (s := S4096x256) (k0_off2 i) S1024x256.size (k0_off2_inb i))) (View.ld x11 (Rect.unit (s := S4096x256) (k0_off2 i) S1024x256.size (k0_off2_inb i))) (⟨x9, x12, x13, x14⟩ : OSt F)).l
      ∧ arg14.view.read (Elt F) (arg14.view.writes (Elt F) (harg14.unread x14) (runG c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.2.2.1) = (stepSt (View.ld x10 (Rect.unit (s := S4096x256) (k0_off2 i) S1024x256.size (k0_off2_inb i))) (View.ld x11 (Rect.unit (s := S4096x256) (k0_off2 i) S1024x256.size (k0_off2_inb i))) (⟨x9, x12, x13, x14⟩ : OSt F)).acc := by
  unfold runG
  dsimp only
  sl_unfold_run_names
  refine ⟨?_, ?_, ?_, ?_⟩
  all_goals
    first
      | rw [read_writes_cons_whole (S := S1024x1) _ _ hz2]
      | rw [read_writes_cons_whole (S := S1024x256) _ _ hz2]
      | rw [read_writes_cons_whole (S := S1x1024x256) _ _ hz3]
      | skip
  all_goals
    simp only [View.readAt_eq_ld, View.readCov_cons_toLoadRect, readCov_tile,
      harg3.read_unread, harg4.read_unread, harg5.read_unread, harg6.read_unread, harg7.read_unread, harg8.read_unread,
      harg9.read_unread, harg10.read_unread, harg11.read_unread, harg12.read_unread, harg13.read_unread, harg14.read_unread,
      View.ld_unit_zero (S := S1024x256) hz2, View.ld_unit_zero (S := S1024x1) hz2, View.ld_unit_zero (S := S256x256) hz2,
      View.ld_unit_zero (S := S1x1024x256) hz3]
  all_goals (try simp only [kTile, vTile, stepSt, freshSt, outOf])
  all_goals (try rfl)

end Cert.KernelIdeal.Body

end
-- ==== Proof.KI.Dats.lean ====
/-
  The pipeline's proof data for the attention kernel. Between grid points the six scratch buffers are held at some
  contents of which the following is known after the point of position n: the query scratch holds the row's scaled
  query projection and the maximum, sum and accumulator scratches hold the online-softmax state after that point;
  and, for every key tile the current batch has already projected (all four once the batch's first query tile is
  done, tiles 0 … n mod 4 during it), that tile's rows of the key cache and of the value cache hold its projections.
  Nothing is known of the other rows of the caches, and nothing at all before the first point. The two windows on
  the array x hold it at the two halves of the full share.
-/
import proofs.«127055_j20289425507095_2_alg».proof.Proof.Gen.KernelIdeal.Launch
import proofs.«127055_j20289425507095_2_alg».proof.Proof.Gen.KernelIdeal.Skeleton
import proofs.«127055_j20289425507095_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«127055_j20289425507095_2_alg».proof.Proof.KI.Data

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Spec Cert.LibWholeStore

variable (m : (ℓ : Loc nD τ sig) → Buf (Elt F) ℓ)

/-- The six scratch buffers, whole. -/
abbrev scQ : Memref sig .tc .vmem S1024x256 .f32 := Memref.whole cc0_scratch0
abbrev scK : Memref sig .tc .vmem S4096x256 .bf16 := Memref.whole cc0_scratch1
abbrev scV : Memref sig .tc .vmem S4096x256 .bf16 := Memref.whole cc0_scratch2
abbrev scM : Memref sig .tc .vmem S1024x1 .f32 := Memref.whole cc0_scratch3
abbrev scL : Memref sig .tc .vmem S1024x1 .f32 := Memref.whole cc0_scratch4
abbrev scA : Memref sig .tc .vmem S1024x256 .f32 := Memref.whole cc0_scratch5

/-- What is known of the scratch contents after the point of position `n`. -/
def Inv (c : Dev nD) (n : ℕ) (d9 : Vec F S1024x256 .f32) (d10 d11 : Vec F S4096x256 .bf16)
    (d12 d13 : Vec F S1024x1 .f32) (d14 : Vec F S1024x256 .f32) : Prop :=
  d9 = (ST m c n).q ∧ d12 = (ST m c n).mx ∧ d13 = (ST m c n).l ∧ d14 = (ST m c n).acc
    ∧ ∀ (j : ℕ) (hj : j < 4), ((n / 4) % 4 = 0 → j ≤ n % 4) →
        tile d10 j hj = KT m c (kvPt n j) ∧ tile d11 j hj = VT m c (kvPt n j)

/-- The region's invariant before the point of position `n`: the scratch buffers owned at contents of which, past
    the first point, the facts above hold for the point before. -/
def PhiS (c : Dev nD) (n : ℕ) : sProp 𝕄 :=
  iprop(∃ (d9 : Vec F S1024x256 .f32) (d10 d11 : Vec F S4096x256 .bf16) (d12 d13 : Vec F S1024x1 .f32) (d14 : Vec F S1024x256 .f32),
    ⌜n ≠ 0 → Inv m c (n - 1) d9 d10 d11 d12 d13 d14⌝
      ∗ owns (c : Thread nD τ) scQ fullShare d9 ∗ owns (c : Thread nD τ) scK fullShare d10 ∗ owns (c : Thread nD τ) scV fullShare d11
      ∗ owns (c : Thread nD τ) scM fullShare d12 ∗ owns (c : Thread nD τ) scL fullShare d13 ∗ owns (c : Thread nD τ) scA fullShare d14)

/-- The proof data of the one pipeline on core `c`: the arrays as the region finds them; after the body each input's
    buffer at its block and the output's at the row's accumulator over sum; the invariant above; nothing owed; the
    two windows on `x` at half shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => OUT m c t.val
  Φ t := PhiS m c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = OUT m c t.val := by dsimp only [dats]

theorem Phi_eq (c : Dev nD) (t : Fin (cfg0.N + 1)) : (dats m 0 c).Φ t = PhiS m c t.val := by dsimp only [dats]

end Cert.KernelIdeal.Body

end
-- ==== Proof.KI.Tiles.lean ====
/-
  A cache of 4096 rows is four tiles of 1024 rows. After a store of one tile's rows, that tile reads the stored
  value and every other tile reads what it read before.
-/
import proofs.«127055_j20289425507095_2_alg».proof.Proof.Gen.KernelIdeal.Launch
import proofs.«127055_j20289425507095_2_alg».proof.Proof.Gen.KernelIdeal.Skeleton
import proofs.«127055_j20289425507095_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«127055_j20289425507095_2_alg».proof.Proof.KI.Data

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Spec Cert.LibWholeStore

/-- The stored tile reads the stored value. -/
theorem tile_store_same (arg : Memref sig .tc .vmem S4096x256 .bf16) (harg : arg.IsWhole) (x : Vec F S4096x256 .bf16)
    (off : Fin 2 → ℕ) (inb : ∀ a, off a + S1024x256.size a ≤ S4096x256.size a)
    (w : (Rect.unit (s := S4096x256) off S1024x256.size inb).shape.Idx → Elt F .bf16) (j : ℕ) (hj : j < 4) (hoff : off = ![1024 * j, 0]) :
    tile (arg.view.read (Elt F) (arg.view.writes (Elt F) (harg.unread x)
      [(⟨Rect.unit (s := S4096x256) off S1024x256.size inb, w⟩ : View.Piece (Elt F) S4096x256 .bf16)])) j hj = w := by
  funext y
  refine View.read_writes_cons_rows_of_mem arg.view (harg.unread x) inb w [] _ y hoff ?_ ?_
  · show 1024 * j + 1 * (y 0).val = 1024 * j + (y 0).val
    omega
  · show 0 + 1 * (y 1).val = (y 1).val
    omega

/-- Any other tile reads what it read before the store. -/
theorem tile_store_other (arg : Memref sig .tc .vmem S4096x256 .bf16) (harg : arg.IsWhole) (x : Vec F S4096x256 .bf16)
    (off : Fin 2 → ℕ) (inb : ∀ a, off a + S1024x256.size a ≤ S4096x256.size a)
    (w : (Rect.unit (s := S4096x256) off S1024x256.size inb).shape.Idx → Elt F .bf16) (j : ℕ) (hoff : off = ![1024 * j, 0])
    (j' : ℕ) (hj' : j' < 4) (hne : j' ≠ j) :
    tile (arg.view.read (Elt F) (arg.view.writes (Elt F) (harg.unread x)
      [(⟨Rect.unit (s := S4096x256) off S1024x256.size inb, w⟩ : View.Piece (Elt F) S4096x256 .bf16)])) j' hj' = tile x j' hj' := by
  funext y
  have hy : (y 0).val < 1024 := (y 0).isLt
  refine (View.read_writes_cons_rows_of_not_mem arg.view (harg.unread x) inb w [] _ hoff (W := 1024) rfl ?_).trans ?_
  · show 1024 * j' + 1 * (y 0).val < 1024 * j ∨ 1024 * j + 1024 ≤ 1024 * j' + 1 * (y 0).val
    omega
  · rw [View.writes_nil, harg.read_unread]
    rfl

end Cert.KernelIdeal.Body

end
-- ==== Proof.KI.Sched.lean ====
/-
  The schedule's facts the body obligation needs, and the arithmetic of positions behind the invariant's step.
  The five input windows are never idle and the body leaves their buffers as it found them, so each holds its block
  at every point, fetched there or not. The output window is stored into, and written back, exactly at a row's
  last key tile; elsewhere it is idle. Positions: within a row (n mod 4 ≠ 0) the point before has the same row start
  and the same batch; at a batch's first query tile the point itself projects its key tile; at a later query tile
  every key tile of the batch has been projected.
-/
import proofs.«127055_j20289425507095_2_alg».proof.Proof.Gen.KernelIdeal.Launch
import proofs.«127055_j20289425507095_2_alg».proof.Proof.Gen.KernelIdeal.Skeleton
import proofs.«127055_j20289425507095_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«127055_j20289425507095_2_alg».proof.Proof.KI.Dats
import proofs.«127055_j20289425507095_2_alg».proof.Proof.KI.Tiles

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Spec Cert.LibWholeStore

variable (m : (ℓ : Loc nD τ sig) → Buf (Elt F) ℓ)

/-! ## Idle points and write-backs -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, t.val % 4 = 3 → cfg0.idle 5 (grid0.coords t) = false := by decide +kernel
theorem idleAt0_5 : ∀ t : Fin cfg0.N, ¬t.val % 4 = 3 → cfg0.idle 5 (grid0.coords t) = true := by decide +kernel
theorem noFlush0_5 : ∀ t : Fin cfg0.N, ¬t.val % 4 = 3 → (cfg0.win 5).flush t = false := by decide +kernel

/-! ## The staging memrefs the pipeline passes the body at a point -/

abbrev ms0 (t : Fin cfg0.N) : Memref sig .tc .vmem S1x1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024x256 .f32 := win0_5.stage (cfg0.slots t 5)
abbrev hs5 (t : Fin cfg0.N) : (ms5 t).IsWhole := hstage0_5 ((cfg0.slots t 5).cast nbuf0_5)

/-! ## Each input window's current buffer holds its block -/

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)

/-! ## The blocks at a point, by position -/

theorem XQ_val (c : Dev nD) (t : Fin cfg0.N) : XQ m c t.val = iblk m c 0 t := by unfold XQ; rw [pt_val]
theorem XK_val (c : Dev nD) (t : Fin cfg0.N) : XK m c t.val = iblk m c 1 t := by unfold XK; rw [pt_val]
theorem WQ_val (c : Dev nD) (t : Fin cfg0.N) : WQ m c t.val = iblk m c 2 t := by unfold WQ; rw [pt_val]
theorem WK_val (c : Dev nD) (t : Fin cfg0.N) : WK m c t.val = iblk m c 3 t := by unfold WK; rw [pt_val]
theorem WV_val (c : Dev nD) (t : Fin cfg0.N) : WV m c t.val = iblk m c 4 t := by unfold WV; rw [pt_val]

theorem KT_val (c : Dev nD) (t : Fin cfg0.N) : KT m c t.val = kTile (iblk m c 1 t) (iblk m c 3 t) := by
  unfold KT; rw [XK_val, WK_val]
theorem VT_val (c : Dev nD) (t : Fin cfg0.N) : VT m c t.val = vTile (iblk m c 1 t) (iblk m c 4 t) := by
  unfold VT; rw [XK_val, WV_val]

/-! ## Positions -/

/-- At a batch's first query tile the point projects its own key tile. -/
theorem kvPt_self (n : ℕ) (hq : (n / 4) % 4 = 0) : kvPt n (n % 4) = n := by unfold kvPt; omega

/-- The state after a row's first key tile, from the tiles the body used. -/
theorem ST_of_fresh (c : Dev nD) (n : ℕ) (h0 : n % 4 = 0) (kt vt : Vec F S1024x256 .bf16)
    (hkt : kt = KT m c (kvPt n (n % 4))) (hvt : vt = VT m c (kvPt n (n % 4))) :
    stepSt kt vt (freshSt (XQ m c n) (WQ m c n)) = ST m c n := by
  rw [ST_first m c n h0, hkt, hvt, h0]

/-- The state after a later key tile, from the tiles the body used and the state the point before left. -/
theorem ST_of_prev (c : Dev nD) (n : ℕ) (h0 : n % 4 ≠ 0) (kt vt : Vec F S1024x256 .bf16) (s0 : OSt F)
    (hkt : kt = KT m c (kvPt n (n % 4))) (hvt : vt = VT m c (kvPt n (n % 4))) (hs : s0 = ST m c (n - 1)) :
    stepSt kt vt s0 = ST m c n := by
  rw [ST_next m c n h0, hkt, hvt, hs]

/-- The body's load of the current key tile's rows of a cache is that tile. -/
theorem ld_off2 (t : Fin cfg0.N) (x : Vec F S4096x256 .bf16) :
    View.ld x (Rect.unit (s := S4096x256) (k0_off2 (grid0.coords t)) S1024x256.size (k0_off2_inb (grid0.coords t)))
      = tile x (t.val % 4) (Nat.mod_lt _ (by decide)) :=
  ld_unit_congr x (off2_eq t) _ _

/-- Past a batch's first query tile every key tile of the batch is in the caches (from the point before). -/
theorem tiles_later (c : Dev nD) (n : ℕ) (hn : n ≠ 0) (hq : (n / 4) % 4 ≠ 0)
    (d9 : Vec F S1024x256 .f32) (d10 d11 : Vec F S4096x256 .bf16) (d12 d13 : Vec F S1024x1 .f32) (d14 : Vec F S1024x256 .f32)
    (hInv : Inv m c (n - 1) d9 d10 d11 d12 d13 d14) (j : ℕ) (hj : j < 4) :
    tile d10 j hj = KT m c (kvPt n j) ∧ tile d11 j hj = VT m c (kvPt n j) := by
  have h := hInv.2.2.2.2 j hj (fun h0 => by omega)
  rwa [show kvPt (n - 1) j = kvPt n j from by unfold kvPt; omega] at h

/-- During a batch's first query tile the key tiles before the current one are in the caches (from the point before). -/
theorem tiles_earlier (c : Dev nD) (n : ℕ) (hk : n % 4 ≠ 0)
    (d9 : Vec F S1024x256 .f32) (d10 d11 : Vec F S4096x256 .bf16) (d12 d13 : Vec F S1024x1 .f32) (d14 : Vec F S1024x256 .f32)
    (hInv : Inv m c (n - 1) d9 d10 d11 d12 d13 d14) (j : ℕ) (hj : j < 4) (hlt : j < n % 4) :
    tile d10 j hj = KT m c (kvPt n j) ∧ tile d11 j hj = VT m c (kvPt n j) := by
  have h := hInv.2.2.2.2 j hj (fun h0 => by omega)
  rwa [show kvPt (n - 1) j = kvPt n j from by unfold kvPt; omega] at h

/-- The state the scratches held, named by the invariant of the point before. -/
theorem prev_state (c : Dev nD) (n : ℕ)
    (d9 : Vec F S1024x256 .f32) (d10 d11 : Vec F S4096x256 .bf16) (d12 d13 : Vec F S1024x1 .f32) (d14 : Vec F S1024x256 .f32)
    (hInv : Inv m c (n - 1) d9 d10 d11 d12 d13 d14) : (⟨d9, d12, d13, d14⟩ : OSt F) = ST m c (n - 1) := by
  obtain ⟨h9, h12, h13, h14, -⟩ := hInv
  rw [h9, h12, h13, h14]

end Cert.KernelIdeal.Body

end
-- ==== Proof.KI.InvStep.lean ====
/-
  One point's step of the invariant, in the four situations the grid meets: the batch's first query tile or a later
  one, crossed with the row's first key tile or a later one. Given what the body left in the buffers it stored into
  (as the case-by-case runs state it), the facts known of the scratch contents after the point before become the
  facts after this point, and the value the body would store into the output block is the row's accumulator over
  sum.
-/
import proofs.«127055_j20289425507095_2_alg».proof.Proof.Gen.KernelIdeal.Launch
import proofs.«127055_j20289425507095_2_alg».proof.Proof.Gen.KernelIdeal.Skeleton
import proofs.«127055_j20289425507095_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«127055_j20289425507095_2_alg».proof.Proof.KI.Sched

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Spec Cert.LibWholeStore

variable (m : (ℓ : Loc nD τ sig) → Buf (Elt F) ℓ)

/-- A later query tile, a later key tile: the tiles come from the caches, the state from the point before. -/
theorem inv_later_next (c : Dev nD) (t : Fin cfg0.N) (hq : (t.val / 4) % 4 ≠ 0) (hk0 : t.val % 4 ≠ 0)
    (d9 : Vec F S1024x256 .f32) (d10 d11 : Vec F S4096x256 .bf16) (d12 d13 : Vec F S1024x1 .f32) (d14 : Vec F S1024x256 .f32) (hInv : t.val ≠ 0 → Inv m c (t.val - 1) d9 d10 d11 d12 d13 d14)
    (n12 n13 : Vec F S1024x1 .f32) (n14 : Vec F S1024x256 .f32)
    (h12 : n12 = (stepSt (View.ld d10 (Rect.unit (s := S4096x256) (k0_off2 (grid0.coords t)) S1024x256.size (k0_off2_inb (grid0.coords t)))) (View.ld d11 (Rect.unit (s := S4096x256) (k0_off2 (grid0.coords t)) S1024x256.size (k0_off2_inb (grid0.coords t)))) (⟨d9, d12, d13, d14⟩ : OSt F)).mx)
    (h13 : n13 = (stepSt (View.ld d10 (Rect.unit (s := S4096x256) (k0_off2 (grid0.coords t)) S1024x256.size (k0_off2_inb (grid0.coords t)))) (View.ld d11 (Rect.unit (s := S4096x256) (k0_off2 (grid0.coords t)) S1024x256.size (k0_off2_inb (grid0.coords t)))) (⟨d9, d12, d13, d14⟩ : OSt F)).l)
    (h14 : n14 = (stepSt (View.ld d10 (Rect.unit (s := S4096x256) (k0_off2 (grid0.coords t)) S1024x256.size (k0_off2_inb (grid0.coords t)))) (View.ld d11 (Rect.unit (s := S4096x256) (k0_off2 (grid0.coords t)) S1024x256.size (k0_off2_inb (grid0.coords t)))) (⟨d9, d12, d13, d14⟩ : OSt F)).acc) :
    Inv m c t.val d9 d10 d11 n12 n13 n14
      ∧ outOf (stepSt (View.ld d10 (Rect.unit (s := S4096x256) (k0_off2 (grid0.coords t)) S1024x256.size (k0_off2_inb (grid0.coords t)))) (View.ld d11 (Rect.unit (s := S4096x256) (k0_off2 (grid0.coords t)) S1024x256.size (k0_off2_inb (grid0.coords t)))) (⟨d9, d12, d13, d14⟩ : OSt F)) = OUT m c t.val := by
  have hn0 : t.val ≠ 0 := by omega
  have hI := hInv hn0
  have hkv := tiles_later m c t.val hn0 hq d9 d10 d11 d12 d13 d14 hI (t.val % 4) (Nat.mod_lt _ (by decide))
  have hST := ST_of_prev m c t.val hk0 _ _ _ ((ld_off2 t d10).trans hkv.1) ((ld_off2 t d11).trans hkv.2)
    (prev_state m c t.val d9 d10 d11 d12 d13 d14 hI)
  refine ⟨⟨?_, by rw [h12, hST], by rw [h13, hST], by rw [h14, hST],
    fun j hj _ => tiles_later m c t.val hn0 hq d9 d10 d11 d12 d13 d14 hI j hj⟩, by rw [hST]; rfl⟩
  rw [← hST]; rfl

/-- A later query tile, the row's first key tile: the tiles come from the caches, the state is fresh. -/
theorem inv_later_first (c : Dev nD) (t : Fin cfg0.N) (hq : (t.val / 4) % 4 ≠ 0) (hk0 : t.val % 4 = 0)
    (d9 : Vec F S1024x256 .f32) (d10 d11 : Vec F S4096x256 .bf16) (d12 d13 : Vec F S1024x1 .f32) (d14 : Vec F S1024x256 .f32) (hInv : t.val ≠ 0 → Inv m c (t.val - 1) d9 d10 d11 d12 d13 d14)
    (n9 : Vec F S1024x256 .f32) (n12 n13 : Vec F S1024x1 .f32) (n14 : Vec F S1024x256 .f32)
    (h9 : n9 = (freshSt (iblk m c 0 t) (iblk m c 2 t)).q)
    (h12 : n12 = (stepSt (View.ld d10 (Rect.unit (s := S4096x256) (k0_off2 (grid0.coords t)) S1024x256.size (k0_off2_inb (grid0.coords t)))) (View.ld d11 (Rect.unit (s := S4096x256) (k0_off2 (grid0.coords t)) S1024x256.size (k0_off2_inb (grid0.coords t)))) (freshSt (iblk m c 0 t) (iblk m c 2 t))).mx)
    (h13 : n13 = (stepSt (View.ld d10 (Rect.unit (s := S4096x256) (k0_off2 (grid0.coords t)) S1024x256.size (k0_off2_inb (grid0.coords t)))) (View.ld d11 (Rect.unit (s := S4096x256) (k0_off2 (grid0.coords t)) S1024x256.size (k0_off2_inb (grid0.coords t)))) (freshSt (iblk m c 0 t) (iblk m c 2 t))).l)
    (h14 : n14 = (stepSt (View.ld d10 (Rect.unit (s := S4096x256) (k0_off2 (grid0.coords t)) S1024x256.size (k0_off2_inb (grid0.coords t)))) (View.ld d11 (Rect.unit (s := S4096x256) (k0_off2 (grid0.coords t)) S1024x256.size (k0_off2_inb (grid0.coords t)))) (freshSt (iblk m c 0 t) (iblk m c 2 t))).acc) :
    Inv m c t.val n9 d10 d11 n12 n13 n14 := by
  have hn0 : t.val ≠ 0 := by omega
  have hI := hInv hn0
  have hkv := tiles_later m c t.val hn0 hq d9 d10 d11 d12 d13 d14 hI (t.val % 4) (Nat.mod_lt _ (by decide))
  have hST := ST_of_fresh m c t.val hk0 _ _ ((ld_off2 t d10).trans hkv.1) ((ld_off2 t d11).trans hkv.2)
  rw [XQ_val, WQ_val] at hST
  refine ⟨?_, by rw [h12, hST], by rw [h13, hST], by rw [h14, hST],
    fun j hj _ => tiles_later m c t.val hn0 hq d9 d10 d11 d12 d13 d14 hI j hj⟩
  rw [h9, ← hST]; rfl

/-- The batch's first query tile, a later key tile: the tiles are the ones just projected and stored, the state
    comes from the point before, and the caches gain the current tile. -/
theorem inv_first_next (c : Dev nD) (t : Fin cfg0.N) (hq : (t.val / 4) % 4 = 0) (hk0 : t.val % 4 ≠ 0)
    (hc1 : condQi0 (grid0.coords t))
    (d9 : Vec F S1024x256 .f32) (d10 d11 : Vec F S4096x256 .bf16) (d12 d13 : Vec F S1024x1 .f32) (d14 : Vec F S1024x256 .f32) (hInv : t.val ≠ 0 → Inv m c (t.val - 1) d9 d10 d11 d12 d13 d14)
    (n10 n11 : Vec F S4096x256 .bf16) (n12 n13 : Vec F S1024x1 .f32) (n14 : Vec F S1024x256 .f32)
    (h10 : n10 = (scK : Memref sig .tc .vmem S4096x256 .bf16).view.read (Elt F) ((scK : Memref sig .tc .vmem S4096x256 .bf16).view.writes (Elt F) ((Memref.isWhole_whole cc0_scratch1).unread d10) [(⟨Rect.unit (s := S4096x256) (k0_off1 (grid0.coords t)) S1024x256.size (k0_off1_inb (grid0.coords t) hc1), kTile (iblk m c 1 t) (iblk m c 3 t)⟩ : View.Piece (Elt F) S4096x256 .bf16)]))
    (h11 : n11 = (scV : Memref sig .tc .vmem S4096x256 .bf16).view.read (Elt F) ((scV : Memref sig .tc .vmem S4096x256 .bf16).view.writes (Elt F) ((Memref.isWhole_whole cc0_scratch2).unread d11) [(⟨Rect.unit (s := S4096x256) (k0_off1 (grid0.coords t)) S1024x256.size (k0_off1_inb (grid0.coords t) hc1), vTile (iblk m c 1 t) (iblk m c 4 t)⟩ : View.Piece (Elt F) S4096x256 .bf16)]))
    (h12 : n12 = (stepSt (kTile (iblk m c 1 t) (iblk m c 3 t)) (vTile (iblk m c 1 t) (iblk m c 4 t)) (⟨d9, d12, d13, d14⟩ : OSt F)).mx)
    (h13 : n13 = (stepSt (kTile (iblk m c 1 t) (iblk m c 3 t)) (vTile (iblk m c 1 t) (iblk m c 4 t)) (⟨d9, d12, d13, d14⟩ : OSt F)).l)
    (h14 : n14 = (stepSt (kTile (iblk m c 1 t) (iblk m c 3 t)) (vTile (iblk m c 1 t) (iblk m c 4 t)) (⟨d9, d12, d13, d14⟩ : OSt F)).acc) :
    Inv m c t.val d9 n10 n11 n12 n13 n14
      ∧ outOf (stepSt (kTile (iblk m c 1 t) (iblk m c 3 t)) (vTile (iblk m c 1 t) (iblk m c 4 t)) (⟨d9, d12, d13, d14⟩ : OSt F)) = OUT m c t.val := by
  have hn0 : t.val ≠ 0 := by omega
  have hI := hInv hn0
  have hself := kvPt_self t.val hq
  have hkt : kTile (iblk m c 1 t) (iblk m c 3 t) = KT m c (kvPt t.val (t.val % 4)) := by rw [hself, KT_val]
  have hvt : vTile (iblk m c 1 t) (iblk m c 4 t) = VT m c (kvPt t.val (t.val % 4)) := by rw [hself, VT_val]
  have hST := ST_of_prev m c t.val hk0 _ _ _ hkt hvt (prev_state m c t.val d9 d10 d11 d12 d13 d14 hI)
  refine ⟨⟨?_, by rw [h12, hST], by rw [h13, hST], by rw [h14, hST], fun j hj hle => ?_⟩, by rw [hST]; rfl⟩
  · rw [← hST]; rfl
  · have hle' := hle hq
    by_cases hjk : j = t.val % 4
    · subst hjk
      exact ⟨by rw [h10, tile_store_same _ _ _ _ _ _ _ _ (off1_eq t), hkt], by rw [h11, tile_store_same _ _ _ _ _ _ _ _ (off1_eq t), hvt]⟩
    · have hlt : j < t.val % 4 := by omega
      have hp := tiles_earlier m c t.val hk0 d9 d10 d11 d12 d13 d14 hI j hj hlt
      exact ⟨by rw [h10, tile_store_other _ _ _ _ _ _ _ (off1_eq t) j hj hjk, hp.1], by rw [h11, tile_store_other _ _ _ _ _ _ _ (off1_eq t) j hj hjk, hp.2]⟩

/-- The batch's first query tile, the row's first key tile: the tiles are the ones just projected and stored, the
    state is fresh, and of the caches only the current tile is known. Nothing is assumed of the point before. -/
theorem inv_first_first (c : Dev nD) (t : Fin cfg0.N) (hq : (t.val / 4) % 4 = 0) (hk0 : t.val % 4 = 0)
    (hc1 : condQi0 (grid0.coords t))
    (d10 d11 : Vec F S4096x256 .bf16)
    (n9 : Vec F S1024x256 .f32) (n10 n11 : Vec F S4096x256 .bf16) (n12 n13 : Vec F S1024x1 .f32) (n14 : Vec F S1024x256 .f32)
    (h9 : n9 = (freshSt (iblk m c 0 t) (iblk m c 2 t)).q)
    (h10 : n10 = (scK : Memref sig .tc .vmem S4096x256 .bf16).view.read (Elt F) ((scK : Memref sig .tc .vmem S4096x256 .bf16).view.writes (Elt F) ((Memref.isWhole_whole cc0_scratch1).unread d10) [(⟨Rect.unit (s := S4096x256) (k0_off1 (grid0.coords t)) S1024x256.size (k0_off1_inb (grid0.coords t) hc1), kTile (iblk m c 1 t) (iblk m c 3 t)⟩ : View.Piece (Elt F) S4096x256 .bf16)]))
    (h11 : n11 = (scV : Memref sig .tc .vmem S4096x256 .bf16).view.read (Elt F) ((scV : Memref sig .tc .vmem S4096x256 .bf16).view.writes (Elt F) ((Memref.isWhole_whole cc0_scratch2).unread d11) [(⟨Rect.unit (s := S4096x256) (k0_off1 (grid0.coords t)) S1024x256.size (k0_off1_inb (grid0.coords t) hc1), vTile (iblk m c 1 t) (iblk m c 4 t)⟩ : View.Piece (Elt F) S4096x256 .bf16)]))
    (h12 : n12 = (stepSt (kTile (iblk m c 1 t) (iblk m c 3 t)) (vTile (iblk m c 1 t) (iblk m c 4 t)) (freshSt (iblk m c 0 t) (iblk m c 2 t))).mx)
    (h13 : n13 = (stepSt (kTile (iblk m c 1 t) (iblk m c 3 t)) (vTile (iblk m c 1 t) (iblk m c 4 t)) (freshSt (iblk m c 0 t) (iblk m c 2 t))).l)
    (h14 : n14 = (stepSt (kTile (iblk m c 1 t) (iblk m c 3 t)) (vTile (iblk m c 1 t) (iblk m c 4 t)) (freshSt (iblk m c 0 t) (iblk m c 2 t))).acc) :
    Inv m c t.val n9 n10 n11 n12 n13 n14 := by
  have hself := kvPt_self t.val hq
  have hkt : kTile (iblk m c 1 t) (iblk m c 3 t) = KT m c (kvPt t.val (t.val % 4)) := by rw [hself, KT_val]
  have hvt : vTile (iblk m c 1 t) (iblk m c 4 t) = VT m c (kvPt t.val (t.val % 4)) := by rw [hself, VT_val]
  have hST := ST_of_fresh m c t.val hk0 _ _ hkt hvt
  rw [XQ_val, WQ_val] at hST
  refine ⟨?_, by rw [h12, hST], by rw [h13, hST], by rw [h14, hST], fun j hj hle => ?_⟩
  · rw [h9, ← hST]; rfl
  · have hle' := hle hq
    have hjk : j = t.val % 4 := by omega
    subst hjk
    exact ⟨by rw [h10, tile_store_same _ _ _ _ _ _ _ _ (off1_eq t), hkt], by rw [h11, tile_store_same _ _ _ _ _ _ _ _ (off1_eq t), hvt]⟩

end Cert.KernelIdeal.Body

end
-- ==== Proof.KI.Body.lean ====
/-
  The body obligation: at every grid point, from the invariant, the five input windows' buffers at their blocks
  and the output window's buffer at whatever it holds, the kernel body runs to the invariant of the next point, the
  inputs' buffers as they were, and the output's buffer at the row's accumulator over sum where the row ends, and
  untouched elsewhere. The point's position decides which of the six control cases it is; that case's run applies,
  and the invariant's step for the case gives the facts about the new scratch contents.
-/
import proofs.«127055_j20289425507095_2_alg».proof.Proof.Gen.KernelIdeal.Launch
import proofs.«127055_j20289425507095_2_alg».proof.Proof.Gen.KernelIdeal.Skeleton
import proofs.«127055_j20289425507095_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«127055_j20289425507095_2_alg».proof.Proof.KI.Steps
import proofs.«127055_j20289425507095_2_alg».proof.Proof.KI.InvStep

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Spec Cert.LibWholeStore

variable (m : (ℓ : Loc nD τ sig) → Buf (Elt F) ℓ)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [Phi_eq, Phi_eq, Fin.coe_castSucc, Fin.val_succ]
  rw [show (dats m 0 c).leavesExact 0 t = owns (c : Thread nD τ) (ms0 t) fullShare ((dats m 0 c).after 0 t) from by
    unfold Dat.leavesExact; rw [liveAt0_0 t], after0_0]
  rw [show (dats m 0 c).leavesExact 1 t = owns (c : Thread nD τ) (ms1 t) fullShare ((dats m 0 c).after 1 t) from by
    unfold Dat.leavesExact; rw [liveAt0_1 t], after0_1]
  rw [show (dats m 0 c).leavesExact 2 t = owns (c : Thread nD τ) (ms2 t) fullShare ((dats m 0 c).after 2 t) from by
    unfold Dat.leavesExact; rw [liveAt0_2 t], after0_2]
  rw [show (dats m 0 c).leavesExact 3 t = owns (c : Thread nD τ) (ms3 t) fullShare ((dats m 0 c).after 3 t) from by
    unfold Dat.leavesExact; rw [liveAt0_3 t], after0_3]
  rw [show (dats m 0 c).leavesExact 4 t = owns (c : Thread nD τ) (ms4 t) fullShare ((dats m 0 c).after 4 t) from by
    unfold Dat.leavesExact; rw [liveAt0_4 t], after0_4]
  have hN := val_lt t
  unfold PhiS
  by_cases hq : (t.val / 4) % 4 = 0
  · by_cases hk0 : t.val % 4 = 0
    · have hk3 : ¬t.val % 4 = 3 := by omega
      rw [Dat.leavesExact_idle (dats m 0 c) 5 t (idleAt0_5 t hk3) (noFlush0_5 t hk3)]
      iintro ⟨⟨%d9, %d10, %d11, %d12, %d13, %d14, %hInv, HS9, HS10, HS11, HS12, HS13, HS14⟩, Ho, ⟨%e0, H0⟩, ⟨%e1, H1⟩, ⟨%e2, H2⟩, ⟨%e3, H3⟩, ⟨%e4, H4⟩, ⟨%e5, H5⟩⟩
      have hc1 : condQi0 (grid0.coords t) := (hcondQi0 t).mpr hq
      have hc2 : condKi0 (grid0.coords t) := (hcondKi0 t).mpr hk0
      have hc3 : ¬condKi3 (grid0.coords t) := fun h => hk3 ((hcondKi3 t).mp h)
      obtain ⟨h9, h10, h11, h12, h13, h14⟩ := runA_leaves c (grid0.coords t) (ms0 t) (hs0 t) (ms1 t) (hs1 t) (ms2 t) (hs2 t) (ms3 t) (hs3 t) (ms4 t) (hs4 t) (ms5 t) (hs5 t) scQ (Memref.isWhole_whole _) scK (Memref.isWhole_whole _) scV (Memref.isWhole_whole _) scM (Memref.isWhole_whole _) scL (Memref.isWhole_whole _) scA (Memref.isWhole_whole _) hc1 hc2 hc3 (iblk m c 0 t) (iblk m c 1 t) (iblk m c 2 t) (iblk m c 3 t) (iblk m c 4 t) ((dats m 0 c).before 5 t e5) d9 d10 d11 d12 d13 d14
      have hstep := inv_first_first m c t hq hk0 hc1 d10 d11 _ _ _ _ _ _ h9 h10 h11 h12 h13 h14
      iapply ((runA c (grid0.coords t) (ms0 t) (hs0 t) (ms1 t) (hs1 t) (ms2 t) (hs2 t) (ms3 t) (hs3 t) (ms4 t) (hs4 t) (ms5 t) (hs5 t) scQ (Memref.isWhole_whole _) scK (Memref.isWhole_whole _) scV (Memref.isWhole_whole _) scM (Memref.isWhole_whole _) scL (Memref.isWhole_whole _) scA (Memref.isWhole_whole _) hc1 hc2 hc3 (iblk m c 0 t) (iblk m c 1 t) (iblk m c 2 t) (iblk m c 3 t) (iblk m c 4 t) ((dats m 0 c).before 5 t e5) d9 d10 d11 d12 d13 d14).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [HS9]; · iexact HS9
      isplitl [HS10]; · iexact HS10
      isplitl [HS11]; · iexact HS11
      isplitl [HS12]; · iexact HS12
      isplitl [HS13]; · iexact HS13
      isplitl [HS14]; · iexact HS14
      iintro ⟨H0, H1, H2, H3, H4, H5, HS9, HS10, HS11, HS12, HS13, HS14⟩
      isplitl [HS9 HS10 HS11 HS12 HS13 HS14]
      · iexists _; iexists _; iexists _; iexists _; iexists _; iexists _
        isplitr; swap
        · isplitl [HS9]; · iexact HS9
          isplitl [HS10]; · iexact HS10
          isplitl [HS11]; · iexact HS11
          isplitl [HS12]; · iexact HS12
          isplitl [HS13]; · iexact HS13
          iexact HS14
        ipureintro; intro _; rw [Nat.add_sub_cancel]; exact hstep
      isplitl [Ho]; · iexact Ho
      isplitl [H0]; · iexact H0
      isplitl [H1]; · iexact H1
      isplitl [H2]; · iexact H2
      isplitl [H3]; · iexact H3
      isplitl [H4]; · iexact H4
      iexists _; iexact H5
    · by_cases hk3 : t.val % 4 = 3
      ·
        rw [show (dats m 0 c).leavesExact 5 t = owns (c : Thread nD τ) (ms5 t) fullShare ((dats m 0 c).after 5 t) from by
          unfold Dat.leavesExact; rw [liveAt0_5 t hk3], after0_5]
        iintro ⟨⟨%d9, %d10, %d11, %d12, %d13, %d14, %hInv, HS9, HS10, HS11, HS12, HS13, HS14⟩, Ho, ⟨%e0, H0⟩, ⟨%e1, H1⟩, ⟨%e2, H2⟩, ⟨%e3, H3⟩, ⟨%e4, H4⟩, ⟨%e5, H5⟩⟩
        have hc1 : condQi0 (grid0.coords t) := (hcondQi0 t).mpr hq
        have hc2 : ¬condKi0 (grid0.coords t) := fun h => hk0 ((hcondKi0 t).mp h)
        have hc3 : condKi3 (grid0.coords t) := (hcondKi3 t).mpr hk3
        obtain ⟨h8, h10, h11, h12, h13, h14⟩ := runC_leaves c (grid0.coords t) (ms0 t) (hs0 t) (ms1 t) (hs1 t) (ms2 t) (hs2 t) (ms3 t) (hs3 t) (ms4 t) (hs4 t) (ms5 t) (hs5 t) scQ (Memref.isWhole_whole _) scK (Memref.isWhole_whole _) scV (Memref.isWhole_whole _) scM (Memref.isWhole_whole _) scL (Memref.isWhole_whole _) scA (Memref.isWhole_whole _) hc1 hc2 hc3 (iblk m c 0 t) (iblk m c 1 t) (iblk m c 2 t) (iblk m c 3 t) (iblk m c 4 t) ((dats m 0 c).before 5 t e5) d9 d10 d11 d12 d13 d14
        have hstep := inv_first_next m c t hq hk0 hc1 d9 d10 d11 d12 d13 d14 hInv _ _ _ _ _ h10 h11 h12 h13 h14
        iapply ((runC c (grid0.coords t) (ms0 t) (hs0 t) (ms1 t) (hs1 t) (ms2 t) (hs2 t) (ms3 t) (hs3 t) (ms4 t) (hs4 t) (ms5 t) (hs5 t) scQ (Memref.isWhole_whole _) scK (Memref.isWhole_whole _) scV (Memref.isWhole_whole _) scM (Memref.isWhole_whole _) scL (Memref.isWhole_whole _) scA (Memref.isWhole_whole _) hc1 hc2 hc3 (iblk m c 0 t) (iblk m c 1 t) (iblk m c 2 t) (iblk m c 3 t) (iblk m c 4 t) ((dats m 0 c).before 5 t e5) d9 d10 d11 d12 d13 d14).2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [HS9]; · iexact HS9
        isplitl [HS10]; · iexact HS10
        isplitl [HS11]; · iexact HS11
        isplitl [HS12]; · iexact HS12
        isplitl [HS13]; · iexact HS13
        isplitl [HS14]; · iexact HS14
        iintro ⟨H0, H1, H2, H3, H4, H5, HS9, HS10, HS11, HS12, HS13, HS14⟩
        isplitl [HS9 HS10 HS11 HS12 HS13 HS14]
        · iexists _; iexists _; iexists _; iexists _; iexists _; iexists _
          isplitr; swap
          · isplitl [HS9]; · iexact HS9
            isplitl [HS10]; · iexact HS10
            isplitl [HS11]; · iexact HS11
            isplitl [HS12]; · iexact HS12
            isplitl [HS13]; · iexact HS13
            iexact HS14
          ipureintro; intro _; rw [Nat.add_sub_cancel]; exact hstep.1
        isplitl [Ho]; · iexact Ho
        isplitl [H0]; · iexact H0
        isplitl [H1]; · iexact H1
        isplitl [H2]; · iexact H2
        isplitl [H3]; · iexact H3
        isplitl [H4]; · iexact H4
        rw [← hstep.2, ← h8]
        iexact H5
      ·
        rw [Dat.leavesExact_idle (dats m 0 c) 5 t (idleAt0_5 t hk3) (noFlush0_5 t hk3)]
        iintro ⟨⟨%d9, %d10, %d11, %d12, %d13, %d14, %hInv, HS9, HS10, HS11, HS12, HS13, HS14⟩, Ho, ⟨%e0, H0⟩, ⟨%e1, H1⟩, ⟨%e2, H2⟩, ⟨%e3, H3⟩, ⟨%e4, H4⟩, ⟨%e5, H5⟩⟩
        have hc1 : condQi0 (grid0.coords t) := (hcondQi0 t).mpr hq
        have hc2 : ¬condKi0 (grid0.coords t) := fun h => hk0 ((hcondKi0 t).mp h)
        have hc3 : ¬condKi3 (grid0.coords t) := fun h => hk3 ((hcondKi3 t).mp h)
        obtain ⟨h10, h11, h12, h13, h14⟩ := runB_leaves c (grid0.coords t) (ms0 t) (hs0 t) (ms1 t) (hs1 t) (ms2 t) (hs2 t) (ms3 t) (hs3 t) (ms4 t) (hs4 t) (ms5 t) (hs5 t) scQ (Memref.isWhole_whole _) scK (Memref.isWhole_whole _) scV (Memref.isWhole_whole _) scM (Memref.isWhole_whole _) scL (Memref.isWhole_whole _) scA (Memref.isWhole_whole _) hc1 hc2 hc3 (iblk m c 0 t) (iblk m c 1 t) (iblk m c 2 t) (iblk m c 3 t) (iblk m c 4 t) ((dats m 0 c).before 5 t e5) d9 d10 d11 d12 d13 d14
        have hstep := inv_first_next m c t hq hk0 hc1 d9 d10 d11 d12 d13 d14 hInv _ _ _ _ _ h10 h11 h12 h13 h14
        iapply ((runB c (grid0.coords t) (ms0 t) (hs0 t) (ms1 t) (hs1 t) (ms2 t) (hs2 t) (ms3 t) (hs3 t) (ms4 t) (hs4 t) (ms5 t) (hs5 t) scQ (Memref.isWhole_whole _) scK (Memref.isWhole_whole _) scV (Memref.isWhole_whole _) scM (Memref.isWhole_whole _) scL (Memref.isWhole_whole _) scA (Memref.isWhole_whole _) hc1 hc2 hc3 (iblk m c 0 t) (iblk m c 1 t) (iblk m c 2 t) (iblk m c 3 t) (iblk m c 4 t) ((dats m 0 c).before 5 t e5) d9 d10 d11 d12 d13 d14).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [HS9]; · iexact HS9
        isplitl [HS10]; · iexact HS10
        isplitl [HS11]; · iexact HS11
        isplitl [HS12]; · iexact HS12
        isplitl [HS13]; · iexact HS13
        isplitl [HS14]; · iexact HS14
        iintro ⟨H0, H1, H2, H3, H4, H5, HS9, HS10, HS11, HS12, HS13, HS14⟩
        isplitl [HS9 HS10 HS11 HS12 HS13 HS14]
        · iexists _; iexists _; iexists _; iexists _; iexists _; iexists _
          isplitr; swap
          · isplitl [HS9]; · iexact HS9
            isplitl [HS10]; · iexact HS10
            isplitl [HS11]; · iexact HS11
            isplitl [HS12]; · iexact HS12
            isplitl [HS13]; · iexact HS13
            iexact HS14
          ipureintro; intro _; rw [Nat.add_sub_cancel]; exact hstep.1
        isplitl [Ho]; · iexact Ho
        isplitl [H0]; · iexact H0
        isplitl [H1]; · iexact H1
        isplitl [H2]; · iexact H2
        isplitl [H3]; · iexact H3
        isplitl [H4]; · iexact H4
        iexists _; iexact H5
  · by_cases hk0 : t.val % 4 = 0
    · have hk3 : ¬t.val % 4 = 3 := by omega
      rw [Dat.leavesExact_idle (dats m 0 c) 5 t (idleAt0_5 t hk3) (noFlush0_5 t hk3)]
      iintro ⟨⟨%d9, %d10, %d11, %d12, %d13, %d14, %hInv, HS9, HS10, HS11, HS12, HS13, HS14⟩, Ho, ⟨%e0, H0⟩, ⟨%e1, H1⟩, ⟨%e2, H2⟩, ⟨%e3, H3⟩, ⟨%e4, H4⟩, ⟨%e5, H5⟩⟩
      have hc1 : ¬condQi0 (grid0.coords t) := fun h => hq ((hcondQi0 t).mp h)
      have hc2 : condKi0 (grid0.coords t) := (hcondKi0 t).mpr hk0
      have hc3 : ¬condKi3 (grid0.coords t) := fun h => hk3 ((hcondKi3 t).mp h)
      obtain ⟨h9, h12, h13, h14⟩ := runD_leaves c (grid0.coords t) (ms0 t) (hs0 t) (ms1 t) (hs1 t) (ms2 t) (hs2 t) (ms3 t) (hs3 t) (ms4 t) (hs4 t) (ms5 t) (hs5 t) scQ (Memref.isWhole_whole _) scK (Memref.isWhole_whole _) scV (Memref.isWhole_whole _) scM (Memref.isWhole_whole _) scL (Memref.isWhole_whole _) scA (Memref.isWhole_whole _) hc1 hc2 hc3 (iblk m c 0 t) (iblk m c 1 t) (iblk m c 2 t) (iblk m c 3 t) (iblk m c 4 t) ((dats m 0 c).before 5 t e5) d9 d10 d11 d12 d13 d14
      have hstep := inv_later_first m c t hq hk0 d9 d10 d11 d12 d13 d14 hInv _ _ _ _ h9 h12 h13 h14
      iapply ((runD c (grid0.coords t) (ms0 t) (hs0 t) (ms1 t) (hs1 t) (ms2 t) (hs2 t) (ms3 t) (hs3 t) (ms4 t) (hs4 t) (ms5 t) (hs5 t) scQ (Memref.isWhole_whole _) scK (Memref.isWhole_whole _) scV (Memref.isWhole_whole _) scM (Memref.isWhole_whole _) scL (Memref.isWhole_whole _) scA (Memref.isWhole_whole _) hc1 hc2 hc3 (iblk m c 0 t) (iblk m c 1 t) (iblk m c 2 t) (iblk m c 3 t) (iblk m c 4 t) ((dats m 0 c).before 5 t e5) d9 d10 d11 d12 d13 d14).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [HS9]; · iexact HS9
      isplitl [HS10]; · iexact HS10
      isplitl [HS11]; · iexact HS11
      isplitl [HS12]; · iexact HS12
      isplitl [HS13]; · iexact HS13
      isplitl [HS14]; · iexact HS14
      iintro ⟨H0, H1, H2, H3, H4, H5, HS9, HS10, HS11, HS12, HS13, HS14⟩
      isplitl [HS9 HS10 HS11 HS12 HS13 HS14]
      · iexists _; iexists _; iexists _; iexists _; iexists _; iexists _
        isplitr; swap
        · isplitl [HS9]; · iexact HS9
          isplitl [HS10]; · iexact HS10
          isplitl [HS11]; · iexact HS11
          isplitl [HS12]; · iexact HS12
          isplitl [HS13]; · iexact HS13
          iexact HS14
        ipureintro; intro _; rw [Nat.add_sub_cancel]; exact hstep
      isplitl [Ho]; · iexact Ho
      isplitl [H0]; · iexact H0
      isplitl [H1]; · iexact H1
      isplitl [H2]; · iexact H2
      isplitl [H3]; · iexact H3
      isplitl [H4]; · iexact H4
      iexists _; iexact H5
    · by_cases hk3 : t.val % 4 = 3
      ·
        rw [show (dats m 0 c).leavesExact 5 t = owns (c : Thread nD τ) (ms5 t) fullShare ((dats m 0 c).after 5 t) from by
          unfold Dat.leavesExact; rw [liveAt0_5 t hk3], after0_5]
        iintro ⟨⟨%d9, %d10, %d11, %d12, %d13, %d14, %hInv, HS9, HS10, HS11, HS12, HS13, HS14⟩, Ho, ⟨%e0, H0⟩, ⟨%e1, H1⟩, ⟨%e2, H2⟩, ⟨%e3, H3⟩, ⟨%e4, H4⟩, ⟨%e5, H5⟩⟩
        have hc1 : ¬condQi0 (grid0.coords t) := fun h => hq ((hcondQi0 t).mp h)
        have hc2 : ¬condKi0 (grid0.coords t) := fun h => hk0 ((hcondKi0 t).mp h)
        have hc3 : condKi3 (grid0.coords t) := (hcondKi3 t).mpr hk3
        obtain ⟨h8, h12, h13, h14⟩ := runG_leaves c (grid0.coords t) (ms0 t) (hs0 t) (ms1 t) (hs1 t) (ms2 t) (hs2 t) (ms3 t) (hs3 t) (ms4 t) (hs4 t) (ms5 t) (hs5 t) scQ (Memref.isWhole_whole _) scK (Memref.isWhole_whole _) scV (Memref.isWhole_whole _) scM (Memref.isWhole_whole _) scL (Memref.isWhole_whole _) scA (Memref.isWhole_whole _) hc1 hc2 hc3 (iblk m c 0 t) (iblk m c 1 t) (iblk m c 2 t) (iblk m c 3 t) (iblk m c 4 t) ((dats m 0 c).before 5 t e5) d9 d10 d11 d12 d13 d14
        have hstep := inv_later_next m c t hq hk0 d9 d10 d11 d12 d13 d14 hInv _ _ _ h12 h13 h14
        iapply ((runG c (grid0.coords t) (ms0 t) (hs0 t) (ms1 t) (hs1 t) (ms2 t) (hs2 t) (ms3 t) (hs3 t) (ms4 t) (hs4 t) (ms5 t) (hs5 t) scQ (Memref.isWhole_whole _) scK (Memref.isWhole_whole _) scV (Memref.isWhole_whole _) scM (Memref.isWhole_whole _) scL (Memref.isWhole_whole _) scA (Memref.isWhole_whole _) hc1 hc2 hc3 (iblk m c 0 t) (iblk m c 1 t) (iblk m c 2 t) (iblk m c 3 t) (iblk m c 4 t) ((dats m 0 c).before 5 t e5) d9 d10 d11 d12 d13 d14).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [HS9]; · iexact HS9
        isplitl [HS10]; · iexact HS10
        isplitl [HS11]; · iexact HS11
        isplitl [HS12]; · iexact HS12
        isplitl [HS13]; · iexact HS13
        isplitl [HS14]; · iexact HS14
        iintro ⟨H0, H1, H2, H3, H4, H5, HS9, HS10, HS11, HS12, HS13, HS14⟩
        isplitl [HS9 HS10 HS11 HS12 HS13 HS14]
        · iexists _; iexists _; iexists _; iexists _; iexists _; iexists _
          isplitr; swap
          · isplitl [HS9]; · iexact HS9
            isplitl [HS10]; · iexact HS10
            isplitl [HS11]; · iexact HS11
            isplitl [HS12]; · iexact HS12
            isplitl [HS13]; · iexact HS13
            iexact HS14
          ipureintro; intro _; rw [Nat.add_sub_cancel]; exact hstep.1
        isplitl [Ho]; · iexact Ho
        isplitl [H0]; · iexact H0
        isplitl [H1]; · iexact H1
        isplitl [H2]; · iexact H2
        isplitl [H3]; · iexact H3
        isplitl [H4]; · iexact H4
        rw [← hstep.2, ← h8]
        iexact H5
      ·
        rw [Dat.leavesExact_idle (dats m 0 c) 5 t (idleAt0_5 t hk3) (noFlush0_5 t hk3)]
        iintro ⟨⟨%d9, %d10, %d11, %d12, %d13, %d14, %hInv, HS9, HS10, HS11, HS12, HS13, HS14⟩, Ho, ⟨%e0, H0⟩, ⟨%e1, H1⟩, ⟨%e2, H2⟩, ⟨%e3, H3⟩, ⟨%e4, H4⟩, ⟨%e5, H5⟩⟩
        have hc1 : ¬condQi0 (grid0.coords t) := fun h => hq ((hcondQi0 t).mp h)
        have hc2 : ¬condKi0 (grid0.coords t) := fun h => hk0 ((hcondKi0 t).mp h)
        have hc3 : ¬condKi3 (grid0.coords t) := fun h => hk3 ((hcondKi3 t).mp h)
        obtain ⟨h12, h13, h14⟩ := runE_leaves c (grid0.coords t) (ms0 t) (hs0 t) (ms1 t) (hs1 t) (ms2 t) (hs2 t) (ms3 t) (hs3 t) (ms4 t) (hs4 t) (ms5 t) (hs5 t) scQ (Memref.isWhole_whole _) scK (Memref.isWhole_whole _) scV (Memref.isWhole_whole _) scM (Memref.isWhole_whole _) scL (Memref.isWhole_whole _) scA (Memref.isWhole_whole _) hc1 hc2 hc3 (iblk m c 0 t) (iblk m c 1 t) (iblk m c 2 t) (iblk m c 3 t) (iblk m c 4 t) ((dats m 0 c).before 5 t e5) d9 d10 d11 d12 d13 d14
        have hstep := inv_later_next m c t hq hk0 d9 d10 d11 d12 d13 d14 hInv _ _ _ h12 h13 h14
        iapply ((runE c (grid0.coords t) (ms0 t) (hs0 t) (ms1 t) (hs1 t) (ms2 t) (hs2 t) (ms3 t) (hs3 t) (ms4 t) (hs4 t) (ms5 t) (hs5 t) scQ (Memref.isWhole_whole _) scK (Memref.isWhole_whole _) scV (Memref.isWhole_whole _) scM (Memref.isWhole_whole _) scL (Memref.isWhole_whole _) scA (Memref.isWhole_whole _) hc1 hc2 hc3 (iblk m c 0 t) (iblk m c 1 t) (iblk m c 2 t) (iblk m c 3 t) (iblk m c 4 t) ((dats m 0 c).before 5 t e5) d9 d10 d11 d12 d13 d14).2.2.2 Set.univ _)
        isplitl [H0]; · iexact H0
        isplitl [H1]; · iexact H1
        isplitl [H2]; · iexact H2
        isplitl [H3]; · iexact H3
        isplitl [H4]; · iexact H4
        isplitl [H5]; · iexact H5
        isplitl [HS9]; · iexact HS9
        isplitl [HS10]; · iexact HS10
        isplitl [HS11]; · iexact HS11
        isplitl [HS12]; · iexact HS12
        isplitl [HS13]; · iexact HS13
        isplitl [HS14]; · iexact HS14
        iintro ⟨H0, H1, H2, H3, H4, H5, HS9, HS10, HS11, HS12, HS13, HS14⟩
        isplitl [HS9 HS10 HS11 HS12 HS13 HS14]
        · iexists _; iexists _; iexists _; iexists _; iexists _; iexists _
          isplitr; swap
          · isplitl [HS9]; · iexact HS9
            isplitl [HS10]; · iexact HS10
            isplitl [HS11]; · iexact HS11
            isplitl [HS12]; · iexact HS12
            isplitl [HS13]; · iexact HS13
            iexact HS14
          ipureintro; intro _; rw [Nat.add_sub_cancel]; exact hstep.1
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Body

end
-- ==== Proof.KI.Launch.lean ====
/-
  The launch of the attention kernel. The program is one pipelined region and the return. Two of the region's
  windows read the same array, so the array's full share is split into its two halves, one for each of the two
  windows; every other array goes to its one window whole. The six scratch buffers are the region's invariant at
  the first point and are given back at the last. After the run each window's array holds what the pipeline's
  write-backs leave in it: the output array the last of them, an input array what it held at entry.
-/
import proofs.«127055_j20289425507095_2_alg».proof.Proof.Gen.KernelIdeal.Launch
import proofs.«127055_j20289425507095_2_alg».proof.Proof.Gen.KernelIdeal.Skeleton
import proofs.«127055_j20289425507095_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«127055_j20289425507095_2_alg».proof.Proof.KI.Data
import proofs.«127055_j20289425507095_2_alg».proof.Proof.KI.Dats
import Idealize.ShloMosaic.Lib.Pipeline.Launch

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Spec Cert.LibWholeStore

variable (m : (ℓ : Loc nD τ sig) → Buf (Elt F) ℓ) (ρ : Dev nD → PrngReg)

/-- The buffers behind the windows' arrays are the four arguments and the result. -/
theorem arrRefs_eq : Finset.univ.image (Pipeline.arrRef spec0)
    = ({main_arg0, main_arg1, main_arg2, main_arg3, main_v0} : Finset (Ref sig .tc)) := by decide

/-- A window's array at entry is its buffer, whole, at the entry contents. -/
theorem arr_pts (c : Dev nD) (w : Fin cfg0.W) :
    ((cfg0.win w).arr.view.loc (c : Thread nD τ) ↦[(cfg0.win w).arr.view.set]{(dats m 0 c).share w} (dats m 0 c).arrAt w 0 : sProp 𝕄)
      = ((c : Thread nD τ).loc (Pipeline.arrRef spec0 w) ↦{(dats m 0 c).share w} V m c (Pipeline.arrRef spec0 w)) := by
  rw [(arr_whole0 w).set_eq_univ]; rfl

theorem share_0 (c : Dev nD) : (dats m 0 c).share (0 : Fin 6) = fullShare.left := by unfold Dat.share; rfl
theorem share_1 (c : Dev nD) : (dats m 0 c).share (1 : Fin 6) = fullShare.right := by unfold Dat.share; rfl
theorem share_2 (c : Dev nD) : (dats m 0 c).share (2 : Fin 6) = fullShare := by unfold Dat.share; rfl
theorem share_3 (c : Dev nD) : (dats m 0 c).share (3 : Fin 6) = fullShare := by unfold Dat.share; rfl
theorem share_4 (c : Dev nD) : (dats m 0 c).share (4 : Fin 6) = fullShare := by unfold Dat.share; rfl
theorem share_5 (c : Dev nD) : (dats m 0 c).share (5 : Fin 6) = fullShare := by unfold Dat.share; rfl

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [arrRefs_eq, bigSep_W0, bigSep_insert (by decide), bigSep_insert (by decide), bigSep_insert (by decide),
    bigSep_insert (by decide), bigSep_singleton]
  beta_reduce
  rw [arr_pts m c 0, arr_pts m c 1, arr_pts m c 2, arr_pts m c 3, arr_pts m c 4, arr_pts m c 5,
    share_0, share_1, share_2, share_3, share_4, share_5]
  show iprop(((c : Thread nD τ).loc main_arg0 ↦{fullShare} V m c main_arg0)
      ∗ ((c : Thread nD τ).loc main_arg1 ↦{fullShare} V m c main_arg1)
      ∗ ((c : Thread nD τ).loc main_arg2 ↦{fullShare} V m c main_arg2)
      ∗ ((c : Thread nD τ).loc main_arg3 ↦{fullShare} V m c main_arg3)
      ∗ ((c : Thread nD τ).loc main_v0 ↦{fullShare} V m c main_v0))
    ⊢ (iprop(((c : Thread nD τ).loc main_arg0 ↦{fullShare.left} V m c main_arg0)
      ∗ ((c : Thread nD τ).loc main_arg0 ↦{fullShare.right} V m c main_arg0)
      ∗ ((c : Thread nD τ).loc main_arg1 ↦{fullShare} V m c main_arg1)
      ∗ ((c : Thread nD τ).loc main_arg2 ↦{fullShare} V m c main_arg2)
      ∗ ((c : Thread nD τ).loc main_arg3 ↦{fullShare} V m c main_arg3)
      ∗ ((c : Thread nD τ).loc main_v0 ↦{fullShare} V m c main_v0)) : sProp 𝕄)
  iintro ⟨H0, H1, H2, H3, H5⟩
  ihave H0' := (pointsTo_share (PosShare.mem_left_op_right fullShare)).1 $$ H0
  icases H0' with ⟨Ha, Hb⟩
  isplitl [Ha]; · iexact Ha
  isplitl [Hb]; · iexact Hb
  isplitl [H1]; · iexact H1
  isplitl [H2]; · iexact H2
  isplitl [H3]; · iexact H3
  iexact H5

/-- The region's invariant at the first point is the six scratch buffers at whatever they hold: nothing is
    claimed of their contents before the first point. -/
theorem phi0_intro (c : Dev nD) :
    (iprop(emp ∗ Pipeline.scopedRest spec0 c) : sProp 𝕄) ⊢ (dats m 0 c).Φ 0 := by
  rw [Phi_eq, scopedRest0_eq]
  show _ ⊢ PhiS m c 0
  unfold PhiS
  simp only [owns_whole]
  iintro ⟨-, ⟨%d9, H9⟩, ⟨%d10, H10⟩, ⟨%d11, H11⟩, ⟨%d12, H12⟩, ⟨%d13, H13⟩, ⟨%d14, H14⟩⟩
  iexists d9, d10, d11, d12, d13, d14
  isplitr
  · ipureintro; intro h; exact absurd rfl h
  isplitl [H9]; · iexact H9
  isplitl [H10]; · iexact H10
  isplitl [H11]; · iexact H11
  isplitl [H12]; · iexact H12
  isplitl [H13]; · iexact H13
  iexact H14

/-- At the last point the invariant gives the six scratch buffers back. -/
theorem phi1_exit (c : Dev nD) :
    (dats m 0 c).Φ (Fin.last cfg0.N) ⊢ (iprop(emp ∗ Pipeline.scopedRest spec0 c) : sProp 𝕄) := by
  rw [Phi_eq, scopedRest0_eq]
  unfold PhiS
  simp only [owns_whole]
  iintro ⟨%d9, %d10, %d11, %d12, %d13, %d14, -, H9, H10, H11, H12, H13, H14⟩
  isplitr; · iempintro
  isplitl [H9]; · iexists d9; iexact H9
  isplitl [H10]; · iexists d10; iexact H10
  isplitl [H11]; · iexists d11; iexact H11
  isplitl [H12]; · iexists d12; iexact H12
  isplitl [H13]; · iexists d13; iexact H13
  iexists d14; iexact H14

/-- The launch: under the body's obligation at the proof data above, every weakly fair execution of the program
    from a memory with zero counters terminates; the result array ends at what the pipeline's write-backs leave
    in it and the four argument arrays end as they were. -/
theorem run_main_of
    (hbody : ∀ c, Pipeline.BodyObligationLoose (dats (F := F) m 0 c) (defs₀ (F := F)) Variants.none () Set.univ) :
    θ_run defs (onTc (τ := τ) (main (F := F))) ⟨m, fun _ => 0, ρ⟩ (fun r => ∀ c : Dev nD,
      r.2.mem ((c.tc : Thread nD τ).loc main_v0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_region_noSem_shared cfgs (dats m) () cellOf_inj (0 : Fin 1) winFacts₀0
    (emb₁ : Emb (UR sig nD τ) 𝕄) defs₀ Variants.none m ρ main
    (hbody := hbody) (hne := block_pos0) (harr := arr_whole0) (hstage := stage_whole0)
    (howed := fun _ _ => rfl)
    (u₀ := initOf (Pipeline.cells cfgs cellOf_inj) (Pipeline.launchToks cfgs cellOf_inj))
    (hu₀ := BI.Entails.refl _)
    (V := fun c b => m ((c : Thread nD τ).loc b))
    (hmain := fun c Q => by
      simp only [main, Prog.lift, Prog.bind_op, Prog.bind_ret]
      iintro ⟨Hk, Hb⟩; iapply Hk; iexact Hb)
    (hsplit := hsplit m)
    (X := fun _ => iprop(emp)) (Y := fun _ => iprop(emp)) (Z := fun _ => iprop(emp))
    (hX := fun c => by rw [unscopedRest0_eq]; iintro -; isplitr <;> iempintro)
    (hin := phi0_intro m) (hout := phi1_exit m)
    (QY := fun _ _ => True)
    (hY := fun c s' => by
      iintro ⟨-, -, HSI⟩; imodintro
      isplitr; · ipureintro; trivial
      iexact HSI)
    (hQ := fun s h c =>
      ⟨(h c).1 (5 : Fin 6),
        ((h c).1 (0 : Fin 6)).trans ((dats m 0 c).arrAt_in (0 : Fin 6) rfl _),
        ((h c).1 (2 : Fin 6)).trans ((dats m 0 c).arrAt_in (2 : Fin 6) rfl _),
        ((h c).1 (3 : Fin 6)).trans ((dats m 0 c).arrAt_in (3 : Fin 6) rfl _),
        ((h c).1 (4 : Fin 6)).trans ((dats m 0 c).arrAt_in (4 : Fin 6) rfl _)⟩)

end Cert.KernelIdeal.Body

end
-- ==== Proof.KI.Final.lean ====
/-
  From the output window's blocks to the result array, and the input windows' blocks as blocks of the argument
  arrays.

  The grid is (4, 4, 4) in row-major order: the point at position n has batch n / 16, query tile (n / 4) mod 4 and
  key tile n mod 4. The output window's block at a point is rows 1024 q … 1024 q + 1023 of batch b of the result,
  for the point's batch b and query tile q, and it is written back after the row's last key tile (n mod 4 = 3).
  So when a whole-array function read through each such block is what that point stores, the result array ends
  holding that function: the entry (b, s, e) lies in the block of the point 16 b + 4 (s / 1024) + 3.
-/
import proofs.«127055_j20289425507095_2_alg».proof.Proof.KI.Dats
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

open Cert.KernelIdeal.Spec Cert.LibWholeStore

variable (m : (ℓ : Loc nD τ sig) → Buf (Elt F) ℓ)

/-! ## The output window: from blocks to the array -/

/-- The output window's block index at the point of position n: (batch, query tile, 0). -/
theorem idx5 : ∀ t : Fin cfg0.N,
    win0_5.index t 0 = t.val / 16 ∧ win0_5.index t 1 = (t.val / 4) % 4 ∧ win0_5.index t 2 = 0 :=
  (by decide +kernel : ∀ t : Fin grid0.N,
    win0_5.index t 0 = t.val / 16 ∧ win0_5.index t 1 = (t.val / 4) % 4 ∧ win0_5.index t 2 = 0)

/-- What a writing point writes back is its block of the whole-array function. -/
theorem flushed5_eq (c : Dev nD) (Gout : Buf (Elt F) ((c : Thread nD τ).loc main_v0))
    (hG : ∀ t : Fin cfg0.N, t.val % 4 = 3 → ((cfg0.win 5).blk t).view.read (Elt F) Gout = OUT m c t.val)
    (t : Fin cfg0.N) (hf : (cfg0.win 5).flush t = true) :
    (dats m 0 c).flushed 5 t = ((cfg0.win 5).blk t).view.read (Elt F) Gout := by
  show (cfg0.win 5).cut (grid0.coords t) ((dats m 0 c).after 5 t) = _
  rw [after0_5, hG t ((flush0_5 t).mp hf)]
  rfl

/-- Every entry of the result lies in the block of a writing point: entry (b, s, e) in that of 16 b + 4 (s / 1024) + 3. -/
theorem cover5 (c : Dev nD) (i : ((cfg0.win 5).arr.view.loc (c.tc : Thread nD τ)).2.ty.Idx) :
    ∃ t : Fin cfg0.N, (cfg0.win 5).flush t = true ∧ i ∈ ((cfg0.win 5).blk t).view.set := by
  have h0 : (i 0 : Nat) < 4 := (i 0).isLt
  have h1 : (i 1 : Nat) < 4096 := (i 1).isLt
  have h2 : (i 2 : Nat) < 256 := (i 2).isLt
  have hn : 16 * (i 0 : Nat) + 4 * ((i 1 : Nat) / 1024) + 3 < 64 := by omega
  have htv : (pt (16 * (i 0 : Nat) + 4 * ((i 1 : Nat) / 1024) + 3)).val = 16 * (i 0 : Nat) + 4 * ((i 1 : Nat) / 1024) + 3 :=
    Nat.mod_eq_of_lt hn
  refine ⟨pt (16 * (i 0 : Nat) + 4 * ((i 1 : Nat) / 1024) + 3), (flush0_5 _).mpr (by rw [htv]; omega), ?_⟩
  generalize pt (16 * (i 0 : Nat) + 4 * ((i 1 : Nat) / 1024) + 3) = t at htv
  obtain ⟨e0, e1, e2⟩ := idx5 t
  show i ∈ ((View.whole main_v0).slice (win0_5.rect t)).set
  rw [View.set_slice_whole, Rect.mem_set_unit]
  intro a
  match a with
  | ⟨0, _⟩ =>
    show win0_5.index t 0 * 1 ≤ (i 0 : Nat) ∧ (i 0 : Nat) < win0_5.index t 0 * 1 + 1
    rw [e0, htv]; omega
  | ⟨1, _⟩ =>
    show win0_5.index t 1 * 1024 ≤ (i 1 : Nat) ∧ (i 1 : Nat) < win0_5.index t 1 * 1024 + 1024
    rw [e1, htv]; omega
  | ⟨2, _⟩ =>
    show win0_5.index t 2 * 256 ≤ (i 2 : Nat) ∧ (i 2 : Nat) < win0_5.index t 2 * 256 + 256
    rw [e2]; omega

/-- So the result array ends holding the whole-array function. -/
theorem final5 (c : Dev nD) (Gout : Buf (Elt F) ((c : Thread nD τ).loc main_v0))
    (hG : ∀ t : Fin cfg0.N, t.val % 4 = 3 → ((cfg0.win 5).blk t).view.read (Elt F) Gout = OUT m c t.val) :
    (dats m 0 c).arrAt 5 cfg0.N = Gout :=
  (dats m 0 c).arrAt_eq_of_cover 5 Gout (flushed5_eq m c Gout hG) (cover5 c)

/-! ## The input windows' blocks, and the output window's block of an array, by coordinates -/

/-- Rows 1024 j … 1024 j + 1023 of batch b of a [4, 4096, 256] array, as a [1, 1024, 256] block. -/
def blkG {α : Type} (A : S4x4096x256.Idx → α) (b j : Fin 4) : S1x1024x256.Idx → α := fun y =>
  A (ix3 b ⟨1024 * j.val + (y 1).val, by
    have h1 : (y 1).val < 1024 := (y 1).isLt
    have h2 := j.isLt
    omega⟩ (y 2))

/-- On the extended reals it is the specification's block. -/
theorem blkG_eq_blkOf (X : S4x4096x256.Idx → EReal) (b j : Fin 4) : blkG X b j = blkOf X b j := rfl

/-- The batch, the query tile and the key tile the key window reads, at a grid point. -/
def bOf (t : Fin cfg0.N) : Fin 4 := ⟨t.val / 16, by have := val_lt t; omega⟩
def qOf (t : Fin cfg0.N) : Fin 4 := ⟨(t.val / 4) % 4, by omega⟩
def kOf (t : Fin cfg0.N) : Fin 4 := ⟨if (t.val / 4) % 4 = 0 then t.val % 4 else 0, by split <;> omega⟩

theorem idx0 : ∀ t : Fin cfg0.N,
    win0_0.index t 0 = t.val / 16 ∧ win0_0.index t 1 = (t.val / 4) % 4 ∧ win0_0.index t 2 = 0 :=
  (by decide +kernel : ∀ t : Fin grid0.N,
    win0_0.index t 0 = t.val / 16 ∧ win0_0.index t 1 = (t.val / 4) % 4 ∧ win0_0.index t 2 = 0)
theorem idx1 : ∀ t : Fin cfg0.N,
    win0_1.index t 0 = t.val / 16 ∧ win0_1.index t 1 = (if (t.val / 4) % 4 = 0 then t.val % 4 else 0) ∧ win0_1.index t 2 = 0 :=
  (by decide +kernel : ∀ t : Fin grid0.N,
    win0_1.index t 0 = t.val / 16 ∧ win0_1.index t 1 = (if (t.val / 4) % 4 = 0 then t.val % 4 else 0) ∧ win0_1.index t 2 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)

/-- The query window's block: the point's query tile of its batch of x. -/
theorem iblk0_eq (c : Dev nD) (t : Fin cfg0.N) :
    (iblk m c 0 t : Vec F S1x1024x256 .f32) = blkG (m ((c : Thread nD τ).loc main_arg0)) (bOf t) (qOf t) := by
  obtain ⟨e0, e1, e2⟩ := idx0 t
  funext y
  have y0 : (y 0).val < 1 := (y 0).isLt
  unfold iblk blkG
  rw [View.read_apply]
  show V m c main_arg0 _ = m (c.tc.loc main_arg0) _
  congr 1
  funext a
  apply Fin.ext
  match a with
  | ⟨0, _⟩ => show win0_0.index t 0 * 1 + 1 * (y 0).val = t.val / 16; rw [e0]; omega
  | ⟨1, _⟩ => show win0_0.index t 1 * 1024 + 1 * (y 1).val = 1024 * ((t.val / 4) % 4) + (y 1).val; rw [e1]; omega
  | ⟨2, _⟩ => show win0_0.index t 2 * 256 + 1 * (y 2).val = (y 2).val; rw [e2]; omega

/-- The key window's block: the key tile of the batch while the batch's first query tile visits it, tile 0 after. -/
theorem iblk1_eq (c : Dev nD) (t : Fin cfg0.N) :
    (iblk m c 1 t : Vec F S1x1024x256 .f32) = blkG (m ((c : Thread nD τ).loc main_arg0)) (bOf t) (kOf t) := by
  obtain ⟨e0, e1, e2⟩ := idx1 t
  funext y
  have y0 : (y 0).val < 1 := (y 0).isLt
  unfold iblk blkG
  rw [View.read_apply]
  show V m c main_arg0 _ = m (c.tc.loc main_arg0) _
  congr 1
  funext a
  apply Fin.ext
  match a with
  | ⟨0, _⟩ => show win0_1.index t 0 * 1 + 1 * (y 0).val = t.val / 16; rw [e0]; omega
  | ⟨1, _⟩ =>
    show win0_1.index t 1 * 1024 + 1 * (y 1).val = 1024 * (if (t.val / 4) % 4 = 0 then t.val % 4 else 0) + (y 1).val
    rw [e1]; omega
  | ⟨2, _⟩ => show win0_1.index t 2 * 256 + 1 * (y 2).val = (y 2).val; rw [e2]; omega

/-- The three weight windows' blocks are the whole weight arrays. -/
theorem iblk2_eq (c : Dev nD) (t : Fin cfg0.N) :
    (iblk m c 2 t : Vec F S256x256 .f32) = m ((c : Thread nD τ).loc main_arg1) := by
  obtain ⟨e0, e1⟩ := idx2 t
  funext y
  unfold iblk
  rw [View.read_apply]
  show V m c main_arg1 _ = m (c.tc.loc main_arg1) y
  congr 1
  funext a
  apply Fin.ext
  match a with
  | ⟨0, _⟩ => show win0_2.index t 0 * 256 + 1 * (y 0).val = (y 0).val; rw [e0]; omega
  | ⟨1, _⟩ => show win0_2.index t 1 * 256 + 1 * (y 1).val = (y 1).val; rw [e1]; omega

theorem iblk3_eq (c : Dev nD) (t : Fin cfg0.N) :
    (iblk m c 3 t : Vec F S256x256 .f32) = m ((c : Thread nD τ).loc main_arg2) := by
  obtain ⟨e0, e1⟩ := idx3 t
  funext y
  unfold iblk
  rw [View.read_apply]
  show V m c main_arg2 _ = m (c.tc.loc main_arg2) y
  congr 1
  funext a
  apply Fin.ext
  match a with
  | ⟨0, _⟩ => show win0_3.index t 0 * 256 + 1 * (y 0).val = (y 0).val; rw [e0]; omega
  | ⟨1, _⟩ => show win0_3.index t 1 * 256 + 1 * (y 1).val = (y 1).val; rw [e1]; omega

theorem iblk4_eq (c : Dev nD) (t : Fin cfg0.N) :
    (iblk m c 4 t : Vec F S256x256 .f32) = m ((c : Thread nD τ).loc main_arg3) := by
  obtain ⟨e0, e1⟩ := idx4 t
  funext y
  unfold iblk
  rw [View.read_apply]
  show V m c main_arg3 _ = m (c.tc.loc main_arg3) y
  congr 1
  funext a
  apply Fin.ext
  match a with
  | ⟨0, _⟩ => show win0_4.index t 0 * 256 + 1 * (y 0).val = (y 0).val; rw [e0]; omega
  | ⟨1, _⟩ => show win0_4.index t 1 * 256 + 1 * (y 1).val = (y 1).val; rw [e1]; omega

/-- An array of the result's shape read through the output window's block at a point: the point's query tile of its batch. -/
theorem blk5_read (c : Dev nD) (Gout : Buf (Elt F) ((c : Thread nD τ).loc main_v0)) (t : Fin cfg0.N) :
    (((cfg0.win 5).blk t).view.read (Elt F) Gout : Vec F S1x1024x256 .f32) = blkG Gout (bOf t) (qOf t) := by
  obtain ⟨e0, e1, e2⟩ := idx5 t
  funext y
  have y0 : (y 0).val < 1 := (y 0).isLt
  unfold blkG
  rw [View.read_apply]
  refine congrArg Gout (funext fun a => Fin.ext ?_)
  match a with
  | ⟨0, _⟩ => show win0_5.index t 0 * 1 + 1 * (y 0).val = t.val / 16; rw [e0]; omega
  | ⟨1, _⟩ => show win0_5.index t 1 * 1024 + 1 * (y 1).val = 1024 * ((t.val / 4) % 4) + (y 1).val; rw [e1]; omega
  | ⟨2, _⟩ => show win0_5.index t 2 * 256 + 1 * (y 2).val = (y 2).val; rw [e2]; omega

/-- The result array from the coordinate form: if each writing point stores its query tile of its batch of the
    whole-array function, the result array ends holding that function. -/
theorem final5_of_blocks (c : Dev nD) (Gout : Buf (Elt F) ((c : Thread nD τ).loc main_v0))
    (hG : ∀ t : Fin cfg0.N, t.val % 4 = 3 → blkG Gout (bOf t) (qOf t) = OUT m c t.val) :
    (dats m 0 c).arrAt 5 cfg0.N = Gout :=
  final5 m c Gout fun t ht => (blk5_read c Gout t).trans (hG t ht)

end Cert.KernelIdeal.Body

end
-- ==== Proof.LibOnlineSoftmax.lean ====
/-
  Online softmax, for one query row and one output column, on the extended reals.

  Scores `S j k` and values `V j k` come in tiles `j = 0, 1, …` of entries `k : ι`, all finite. A running maximum,
  a running sum and a running accumulator start at minus infinity, zero and zero; tile `j` replaces them by
  `m' = max m (max_k S j k)`, `exp (m - m') * l + ∑_k exp (S j k - m')` and
  `exp (m - m') * a + ∑_k exp (S j k - m') * V j k`. After `n ≥ 1` tiles the accumulator over the sum is the
  softmax-weighted mean of all the values seen: with `M` the maximum of all scores and
  `L = ∑_{j,k} exp (S j k - M)`, it is `∑_{j,k} (exp (S j k - M) / L) * V j k`. The rescaling factors telescope
  because every maximum after the first tile is finite, and `L > 0` because every term is an exponential of a real.
-/
import Idealize.ShloMosaic.PureOps.Ideal

noncomputable section

namespace Cert.OnlineSoftmax

open Idealize.ShloMosaic

variable {ι : Type} [Fintype ι]

/-- The largest score of tile `j`, from minus infinity. -/
def tileMax (S : ℕ → ι → ℝ) (j : ℕ) : EReal := Finset.univ.fold max ⊥ fun k : ι => ((S j k : ℝ) : EReal)

/-- Running maximum, running sum, running accumulator before tile `j` (after tiles `0 … j - 1`). -/
def online (S V : ℕ → ι → ℝ) : ℕ → EReal × EReal × EReal
  | 0 => (⊥, 0, 0)
  | j + 1 =>
    let m := (online S V j).1
    let l := (online S V j).2.1
    let a := (online S V j).2.2
    let m' := max m (tileMax S j)
    (m', Ideal.exp (m - m') * l + ∑ k : ι, Ideal.exp (((S j k : ℝ) : EReal) - m'),
      Ideal.exp (m - m') * a + ∑ k : ι, Ideal.exp (((S j k : ℝ) : EReal) - m') * ((V j k : ℝ) : EReal))

/-- The maximum of all scores of tiles `0 … n - 1`. -/
def allMax (S : ℕ → ι → ℝ) (n : ℕ) : EReal := (Finset.range n).fold max ⊥ fun j => tileMax S j

/-- The softmax normalizer over tiles `0 … n - 1`. -/
def allSum (S : ℕ → ι → ℝ) (n : ℕ) : EReal :=
  ∑ j ∈ Finset.range n, ∑ k : ι, Ideal.exp (((S j k : ℝ) : EReal) - allMax S n)

/-! ### Coercions of reals into the extended reals -/

/-- The coercion of a maximum of reals is the maximum of the coercions. -/
theorem coe_max (x y : ℝ) : ((max x y : ℝ) : EReal) = max (x : EReal) (y : EReal) :=
  EReal.coe_strictMono.monotone.map_max

/-- The coercion of a finite sum of reals is the sum of the coercions. -/
theorem coe_sum {α : Type} (s : Finset α) (f : α → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A maximum, from minus infinity, of a nonempty finite family of reals is a real. -/
theorem fold_max_coe {α : Type} (s : Finset α) (hs : s.Nonempty) (f : α → ℝ) :
    ∃ t : ℝ, s.fold max ⊥ (fun k => ((f k : ℝ) : EReal)) = (t : EReal) := by
  classical
  induction s using Finset.induction_on with
  | empty => exact absurd hs Finset.not_nonempty_empty
  | insert a s ha ih =>
    rw [Finset.fold_insert ha]
    rcases s.eq_empty_or_nonempty with rfl | hne
    · exact ⟨f a, by rw [Finset.fold_empty, max_comm, max_bot_left]⟩
    · obtain ⟨t, ht⟩ := ih hne
      exact ⟨max (f a) t, by rw [ht, coe_max]⟩

/-- The exponential of a difference of reals, read on the extended reals, is the real exponential. -/
theorem exp_coe_sub (x c : ℝ) :
    Ideal.exp ((x : EReal) - (c : EReal)) = ((Real.exp (x - c) : ℝ) : EReal) := by
  rw [← EReal.coe_sub, Ideal.exp_coe]

/-! ### The real normalizer and the real weighted sum, relative to a shift `c` -/

/-- `∑_{i < j, k} exp (S i k - c)`. -/
def lR (S : ℕ → ι → ℝ) (j : ℕ) (c : ℝ) : ℝ := ∑ i ∈ Finset.range j, ∑ k : ι, Real.exp (S i k - c)

/-- `∑_{i < j, k} exp (S i k - c) * V i k`. -/
def aR (S V : ℕ → ι → ℝ) (j : ℕ) (c : ℝ) : ℝ :=
  ∑ i ∈ Finset.range j, ∑ k : ι, Real.exp (S i k - c) * V i k

/-- Changing the shift from `r` to `r'` multiplies the normalizer by `exp (r - r')`. -/
theorem lR_rescale (S : ℕ → ι → ℝ) (j : ℕ) (r r' : ℝ) : Real.exp (r - r') * lR S j r = lR S j r' := by
  unfold lR
  rw [Finset.mul_sum]
  refine Finset.sum_congr rfl fun i _ => ?_
  rw [Finset.mul_sum]
  refine Finset.sum_congr rfl fun k _ => ?_
  rw [← Real.exp_add]
  congr 1
  ring

/-- Changing the shift from `r` to `r'` multiplies the weighted sum by `exp (r - r')`. -/
theorem aR_rescale (S V : ℕ → ι → ℝ) (j : ℕ) (r r' : ℝ) :
    Real.exp (r - r') * aR S V j r = aR S V j r' := by
  unfold aR
  rw [Finset.mul_sum]
  refine Finset.sum_congr rfl fun i _ => ?_
  rw [Finset.mul_sum]
  refine Finset.sum_congr rfl fun k _ => ?_
  rw [← mul_assoc, ← Real.exp_add]
  congr 2
  ring

/-- The normalizer over at least one nonempty tile is positive. -/
theorem lR_pos [Nonempty ι] (S : ℕ → ι → ℝ) (j : ℕ) (c : ℝ) : 0 < lR S (j + 1) c := by
  unfold lR
  refine Finset.sum_pos (fun i _ => ?_) ⟨0, Finset.mem_range.2 (Nat.succ_pos j)⟩
  exact Finset.sum_pos (fun k _ => Real.exp_pos _) Finset.univ_nonempty

/-- One tile's sum of exponentials, on the extended reals, is the coercion of the real sum. -/
theorem tile_exp_coe (S : ℕ → ι → ℝ) (i : ℕ) (c : ℝ) :
    ∑ k : ι, Ideal.exp (((S i k : ℝ) : EReal) - (c : EReal)) = ((∑ k : ι, Real.exp (S i k - c) : ℝ) : EReal) := by
  rw [coe_sum]
  exact Finset.sum_congr rfl fun k _ => exp_coe_sub _ _

/-- One tile's weighted sum, on the extended reals, is the coercion of the real weighted sum. -/
theorem tile_exp_mul_coe (S V : ℕ → ι → ℝ) (i : ℕ) (c : ℝ) :
    ∑ k : ι, Ideal.exp (((S i k : ℝ) : EReal) - (c : EReal)) * ((V i k : ℝ) : EReal)
      = ((∑ k : ι, Real.exp (S i k - c) * V i k : ℝ) : EReal) := by
  rw [coe_sum]
  exact Finset.sum_congr rfl fun k _ => by rw [exp_coe_sub, EReal.coe_mul]

/-- The sum of exponentials over tiles `< j`, on the extended reals, is the coercion of `lR`. -/
theorem sum_exp_coe (S : ℕ → ι → ℝ) (j : ℕ) (c : ℝ) :
    ∑ i ∈ Finset.range j, ∑ k : ι, Ideal.exp (((S i k : ℝ) : EReal) - (c : EReal)) = ((lR S j c : ℝ) : EReal) := by
  unfold lR
  rw [coe_sum]
  exact Finset.sum_congr rfl fun i _ => tile_exp_coe S i c

/-! ### The recursion -/

theorem online_succ_fst (S V : ℕ → ι → ℝ) (j : ℕ) :
    (online S V (j + 1)).1 = max (online S V j).1 (tileMax S j) := rfl

theorem online_succ_snd_fst (S V : ℕ → ι → ℝ) (j : ℕ) :
    (online S V (j + 1)).2.1
      = Ideal.exp ((online S V j).1 - max (online S V j).1 (tileMax S j)) * (online S V j).2.1
        + ∑ k : ι, Ideal.exp (((S j k : ℝ) : EReal) - max (online S V j).1 (tileMax S j)) := rfl

theorem online_succ_snd_snd (S V : ℕ → ι → ℝ) (j : ℕ) :
    (online S V (j + 1)).2.2
      = Ideal.exp ((online S V j).1 - max (online S V j).1 (tileMax S j)) * (online S V j).2.2
        + ∑ k : ι, Ideal.exp (((S j k : ℝ) : EReal) - max (online S V j).1 (tileMax S j))
            * ((V j k : ℝ) : EReal) := rfl

/-- The largest score of a nonempty tile is a real. -/
theorem tileMax_coe [Nonempty ι] (S : ℕ → ι → ℝ) (j : ℕ) : ∃ t : ℝ, tileMax S j = (t : EReal) :=
  fold_max_coe Finset.univ Finset.univ_nonempty (S j)

/-- The running maximum is the maximum of all scores seen. -/
theorem online_fst (S V : ℕ → ι → ℝ) (n : ℕ) : (online S V n).1 = allMax S n := by
  induction n with
  | zero => rfl
  | succ n ih =>
    rw [online_succ_fst, ih, allMax, allMax, Finset.range_add_one, Finset.fold_insert Finset.notMem_range_self,
      max_comm]

/-- After at least one tile the running maximum is a real `r`, and the running sum and accumulator are the
    real normalizer and weighted sum relative to the shift `r`. -/
theorem online_succ [Nonempty ι] (S V : ℕ → ι → ℝ) (j : ℕ) :
    ∃ r : ℝ, (online S V (j + 1)).1 = (r : EReal)
      ∧ (online S V (j + 1)).2.1 = ((lR S (j + 1) r : ℝ) : EReal)
      ∧ (online S V (j + 1)).2.2 = ((aR S V (j + 1) r : ℝ) : EReal) := by
  induction j with
  | zero =>
    obtain ⟨t, ht⟩ := tileMax_coe S 0
    have h0 : online S V 0 = (⊥, 0, 0) := rfl
    refine ⟨t, ?_, ?_, ?_⟩
    · rw [online_succ_fst, h0, ht, max_bot_left]
    · rw [online_succ_snd_fst, h0, ht, max_bot_left, mul_zero, zero_add, tile_exp_coe]
      simp [lR]
    · rw [online_succ_snd_snd, h0, ht, max_bot_left, mul_zero, zero_add, tile_exp_mul_coe]
      simp [aR]
  | succ j ih =>
    obtain ⟨r, hm, hl, ha⟩ := ih
    obtain ⟨t, ht⟩ := tileMax_coe S (j + 1)
    refine ⟨max r t, ?_, ?_, ?_⟩
    · rw [online_succ_fst, hm, ht, coe_max]
    · rw [online_succ_snd_fst, hm, hl, ht, ← coe_max, exp_coe_sub, ← EReal.coe_mul, lR_rescale, tile_exp_coe,
        ← EReal.coe_add]
      congr 1
      exact (Finset.sum_range_succ _ _).symm
    · rw [online_succ_snd_snd, hm, ha, ht, ← coe_max, exp_coe_sub, ← EReal.coe_mul, aR_rescale, tile_exp_mul_coe,
        ← EReal.coe_add]
      congr 1
      exact (Finset.sum_range_succ _ _).symm

/-- After `n ≥ 1` nonempty tiles, accumulator over sum is the softmax-weighted mean of the values. -/
theorem online_softmax [Nonempty ι] (S V : ℕ → ι → ℝ) (n : ℕ) (hn : 0 < n) :
    Ideal.div (online S V n).2.2 (online S V n).2.1
      = ∑ j ∈ Finset.range n, ∑ k : ι,
          Ideal.div (Ideal.exp (((S j k : ℝ) : EReal) - allMax S n)) (allSum S n) * ((V j k : ℝ) : EReal) := by
  obtain ⟨j, rfl⟩ : ∃ j, n = j + 1 := ⟨n - 1, by omega⟩
  obtain ⟨r, hm, hl, ha⟩ := online_succ S V j
  have hM : allMax S (j + 1) = (r : EReal) := by rw [← online_fst S V, hm]
  have hL : allSum S (j + 1) = ((lR S (j + 1) r : ℝ) : EReal) := by
    unfold allSum
    rw [hM]
    exact sum_exp_coe S (j + 1) r
  have hne : lR S (j + 1) r ≠ 0 := (lR_pos S j r).ne'
  have hterm : ∀ i k, Ideal.div (Ideal.exp (((S i k : ℝ) : EReal) - (r : EReal))) ((lR S (j + 1) r : ℝ) : EReal)
      * ((V i k : ℝ) : EReal) = ((Real.exp (S i k - r) * (1 / lR S (j + 1) r) * V i k : ℝ) : EReal) := by
    intro i k
    rw [Ideal.div_coe hne, exp_coe_sub, ← EReal.coe_mul, ← EReal.coe_mul]
  rw [ha, hl, hL, hM, Ideal.div_coe hne, ← EReal.coe_mul]
  have hrhs : ∑ i ∈ Finset.range (j + 1), ∑ k : ι,
      Ideal.div (Ideal.exp (((S i k : ℝ) : EReal) - (r : EReal))) ((lR S (j + 1) r : ℝ) : EReal)
        * ((V i k : ℝ) : EReal)
      = ((∑ i ∈ Finset.range (j + 1), ∑ k : ι,
          Real.exp (S i k - r) * (1 / lR S (j + 1) r) * V i k : ℝ) : EReal) := by
    rw [coe_sum]
    refine Finset.sum_congr rfl fun i _ => ?_
    rw [coe_sum]
    exact Finset.sum_congr rfl fun k _ => hterm i k
  rw [hrhs]
  congr 1
  unfold aR
  rw [Finset.sum_mul]
  refine Finset.sum_congr rfl fun i _ => ?_
  rw [Finset.sum_mul]
  refine Finset.sum_congr rfl fun k _ => ?_
  ring

end Cert.OnlineSoftmax

end
-- ==== Proof.LibKeepdimsCol.lean ====
/-
  Two layout operations read at an index given by coordinates, for any element type and any extents:
  the shape cast that appends a unit axis to a vector, and the broadcast of a one-column matrix along its rows.
  Together they are what a row statistic kept as a column (a sum over the last axis with the axis kept)
  looks like when it is spread back over a matrix.
-/
import Idealize.ShloMosaic.Lib.ValueLayout

namespace Cert.LibKeepdimsCol

open Idealize.ShloMosaic Idealize.ShloMosaic.ValueIdx

variable {α : Type}

/-- A vector of length `a` cast to an `a × 1` column reads, at `(i, u)`, the vector at `i`: both sit at
    row-major position `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdimsCol
-- ==== Proof.LibBlockSum.lean ====
/-
  Regrouping a long sum into consecutive blocks.

  A sum over `a * b` consecutive indices is the sum, over the `a` blocks, of the sum over the `b`
  indices inside each block: index `k` of the long sum is `j + b * i` for block `i` and offset `j`.
  Only commutativity and associativity of addition are used, so the law holds in every commutative
  additive monoid — in particular on the extended reals, infinities included.
-/
import Idealize.ShloMosaic.PureOps.Ideal

namespace Cert.BlockSum

open BigOperators

/-- The sum over `Fin (a * b)` split into `a` blocks of `b` consecutive terms. -/
theorem sum_blocks {M : Type*} [AddCommMonoid M] (a b : ℕ) (f : Fin (a * b) → M) :
    ∑ k : Fin (a * b), f k = ∑ i : Fin a, ∑ j : Fin b, f (finProdFinEquiv (i, j)) := by
  rw [← finProdFinEquiv.sum_comp, Fintype.sum_prod_type]

/-- The position of offset `j` of block `i` in the long sum. -/
theorem block_index_val (a b : ℕ) (i : Fin a) (j : Fin b) :
    (finProdFinEquiv (i, j) : Fin (a * b)).val = j.val + b * i.val := rfl

/-- The same law for a function of the natural position: the long sum runs over positions `0 … a·b − 1`, block `s`
    holds positions `b·s … b·s + b − 1`, and the blocks are counted by `Finset.range a`. -/
theorem sum_range_blocks {M : Type*} [AddCommMonoid M] (a b : ℕ) (f : ℕ → M) :
    ∑ k : Fin (a * b), f k.val = ∑ s ∈ Finset.range a, ∑ j : Fin b, f (b * s + j.val) := by
  rw [Finset.sum_range, sum_blocks a b (fun k => f k.val)]
  refine Finset.sum_congr rfl fun i _ => Finset.sum_congr rfl fun j _ => ?_
  rw [block_index_val, Nat.add_comm]

/-- 4096 terms as 8 blocks of 512. -/
theorem sum_4096 {M : Type*} [AddCommMonoid M] (f : ℕ → M) :
    ∑ k : Fin 4096, f k.val = ∑ s ∈ Finset.range 8, ∑ j : Fin 512, f (512 * s + j.val) :=
  sum_range_blocks 8 512 f

end Cert.BlockSum
-- ==== Proof.KI.ValueMath.lean ====
/-
  The attention kernel's per-row state, read index by index at the ideal values, is the reference's function.

  Part 1 reads each of the body's pure terms at an index: the projections are sums over the model width, the
  scores are sums over the head width, the running maximum is a maximum over the key tile, the rescaling factors
  are exponentials of differences, the running sum and accumulator are the rescaled old values plus the tile's
  sums. Part 2 shows that, row by row and column by column, these are the scalar online-softmax recursion.
  Part 3 applies the online-softmax law and regroups the tiles' sums and maxima into sums and one maximum over
  all 4096 keys.
-/
import proofs.«127055_j20289425507095_2_alg».proof.Proof.KI.Spec
import proofs.«127055_j20289425507095_2_alg».proof.Proof.LibOnlineSoftmax
import proofs.«127055_j20289425507095_2_alg».proof.Proof.LibKeepdimsCol
import proofs.«127055_j20289425507095_2_alg».proof.Proof.LibBlockSum
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.ValueMath

open Cert.KernelIdeal Cert.KernelIdeal.Gen Cert.KernelIdeal.Spec
open Idealize.ShloMosaic Idealize.ShloMosaic.ValueIdx

/-! ## Part 1: the body's pure terms at an index -/

/-- The f32 word `0x3D800000` denotes one sixteenth. -/
theorem sixteenth_f32 : Ideal.ofBits .f32 0x3D800000#32 = (((1 : ℝ) / 16 : ℝ) : EReal) := by
  simp [Ideal.ofBits, Ideal.ieee, -EReal.coe_mul]; norm_num

/-- The f32 word `0xFF800000` denotes minus infinity. -/
theorem negInf_f32 : Ideal.ofBits .f32 0xFF800000#32 = (⊥ : EReal) := by
  simp [Ideal.ofBits, Ideal.ieee]

theorem mm_proj_lhs0 (i : S1024x256.Idx) (q : dot_S1024x256_S256x256_S1024x256_1_0_0_1_n_n.contr.Idx) : (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem mm_proj_rhs1 (i : S1024x256.Idx) (q : dot_S1024x256_S256x256_S1024x256_1_0_0_1_n_n.contr.Idx) : (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl
/-- A product of a 1024 × 256 block with a 256 × 256 matrix into a zero accumulator, at an entry. -/
theorem mm_proj_apply {φ₁ φ₂ : FTy} (lhs : FVec Ideal S1024x256 φ₁) (rhs : FVec Ideal S256x256 φ₂) (r : Fin 1024) (a : Fin 256) :
    FloatOps.matmul dot_S1024x256_S256x256_S1024x256_1_0_0_1_n_n none lhs rhs (constant (F := Ideal) S1024x256 .f32 0x00000000#32) (ix2 r a)
      = ∑ d : Fin 256, lhs (ix2 r d) * rhs (ix2 d a) := by
  rw [Ideal.matmul_constant_zero_apply, ← Equiv.sum_comp (contrEquiv1 dot_S1024x256_S256x256_S1024x256_1_0_0_1_n_n 256 rfl rfl).symm]
  refine Finset.sum_congr rfl fun d _ => ?_
  have hd := contrEquiv1_symm_val dot_S1024x256_S256x256_S1024x256_1_0_0_1_n_n 256 rfl rfl d
  have el : dot_S1024x256_S256x256_S1024x256_1_0_0_1_n_n.lhsIdx (ix2 r a) ((contrEquiv1 dot_S1024x256_S256x256_S1024x256_1_0_0_1_n_n 256 rfl rfl).symm d) = ix2 r d := funext fun c => Fin.ext (by
    match c with
    | ⟨0, _⟩ => exact mm_proj_lhs0 _ _
    | ⟨1, _⟩ => exact (dot_S1024x256_S256x256_S1024x256_1_0_0_1_n_n.lhsIdx_val_of_single rfl _ _).trans hd)
  have er : dot_S1024x256_S256x256_S1024x256_1_0_0_1_n_n.rhsIdx (ix2 r a) ((contrEquiv1 dot_S1024x256_S256x256_S1024x256_1_0_0_1_n_n 256 rfl rfl).symm d) = ix2 d a := funext fun c => Fin.ext (by
    match c with
    | ⟨0, _⟩ => exact (dot_S1024x256_S256x256_S1024x256_1_0_0_1_n_n.rhsIdx_val_of_single rfl _ _).trans hd
    | ⟨1, _⟩ => exact mm_proj_rhs1 _ _)
  rw [el, er]

theorem mm_score_lhs0 (i : S1024x1024.Idx) (q : dot_S1024x256_S256x1024_S1024x1024_1_0_0_1_n_n.contr.Idx) : (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem mm_score_rhs1 (i : S1024x1024.Idx) (q : dot_S1024x256_S256x1024_S1024x1024_1_0_0_1_n_n.contr.Idx) : (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl
/-- A product of a 1024 × 256 block with a 256 × 1024 matrix into a zero accumulator, at an entry. -/
theorem mm_score_apply {φ₁ φ₂ : FTy} (lhs : FVec Ideal S1024x256 φ₁) (rhs : FVec Ideal S256x1024 φ₂) (r : Fin 1024) (a : Fin 1024) :
    FloatOps.matmul dot_S1024x256_S256x1024_S1024x1024_1_0_0_1_n_n none lhs rhs (constant (F := Ideal) S1024x1024 .f32 0x00000000#32) (ix2 r a)
      = ∑ d : Fin 256, lhs (ix2 r d) * rhs (ix2 d a) := by
  rw [Ideal.matmul_constant_zero_apply, ← Equiv.sum_comp (contrEquiv1 dot_S1024x256_S256x1024_S1024x1024_1_0_0_1_n_n 256 rfl rfl).symm]
  refine Finset.sum_congr rfl fun d _ => ?_
  have hd := contrEquiv1_symm_val dot_S1024x256_S256x1024_S1024x1024_1_0_0_1_n_n 256 rfl rfl d
  have el : dot_S1024x256_S256x1024_S1024x1024_1_0_0_1_n_n.lhsIdx (ix2 r a) ((contrEquiv1 dot_S1024x256_S256x1024_S1024x1024_1_0_0_1_n_n 256 rfl rfl).symm d) = ix2 r d := funext fun c => Fin.ext (by
    match c with
    | ⟨0, _⟩ => exact mm_score_lhs0 _ _
    | ⟨1, _⟩ => exact (dot_S1024x256_S256x1024_S1024x1024_1_0_0_1_n_n.lhsIdx_val_of_single rfl _ _).trans hd)
  have er : dot_S1024x256_S256x1024_S1024x1024_1_0_0_1_n_n.rhsIdx (ix2 r a) ((contrEquiv1 dot_S1024x256_S256x1024_S1024x1024_1_0_0_1_n_n 256 rfl rfl).symm d) = ix2 d a := funext fun c => Fin.ext (by
    match c with
    | ⟨0, _⟩ => exact (dot_S1024x256_S256x1024_S1024x1024_1_0_0_1_n_n.rhsIdx_val_of_single rfl _ _).trans hd
    | ⟨1, _⟩ => exact mm_score_rhs1 _ _)
  rw [el, er]

theorem mm_pv_lhs0 (i : S1024x256.Idx) (q : dot_S1024x1024_S1024x256_S1024x256_1_0_0_1_n_n.contr.Idx) : (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem mm_pv_rhs1 (i : S1024x256.Idx) (q : dot_S1024x1024_S1024x256_S1024x256_1_0_0_1_n_n.contr.Idx) : (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl
/-- A product of a 1024 × 1024 block with a 1024 × 256 matrix into a zero accumulator, at an entry. -/
theorem mm_pv_apply {φ₁ φ₂ : FTy} (lhs : FVec Ideal S1024x1024 φ₁) (rhs : FVec Ideal S1024x256 φ₂) (r : Fin 1024) (a : Fin 256) :
    FloatOps.matmul dot_S1024x1024_S1024x256_S1024x256_1_0_0_1_n_n none lhs rhs (constant (F := Ideal) S1024x256 .f32 0x00000000#32) (ix2 r a)
      = ∑ d : Fin 1024, lhs (ix2 r d) * rhs (ix2 d a) := by
  rw [Ideal.matmul_constant_zero_apply, ← Equiv.sum_comp (contrEquiv1 dot_S1024x1024_S1024x256_S1024x256_1_0_0_1_n_n 1024 rfl rfl).symm]
  refine Finset.sum_congr rfl fun d _ => ?_
  have hd := contrEquiv1_symm_val dot_S1024x1024_S1024x256_S1024x256_1_0_0_1_n_n 1024 rfl rfl d
  have el : dot_S1024x1024_S1024x256_S1024x256_1_0_0_1_n_n.lhsIdx (ix2 r a) ((contrEquiv1 dot_S1024x1024_S1024x256_S1024x256_1_0_0_1_n_n 1024 rfl rfl).symm d) = ix2 r d := funext fun c => Fin.ext (by
    match c with
    | ⟨0, _⟩ => exact mm_pv_lhs0 _ _
    | ⟨1, _⟩ => exact (dot_S1024x1024_S1024x256_S1024x256_1_0_0_1_n_n.lhsIdx_val_of_single rfl _ _).trans hd)
  have er : dot_S1024x1024_S1024x256_S1024x256_1_0_0_1_n_n.rhsIdx (ix2 r a) ((contrEquiv1 dot_S1024x1024_S1024x256_S1024x256_1_0_0_1_n_n 1024 rfl rfl).symm d) = ix2 d a := funext fun c => Fin.ext (by
    match c with
    | ⟨0, _⟩ => exact (dot_S1024x1024_S1024x256_S1024x256_1_0_0_1_n_n.rhsIdx_val_of_single rfl _ _).trans hd
    | ⟨1, _⟩ => exact mm_pv_rhs1 _ _)
  rw [el, er]

/-- The key and value tiles' operand: the block with its unit axis dropped. -/
theorem pay4_apply (xk : Vec Ideal S1x1024x256 .f32) (r : Fin 1024) (d : Fin 256) :
    k0_pay4 (F := Ideal) xk (ix2 r d) = xk (ix3 (0 : Fin 1) r d) := by
  unfold k0_pay4
  exact shapeCast_1ab_ab_apply xk _ r d

/-- A key tile's projection at (r, a): row r of the block against row a of the weights. -/
theorem pay5_apply (xk : Vec Ideal S1x1024x256 .f32) (w : Vec Ideal S256x256 .f32) (r : Fin 1024) (a : Fin 256) :
    k0_pay5 (F := Ideal) xk w (ix2 r a) = ∑ d : Fin 256, xk (ix3 (0 : Fin 1) r d) * w (ix2 a d) := by
  unfold k0_pay5
  refine (congrFun (shapeCast_self _ _) _).trans ?_
  refine (mm_proj_apply _ _ r a).trans ?_
  refine Finset.sum_congr rfl fun d _ => ?_
  exact congrArg₂ (· * ·) (pay4_apply xk r d) (transpose_ix2_apply _ _ d a)

/-- A value tile's projection at (r, a). -/
theorem pay6_apply (xk : Vec Ideal S1x1024x256 .f32) (w : Vec Ideal S256x256 .f32) (r : Fin 1024) (a : Fin 256) :
    k0_pay6 (F := Ideal) xk w (ix2 r a) = ∑ d : Fin 256, xk (ix3 (0 : Fin 1) r d) * w (ix2 a d) := by
  unfold k0_pay6
  refine (congrFun (shapeCast_self _ _) _).trans ?_
  refine (mm_proj_apply _ _ r a).trans ?_
  refine Finset.sum_congr rfl fun d _ => ?_
  exact congrArg₂ (· * ·) (pay4_apply xk r d) (transpose_ix2_apply _ _ d a)

/-- The scaled query projection at (r, a). -/
theorem pay7_apply (xq : Vec Ideal S1x1024x256 .f32) (w : Vec Ideal S256x256 .f32) (r : Fin 1024) (a : Fin 256) :
    k0_pay7 (F := Ideal) xq w (ix2 r a)
      = (∑ d : Fin 256, xq (ix3 (0 : Fin 1) r d) * w (ix2 a d)) * (((1 : ℝ) / 16 : ℝ) : EReal) := by
  unfold k0_pay7
  refine (congrFun (shapeCast_self _ _) _).trans ?_
  refine congrArg₂ (· * ·) ?_ sixteenth_f32
  refine (mm_proj_apply _ _ r a).trans ?_
  refine Finset.sum_congr rfl fun d _ => ?_
  exact congrArg₂ (· * ·) (shapeCast_1ab_ab_apply xq _ r d) (transpose_ix2_apply _ _ d a)

/-- The fresh running maximum is minus infinity. -/
theorem pay8_apply (y : S1024x1.Idx) : k0_pay8 (F := Ideal) y = ⊥ := by
  unfold k0_pay8
  refine (congrFun (shapeCast_self _ _) _).trans ?_
  exact negInf_f32

/-- The fresh running sum is zero. -/
theorem pay9_apply (y : S1024x1.Idx) : k0_pay9 (F := Ideal) y = 0 := by
  unfold k0_pay9
  refine (congrFun (shapeCast_self _ _) _).trans ?_
  exact Ideal.ofBits_zero_f32

/-- The fresh accumulator is zero. -/
theorem pay10_apply (y : S1024x256.Idx) : k0_pay10 (F := Ideal) y = 0 := by
  unfold k0_pay10
  refine (congrFun (shapeCast_self _ _) _).trans ?_
  exact Ideal.ofBits_zero_f32

/-- The scores at (r, j): query row r against key row j. -/
theorem pay11_apply (kt : Vec Ideal S1024x256 .bf16) (q : Vec Ideal S1024x256 .f32) (r j : Fin 1024) :
    k0_pay11 (F := Ideal) kt q (ix2 r j) = ∑ a : Fin 256, q (ix2 r a) * kt (ix2 j a) := by
  unfold k0_pay11
  refine (mm_score_apply _ _ r j).trans ?_
  refine Finset.sum_congr rfl fun a _ => ?_
  exact congrArg₂ (· * ·) rfl (transpose_ix2_apply _ _ a j)

/-- A maximum over the second axis of a matrix, from minus infinity, at a row: the fold of `max` over the row. -/
theorem maximumf_axis1_apply {a b : ℕ} (src : FVec Ideal ⟨2, ![a, b]⟩ .f32)
    (h : Shape.Reduces ⟨2, ![a, b]⟩ [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src _ h hφ hacc (ix1 p)).trans ?_
  show (Finset.univ : Finset (Fin b)).fold max (Ideal.ofBits .f32 0xFF800000#32) (fun k => src (h.lift (ix1 p) k)) = _
  have inserted : ∀ k : Fin b, h.lift (ix1 p) k = ix2 p k := fun k =>
    funext fun ax => Fin.ext (by match ax with | ⟨0, _⟩ => rfl | ⟨1, _⟩ => rfl)
  rw [negInf_f32]
  exact Finset.fold_congr fun k _ => congrArg src (inserted k)

/-- A sum over the second axis of a matrix at a row. -/
theorem add_axis1_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src _ h hφ hacc (ix1 p)).trans ?_
  show ∑ k : Fin b, src (h.lift (ix1 p) k) = _
  refine Finset.sum_congr rfl fun k _ => congrArg src ?_
  exact funext fun ax => Fin.ext (by match ax with | ⟨0, _⟩ => rfl | ⟨1, _⟩ => rfl)

/-- The new running maximum of row r: the old one against the largest score of the row in this tile. -/
theorem pay12_apply (kt : Vec Ideal S1024x256 .bf16) (q : Vec Ideal S1024x256 .f32) (mx : Vec Ideal S1024x1 .f32)
    (r : Fin 1024) (u : Fin 1) :
    k0_pay12 (F := Ideal) kt q mx (ix2 r u)
      = max (mx (ix2 r u)) ((Finset.univ : Finset (Fin 1024)).fold max ⊥ fun j => k0_pay11 (F := Ideal) kt q (ix2 r j)) := by
  unfold k0_pay12
  refine congrArg (max (mx (ix2 r u))) ?_
  refine (Cert.LibKeepdimsCol.shapeCast_a_a1_apply _ _ r u).trans ?_
  exact maximumf_axis1_apply _ _ _ _ r

/-- The rescaling factor of row r: the exponential of the old maximum less the new one. -/
theorem pay13_apply (kt : Vec Ideal S1024x256 .bf16) (q : Vec Ideal S1024x256 .f32) (mx : Vec Ideal S1024x1 .f32)
    (y : S1024x1.Idx) :
    k0_pay13 (F := Ideal) kt q mx y = Ideal.exp (mx y - k0_pay12 (F := Ideal) kt q mx y) := rfl

/-- The tile's weights at (r, j): the exponential of the score less the row's new maximum. -/
theorem pay14_apply (kt : Vec Ideal S1024x256 .bf16) (q : Vec Ideal S1024x256 .f32) (mx : Vec Ideal S1024x1 .f32)
    (r j : Fin 1024) :
    k0_pay14 (F := Ideal) kt q mx (ix2 r j)
      = Ideal.exp (k0_pay11 (F := Ideal) kt q (ix2 r j) - k0_pay12 (F := Ideal) kt q mx (ix2 r (0 : Fin 1))) := by
  unfold k0_pay14
  exact congrArg (fun t => Ideal.exp (k0_pay11 (F := Ideal) kt q (ix2 r j) - t))
    (Cert.LibKeepdimsCol.broadcastTo_a1_ab_apply _ _ r j)

/-- The new running sum of row r: the rescaled old sum plus the tile's weights summed along the row. -/
theorem pay15_apply (kt : Vec Ideal S1024x256 .bf16) (q : Vec Ideal S1024x256 .f32) (mx l : Vec Ideal S1024x1 .f32)
    (r : Fin 1024) (u : Fin 1) :
    k0_pay15 (F := Ideal) kt q mx l (ix2 r u)
      = k0_pay13 (F := Ideal) kt q mx (ix2 r u) * l (ix2 r u) + ∑ j : Fin 1024, k0_pay14 (F := Ideal) kt q mx (ix2 r j) := by
  unfold k0_pay15
  refine (congrFun (shapeCast_self _ _) _).trans ?_
  refine congrArg (k0_pay13 (F := Ideal) kt q mx (ix2 r u) * l (ix2 r u) + ·) ?_
  refine (Cert.LibKeepdimsCol.shapeCast_a_a1_apply _ _ r u).trans ?_
  exact add_axis1_apply _ _ _ _ r

/-- The new accumulator at (r, e): the rescaled old one plus the tile's weights against the value tile. -/
theorem pay1_apply (vt : Vec Ideal S1024x256 .bf16) (a : FVec Ideal S1024x1 .f32) (p : FVec Ideal S1024x1024 .f32)
    (acc : Vec Ideal S1024x256 .f32) (r : Fin 1024) (e : Fin 256) :
    k0_pay1 (F := Ideal) vt a p acc (ix2 r e)
      = a (ix2 r (0 : Fin 1)) * acc (ix2 r e) + ∑ j : Fin 1024, p (ix2 r j) * vt (ix2 j e) := by
  unfold k0_pay1
  refine (congrFun (shapeCast_self _ _) _).trans ?_
  refine congrArg₂ (· + ·) (congrArg (· * acc (ix2 r e)) (Cert.LibKeepdimsCol.broadcastTo_a1_ab_apply _ _ r e)) ?_
  exact mm_pv_apply _ _ r e

/-- The stored running maximum is the computed one. -/
theorem pay2_eq (v : FVec Ideal S1024x1 .f32) : k0_pay2 (F := Ideal) v = v := by
  unfold k0_pay2
  exact shapeCast_self _ _

/-- The output block at (r, e): the accumulator over the running sum. -/
theorem pay3_apply (acc : Vec Ideal S1024x256 .f32) (l : Vec Ideal S1024x1 .f32) (u : Fin 1) (r : Fin 1024) (e : Fin 256) :
    k0_pay3 (F := Ideal) acc l (ix3 u r e) = Ideal.div (acc (ix2 r e)) (l (ix2 r (0 : Fin 1))) := by
  unfold k0_pay3
  refine (shapeCast_ab_1ab_apply _ _ u r e).trans ?_
  exact congrArg (Ideal.div (acc (ix2 r e))) (Cert.LibKeepdimsCol.broadcastTo_a1_ab_apply _ _ r e)

/-! ## Part 2: one row and one column follow the scalar online-softmax recursion -/

open Cert.OnlineSoftmax

/-- One key tile absorbed, at row r: the new maximum. The tile's scores of row r are the reals `Sj`. -/
theorem step_mx (kt vt : Vec Ideal S1024x256 .bf16) (s : OSt Ideal) (r : Fin 1024) (Sj : Fin 1024 → ℝ)
    (hS : ∀ k : Fin 1024, (∑ a : Fin 256, s.q (ix2 r a) * kt (ix2 k a)) = ((Sj k : ℝ) : EReal)) :
    (stepSt kt vt s).mx (ix2 r (0 : Fin 1))
      = max (s.mx (ix2 r (0 : Fin 1))) ((Finset.univ : Finset (Fin 1024)).fold max ⊥ fun k => ((Sj k : ℝ) : EReal)) := by
  show k0_pay2 (F := Ideal) (k0_pay12 (F := Ideal) kt s.q s.mx) (ix2 r (0 : Fin 1)) = _
  rw [pay2_eq, pay12_apply]
  refine congrArg (max _) (Finset.fold_congr fun k _ => ?_)
  rw [pay11_apply]; exact hS k

/-- One key tile absorbed, at row r: the new sum, in terms of the new maximum. -/
theorem step_l (kt vt : Vec Ideal S1024x256 .bf16) (s : OSt Ideal) (r : Fin 1024) (Sj : Fin 1024 → ℝ)
    (hS : ∀ k : Fin 1024, (∑ a : Fin 256, s.q (ix2 r a) * kt (ix2 k a)) = ((Sj k : ℝ) : EReal)) :
    (stepSt kt vt s).l (ix2 r (0 : Fin 1))
      = Ideal.exp (s.mx (ix2 r (0 : Fin 1)) - (stepSt kt vt s).mx (ix2 r (0 : Fin 1))) * s.l (ix2 r (0 : Fin 1))
        + ∑ k : Fin 1024, Ideal.exp (((Sj k : ℝ) : EReal) - (stepSt kt vt s).mx (ix2 r (0 : Fin 1))) := by
  have hmx : (stepSt kt vt s).mx (ix2 r (0 : Fin 1)) = k0_pay12 (F := Ideal) kt s.q s.mx (ix2 r (0 : Fin 1)) :=
    congrFun (pay2_eq (k0_pay12 (F := Ideal) kt s.q s.mx)) (ix2 r (0 : Fin 1))
  rw [hmx]
  show k0_pay15 (F := Ideal) kt s.q s.mx s.l (ix2 r (0 : Fin 1)) = _
  rw [pay15_apply, pay13_apply]
  refine congrArg (_ + ·) (Finset.sum_congr rfl fun k _ => ?_)
  rw [pay14_apply, pay11_apply, hS]

/-- One key tile absorbed, at (r, e): the new accumulator, in terms of the new maximum. The tile's values of
    column e are the reals `Vj`. -/
theorem step_acc (kt vt : Vec Ideal S1024x256 .bf16) (s : OSt Ideal) (r : Fin 1024) (e : Fin 256) (Sj Vj : Fin 1024 → ℝ)
    (hS : ∀ k : Fin 1024, (∑ a : Fin 256, s.q (ix2 r a) * kt (ix2 k a)) = ((Sj k : ℝ) : EReal))
    (hV : ∀ k : Fin 1024, vt (ix2 k e) = ((Vj k : ℝ) : EReal)) :
    (stepSt kt vt s).acc (ix2 r e)
      = Ideal.exp (s.mx (ix2 r (0 : Fin 1)) - (stepSt kt vt s).mx (ix2 r (0 : Fin 1))) * s.acc (ix2 r e)
        + ∑ k : Fin 1024, Ideal.exp (((Sj k : ℝ) : EReal) - (stepSt kt vt s).mx (ix2 r (0 : Fin 1))) * ((Vj k : ℝ) : EReal) := by
  have hmx : (stepSt kt vt s).mx (ix2 r (0 : Fin 1)) = k0_pay12 (F := Ideal) kt s.q s.mx (ix2 r (0 : Fin 1)) :=
    congrFun (pay2_eq (k0_pay12 (F := Ideal) kt s.q s.mx)) (ix2 r (0 : Fin 1))
  rw [hmx]
  show k0_pay1 (F := Ideal) vt (k0_pay13 (F := Ideal) kt s.q s.mx) (k0_pay14 (F := Ideal) kt s.q s.mx) s.acc (ix2 r e) = _
  rw [pay1_apply, pay13_apply]
  refine congrArg (_ + ·) (Finset.sum_congr rfl fun k _ => ?_)
  rw [pay14_apply, pay11_apply, hS, hV]

/-- The inclusion of the reals in the extended reals commutes with finite sums. -/
theorem coe_sum {ι : Type} (s : Finset ι) (f : ι → ℝ) :
    ((∑ i ∈ s, f i : ℝ) : EReal) = ∑ i ∈ s, ((f i : ℝ) : EReal) := by
  classical
  refine Finset.induction_on s (by simp) fun a s ha ih => ?_
  rw [Finset.sum_insert ha, Finset.sum_insert ha, EReal.coe_add, ih]

/-- The kernel scales the query before the product with the key; on reals the factor moves out of the sum. -/
theorem kernel_score_coe (pq pk : Fin 256 → ℝ) :
    ∑ a : Fin 256, (((pq a : ℝ) : EReal) * (((1 : ℝ) / 16 : ℝ) : EReal)) * ((pk a : ℝ) : EReal)
      = (((∑ a : Fin 256, pq a * pk a) * ((1 : ℝ) / 16) : ℝ) : EReal) := by
  rw [Finset.sum_mul, coe_sum]
  refine Finset.sum_congr rfl fun a _ => ?_
  rw [← EReal.coe_mul, ← EReal.coe_mul]
  refine congrArg (fun t : ℝ => (t : EReal)) ?_
  ring

/-- The reference scales the product; on reals it is the same number. -/
theorem ref_score_coe (pq pk : Fin 256 → ℝ) :
    (∑ a : Fin 256, ((pq a : ℝ) : EReal) * ((pk a : ℝ) : EReal)) * (((1 : ℝ) / 16 : ℝ) : EReal)
      = (((∑ a : Fin 256, pq a * pk a) * ((1 : ℝ) / 16) : ℝ) : EReal) := by
  rw [EReal.coe_mul, coe_sum]
  exact congrArg (· * _) (Finset.sum_congr rfl fun a _ => (EReal.coe_mul _ _).symm)

/-- Row `r` of tile `t` among the 4096 rows of a batch element. -/
def rowIx (t : Fin 4) (r : Fin 1024) : Fin 4096 :=
  ⟨1024 * t.val + r.val, by have := t.isLt; have := r.isLt; omega⟩

/-- The tile that step `j` of a row's recursion visits. -/
def tileOf (j : ℕ) : Fin 4 := ⟨j % 4, Nat.mod_lt _ (by decide)⟩

/-- A real array as an array of extended reals. -/
abbrev cE {S : Shape} (f : S.Idx → ℝ) : S.Idx → EReal := fun y => ((f y : ℝ) : EReal)

/-- A projection on the reals. -/
def projR (x : S4x4096x256.Idx → ℝ) (w : S256x256.Idx → ℝ) (b : Fin 4) (s : Fin 4096) (a : Fin 256) : ℝ :=
  ∑ d : Fin 256, x (ix3 b s d) * w (ix2 a d)

theorem proj_coe (x : S4x4096x256.Idx → ℝ) (w : S256x256.Idx → ℝ) (b : Fin 4) (s : Fin 4096) (a : Fin 256) :
    proj (cE x) (cE w) b s a = ((projR x w b s a : ℝ) : EReal) := by
  unfold proj projR
  rw [coe_sum]
  exact Finset.sum_congr rfl fun d _ => (EReal.coe_mul _ _).symm

/-- The scaled score on the reals. -/
def scoreR (x : S4x4096x256.Idx → ℝ) (wq wk : S256x256.Idx → ℝ) (b : Fin 4) (i jj : Fin 4096) : ℝ :=
  (∑ a : Fin 256, projR x wq b i a * projR x wk b jj a) * ((1 : ℝ) / 16)

theorem score_coe (x : S4x4096x256.Idx → ℝ) (wq wk : S256x256.Idx → ℝ) (b : Fin 4) (i jj : Fin 4096) :
    score (cE x) (cE wq) (cE wk) b i jj = ((scoreR x wq wk b i jj : ℝ) : EReal) := by
  unfold score scoreR
  simp only [proj_coe]
  exact ref_score_coe _ _

/-- The scaled query projection of a tile of rows, at (r, a). -/
theorem q_entry (X : S4x4096x256.Idx → EReal) (Wq : S256x256.Idx → EReal) (b t : Fin 4) (r : Fin 1024) (a : Fin 256) :
    k0_pay7 (F := Ideal) (blkOf X b t) Wq (ix2 r a) = proj X Wq b (rowIx t r) a * (((1 : ℝ) / 16 : ℝ) : EReal) :=
  pay7_apply (blkOf X b t) Wq r a

/-- The key projection of a tile of rows, at (k, a). -/
theorem k_entry (X : S4x4096x256.Idx → EReal) (Wk : S256x256.Idx → EReal) (b t : Fin 4) (k : Fin 1024) (a : Fin 256) :
    kTile (F := Ideal) (blkOf X b t) Wk (ix2 k a) = proj X Wk b (rowIx t k) a :=
  pay5_apply (blkOf X b t) Wk k a

/-- The value projection of a tile of rows, at (k, e). -/
theorem v_entry (X : S4x4096x256.Idx → EReal) (Wv : S256x256.Idx → EReal) (b t : Fin 4) (k : Fin 1024) (e : Fin 256) :
    vTile (F := Ideal) (blkOf X b t) Wv (ix2 k e) = proj X Wv b (rowIx t k) e :=
  pay6_apply (blkOf X b t) Wv k e

section Row

variable (x : S4x4096x256.Idx → ℝ) (wq wk wv : S256x256.Idx → ℝ) (b qi : Fin 4) (r : Fin 1024) (e : Fin 256)

/-- The scores of query row r of tile qi against the keys, tile by tile, as reals. -/
def SR : ℕ → Fin 1024 → ℝ := fun j k => scoreR x wq wk b (rowIx qi r) (rowIx (tileOf j) k)

/-- Column e of the value projection, tile by tile, as reals. -/
def VR : ℕ → Fin 1024 → ℝ := fun j k => projR x wv b (rowIx (tileOf j) k) e

/-- The state agrees, at row r and column e, with the scalar recursion before tile `j`. -/
def Agrees (s : OSt Ideal) (j : ℕ) : Prop :=
  s.q = k0_pay7 (F := Ideal) (blkOf (cE x) b qi) (cE wq)
  ∧ s.mx (ix2 r (0 : Fin 1)) = (online (SR x wq wk b qi r) (VR x wv b e) j).1
  ∧ s.l (ix2 r (0 : Fin 1)) = (online (SR x wq wk b qi r) (VR x wv b e) j).2.1
  ∧ s.acc (ix2 r e) = (online (SR x wq wk b qi r) (VR x wv b e) j).2.2

theorem fresh_agrees : Agrees x wq wk wv b qi r e (freshSt (blkOf (cE x) b qi) (cE wq)) 0 :=
  ⟨rfl, pay8_apply (ix2 r (0 : Fin 1)), pay9_apply (ix2 r (0 : Fin 1)), pay10_apply (ix2 r e)⟩

theorem step_agrees (s : OSt Ideal) (j : ℕ) (h : Agrees x wq wk wv b qi r e s j) :
    Agrees x wq wk wv b qi r e
      (stepSt (kTile (blkOf (cE x) b (tileOf j)) (cE wk)) (vTile (blkOf (cE x) b (tileOf j)) (cE wv)) s) (j + 1) := by
  obtain ⟨hq, hm, hl, ha⟩ := h
  have hS : ∀ k : Fin 1024,
      (∑ a : Fin 256, s.q (ix2 r a) * kTile (F := Ideal) (blkOf (cE x) b (tileOf j)) (cE wk) (ix2 k a))
        = ((SR x wq wk b qi r j k : ℝ) : EReal) := by
    intro k
    rw [hq]
    simp only [q_entry, k_entry, proj_coe]
    exact kernel_score_coe _ _
  have hV : ∀ k : Fin 1024,
      vTile (F := Ideal) (blkOf (cE x) b (tileOf j)) (cE wv) (ix2 k e) = ((VR x wv b e j k : ℝ) : EReal) :=
    fun k => (v_entry (cE x) (cE wv) b (tileOf j) k e).trans (proj_coe x wv b _ e)
  have h1 := step_mx _ (vTile (F := Ideal) (blkOf (cE x) b (tileOf j)) (cE wv)) s r _ hS
  have h2 := step_l _ (vTile (F := Ideal) (blkOf (cE x) b (tileOf j)) (cE wv)) s r _ hS
  have h3 := step_acc _ _ s r e _ _ hS hV
  refine ⟨hq, ?_, ?_, ?_⟩
  · rw [h1, hm]; rfl
  · rw [h2, h1, hm, hl]; rfl
  · rw [h3, h1, hm, ha]; rfl

/-- After key tiles 0 … j the kernel's state of the row agrees with the scalar recursion before tile j + 1. -/
theorem row_agrees (j : ℕ) :
    Agrees x wq wk wv b qi r e
      (rowSt (blkOf (cE x) b qi) (cE wq) (fun j => kTile (blkOf (cE x) b (tileOf j)) (cE wk))
        (fun j => vTile (blkOf (cE x) b (tileOf j)) (cE wv)) j) (j + 1) := by
  induction j with
  | zero => exact step_agrees x wq wk wv b qi r e _ 0 (fresh_agrees x wq wk wv b qi r e)
  | succ j ih => exact step_agrees x wq wk wv b qi r e _ (j + 1) ih

end Row

/-! ## Part 3: the tiles' sums and maxima regrouped over all 4096 keys -/

/-- Every one of the 4096 rows is a row of one of the four tiles. -/
theorem rowIx_surj (jj : Fin 4096) : ∃ (t : Fin 4) (k : Fin 1024), rowIx t k = jj :=
  ⟨⟨jj.val / 1024, by have := jj.isLt; omega⟩, ⟨jj.val % 1024, Nat.mod_lt _ (by decide)⟩,
    Fin.ext (by show 1024 * (jj.val / 1024) + jj.val % 1024 = jj.val; omega)⟩

theorem tileOf_val (i : Fin 4) : tileOf i.val = i := Fin.ext (Nat.mod_eq_of_lt i.isLt)

/-- A sum over the four tiles of the sums over each tile's 1024 rows is the sum over all 4096 rows. -/
theorem sum_tiles {M : Type} [AddCommMonoid M] (g : Fin 4096 → M) :
    ∑ j ∈ Finset.range 4, ∑ k : Fin 1024, g (rowIx (tileOf j) k) = ∑ jj : Fin 4096, g jj := by
  rw [Finset.sum_range]
  have h : ∑ jj : Fin 4096, g jj = ∑ i : Fin 4, ∑ k : Fin 1024, g (finProdFinEquiv (i, k)) :=
    Cert.BlockSum.sum_blocks 4 1024 g
  refine Eq.trans ?_ h.symm
  refine Finset.sum_congr rfl fun i _ => Finset.sum_congr rfl fun k _ => congrArg g (Fin.ext ?_)
  show 1024 * (i.val % 4) + k.val = k.val + 1024 * i.val
  rw [Nat.mod_eq_of_lt i.isLt, Nat.add_comm]

/-- The largest of the four tiles' largest entries is the largest of all 4096 entries. -/
theorem max_tiles (g : Fin 4096 → EReal) :
    (Finset.range 4).fold max ⊥ (fun j => (Finset.univ : Finset (Fin 1024)).fold max ⊥ fun k => g (rowIx (tileOf j) k))
      = (Finset.univ : Finset (Fin 4096)).fold max ⊥ g := by
  apply le_antisymm
  · exact (Finset.fold_max_le _).mpr ⟨bot_le, fun j _ => (Finset.fold_max_le _).mpr ⟨bot_le, fun k _ =>
      (Finset.le_fold_max _).mpr (Or.inr ⟨rowIx (tileOf j) k, Finset.mem_univ _, le_rfl⟩)⟩⟩
  · refine (Finset.fold_max_le _).mpr ⟨bot_le, fun jj _ => ?_⟩
    obtain ⟨t, k, rfl⟩ := rowIx_surj jj
    exact (Finset.le_fold_max _).mpr (Or.inr ⟨t.val, Finset.mem_range.mpr t.isLt,
      (Finset.le_fold_max _).mpr (Or.inr ⟨k, Finset.mem_univ _, by rw [tileOf_val]⟩)⟩)

/-- The output block of a tile of query rows, on real arrays, entry by entry: softmax attention. -/
theorem out_eq_real (x : S4x4096x256.Idx → ℝ) (wq wk wv : S256x256.Idx → ℝ) (b qi : Fin 4)
    (u : Fin 1) (r : Fin 1024) (e : Fin 256) :
    outOf (F := Ideal) (rowSt (blkOf (cE x) b qi) (cE wq) (fun j => kTile (blkOf (cE x) b (tileOf j)) (cE wk))
        (fun j => vTile (blkOf (cE x) b (tileOf j)) (cE wv)) 3) (ix3 u r e)
      = attn (cE x) (cE wq) (cE wk) (cE wv) b (rowIx qi r) e := by
  obtain ⟨-, -, hl, ha⟩ := row_agrees x wq wk wv b qi r e 3
  have hS : ∀ (j : ℕ) (k : Fin 1024), (((SR x wq wk b qi r) j k : ℝ) : EReal)
      = score (cE x) (cE wq) (cE wk) b (rowIx qi r) (rowIx (tileOf j) k) := fun j k => (score_coe x wq wk b _ _).symm
  have hV : ∀ (j : ℕ) (k : Fin 1024), (((VR x wv b e) j k : ℝ) : EReal)
      = proj (cE x) (cE wv) b (rowIx (tileOf j) k) e := fun j k => (proj_coe x wv b _ e).symm
  have hM : allMax (SR x wq wk b qi r) 4 = rowMax (cE x) (cE wq) (cE wk) b (rowIx qi r) := by
    refine Eq.trans ?_ (max_tiles fun jj => score (cE x) (cE wq) (cE wk) b (rowIx qi r) jj)
    show (Finset.range 4).fold max ⊥ (fun j => (Finset.univ : Finset (Fin 1024)).fold max ⊥
      fun k => (((SR x wq wk b qi r) j k : ℝ) : EReal)) = _
    exact Finset.fold_congr fun j _ => Finset.fold_congr fun k _ => hS j k
  have hL : allSum (SR x wq wk b qi r) 4 = den (cE x) (cE wq) (cE wk) b (rowIx qi r) := by
    refine Eq.trans ?_ (sum_tiles fun jj => ex (cE x) (cE wq) (cE wk) b (rowIx qi r) jj)
    show ∑ j ∈ Finset.range 4, ∑ k : Fin 1024, Ideal.exp ((((SR x wq wk b qi r) j k : ℝ) : EReal) - allMax (SR x wq wk b qi r) 4) = _
    refine Finset.sum_congr rfl fun j _ => Finset.sum_congr rfl fun k _ => ?_
    rw [hM, hS j k]; rfl
  show k0_pay3 (F := Ideal) _ _ (ix3 u r e) = _
  rw [pay3_apply, ha, hl, online_softmax (SR x wq wk b qi r) (VR x wv b e) 4 (by decide)]
  refine Eq.trans ?_ (sum_tiles fun jj =>
    Ideal.div (ex (cE x) (cE wq) (cE wk) b (rowIx qi r) jj) (den (cE x) (cE wq) (cE wk) b (rowIx qi r)) * proj (cE x) (cE wv) b jj e)
  refine Finset.sum_congr rfl fun j _ => Finset.sum_congr rfl fun k _ => ?_
  rw [hM, hL, hS j k, hV j k]; rfl

/-- The kernel's output block, entry by entry at the ideal values, is the reference's function: for finite inputs,
    the state after the four key tiles of a row, accumulator over sum, is softmax attention. -/
theorem out_eq (X : S4x4096x256.Idx → EReal) (Wq Wk Wv : S256x256.Idx → EReal)
    (hX : ∀ y, ∃ r : ℝ, X y = (r : EReal)) (hWq : ∀ y, ∃ r : ℝ, Wq y = (r : EReal))
    (hWk : ∀ y, ∃ r : ℝ, Wk y = (r : EReal)) (hWv : ∀ y, ∃ r : ℝ, Wv y = (r : EReal))
    (b qi : Fin 4) (y : S1x1024x256.Idx) :
    outOf (F := Ideal) (rowSt (blkOf X b qi) Wq (fun j => kTile (blkOf X b ⟨j % 4, Nat.mod_lt _ (by decide)⟩) Wk)
        (fun j => vTile (blkOf X b ⟨j % 4, Nat.mod_lt _ (by decide)⟩) Wv) 3) y
      = G X Wq Wk Wv (ValueIdx.ix3 b ⟨1024 * qi.val + (y 1).val, by
          have h1 : (y 1).val < 1024 := (y 1).isLt
          have h2 := qi.isLt
          omega⟩ (y 2)) := by
  choose x hx using hX
  choose wq hwq using hWq
  choose wk hwk using hWk
  choose wv hwv using hWv
  obtain rfl : X = cE x := funext hx
  obtain rfl : Wq = cE wq := funext hwq
  obtain rfl : Wk = cE wk := funext hwk
  obtain rfl : Wv = cE wv := funext hwv
  obtain ⟨u, r, e, rfl⟩ : ∃ (u : Fin 1) (r : Fin 1024) (e : Fin 256), y = ix3 u r e := ⟨y 0, y 1, y 2, eq_ix3 y⟩
  exact out_eq_real x wq wk wv b qi u r e

end Cert.KernelIdeal.ValueMath

end
-- ==== Proof.KI.Bridge.lean ====
/-
  The pipeline's output blocks are blocks of the reference's function.

  At the point of position n = 16 b + 4 q + 3 (batch b, query tile q, last key tile) the online-softmax state the
  scratch buffers hold is the specification's recursion on the query tile q of batch b of x and, for j = 0 … 3, on
  the key and value projections of key tile j of batch b: the row started at position 16 b + 4 q, whose query window
  holds that query tile, and key tile j of the batch was projected at position 16 b + j, whose key window holds that
  key tile. The recursion reads only the tiles up to its last step, so the pipeline's family of tiles may be
  exchanged for the four blocks of x. For finite inputs the accumulator over the sum is then softmax attention,
  entry by entry, which is what the output window's block of the reference's function reads.
-/
import proofs.«127055_j20289425507095_2_alg».proof.Proof.Gen.KernelIdeal.Launch
import proofs.«127055_j20289425507095_2_alg».proof.Proof.Gen.KernelIdeal.Skeleton
import proofs.«127055_j20289425507095_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«127055_j20289425507095_2_alg».proof.Proof.KI.Final
import proofs.«127055_j20289425507095_2_alg».proof.Proof.KI.ValueMath
import proofs.«127055_j20289425507095_2_alg».proof.Proof.Finite

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

local notation "𝕄" => MT nD τ sig Unit (Elt Ideal) ℕ (UR sig nD τ) ℕ

open Cert.KernelIdeal.Spec Cert.LibWholeStore

/-- The recursion over a row's key tiles reads only the tiles up to its last step. -/
theorem rowSt_congr {F : FTy → Type} [FloatOps F] (xq : Vec F S1x1024x256 .f32) (wq : Vec F S256x256 .f32)
    (kt kt' vt vt' : ℕ → Vec F S1024x256 .bf16) (n : ℕ)
    (hk : ∀ j, j ≤ n → kt j = kt' j) (hv : ∀ j, j ≤ n → vt j = vt' j) :
    rowSt xq wq kt vt n = rowSt xq wq kt' vt' n := by
  induction n with
  | zero => rw [rowSt_zero, rowSt_zero, hk 0 le_rfl, hv 0 le_rfl]
  | succ n ih =>
    rw [rowSt_succ, rowSt_succ, hk (n + 1) le_rfl, hv (n + 1) le_rfl,
      ih (fun j hj => hk j (by omega)) (fun j hj => hv j (by omega))]

variable (m : (ℓ : Loc nD τ sig) → Buf (Elt Ideal) ℓ)

/-- The reference's function of the four argument arrays as the region finds them. -/
def Gout (c : Dev nD) : Buf (Elt Ideal) ((c : Thread nD τ).loc main_v0) :=
  Spec.G (m ((c : Thread nD τ).loc main_arg0)) (m ((c : Thread nD τ).loc main_arg1)) (m ((c : Thread nD τ).loc main_arg2)) (m ((c : Thread nD τ).loc main_arg3))

/-- The row of the point of position n = 16 b + 4 q + 3 started at a point of the same batch and query tile. -/
theorem row_point (t : Fin cfg0.N) (h3 : t.val % 4 = 3) :
    bOf (pt (rowPt t.val)) = bOf t ∧ qOf (pt (rowPt t.val)) = qOf t := by
  have hlt := val_lt t
  have hv : (pt (rowPt t.val)).val = t.val - 3 := by
    show (t.val - t.val % 4) % 64 = t.val - 3
    omega
  constructor
  · apply Fin.ext
    show (pt (rowPt t.val)).val / 16 = t.val / 16
    rw [hv]; omega
  · apply Fin.ext
    show ((pt (rowPt t.val)).val / 4) % 4 = (t.val / 4) % 4
    rw [hv]; omega

/-- Key tile j of the batch of position n was projected at a point of that batch whose key window holds tile j. -/
theorem kv_point (t : Fin cfg0.N) (j : ℕ) (hj : j ≤ 3) :
    bOf (pt (kvPt t.val j)) = bOf t ∧ kOf (pt (kvPt t.val j)) = ⟨j % 4, Nat.mod_lt _ (by decide)⟩ := by
  have hlt := val_lt t
  have hv : (pt (kvPt t.val j)).val = 16 * (t.val / 16) + j := by
    show (16 * (t.val / 16) + j) % 64 = 16 * (t.val / 16) + j
    omega
  constructor
  · apply Fin.ext
    show (pt (kvPt t.val j)).val / 16 = t.val / 16
    rw [hv]; omega
  · apply Fin.ext
    show (if ((pt (kvPt t.val j)).val / 4) % 4 = 0 then (pt (kvPt t.val j)).val % 4 else 0) = j % 4
    rw [hv, if_pos (by omega)]; omega

/-- For finite inputs, the block a row's last point stores is the output window's block of the reference's function. -/
theorem out_block (c : Dev nD)
    (hX : ∀ y, ∃ r : ℝ, (m ((c : Thread nD τ).loc main_arg0)) y = (r : EReal))
    (hWq : ∀ y, ∃ r : ℝ, (m ((c : Thread nD τ).loc main_arg1)) y = (r : EReal))
    (hWk : ∀ y, ∃ r : ℝ, (m ((c : Thread nD τ).loc main_arg2)) y = (r : EReal))
    (hWv : ∀ y, ∃ r : ℝ, (m ((c : Thread nD τ).loc main_arg3)) y = (r : EReal))
    (t : Fin cfg0.N) (h3 : t.val % 4 = 3) :
    ((cfg0.win 5).blk t).view.read (Elt Ideal) (Gout m c) = OUT (F := Ideal) m c t.val := by
  refine (blk5_read c (Gout m c) t).trans ?_
  obtain ⟨hb, hq⟩ := row_point t h3
  have hXQ : XQ (F := Ideal) m c (rowPt t.val) = blkOf (m ((c : Thread nD τ).loc main_arg0)) (bOf t) (qOf t) := by
    unfold XQ
    rw [iblk0_eq m c (pt (rowPt t.val)), hb, hq]
    rfl
  have hWQ : WQ (F := Ideal) m c (rowPt t.val) = (m ((c : Thread nD τ).loc main_arg1)) := iblk2_eq m c _
  have hKT : ∀ j, j ≤ 3 → KT (F := Ideal) m c (kvPt t.val j)
      = kTile (blkOf (m ((c : Thread nD τ).loc main_arg0)) (bOf t) ⟨j % 4, Nat.mod_lt _ (by decide)⟩) (m ((c : Thread nD τ).loc main_arg2)) := by
    intro j hj
    obtain ⟨hb', hk'⟩ := kv_point t j hj
    unfold KT XK WK
    rw [iblk1_eq m c (pt (kvPt t.val j)), iblk3_eq m c (pt (kvPt t.val j)), hb', hk']
    rfl
  have hVT : ∀ j, j ≤ 3 → VT (F := Ideal) m c (kvPt t.val j)
      = vTile (blkOf (m ((c : Thread nD τ).loc main_arg0)) (bOf t) ⟨j % 4, Nat.mod_lt _ (by decide)⟩) (m ((c : Thread nD τ).loc main_arg3)) := by
    intro j hj
    obtain ⟨hb', hk'⟩ := kv_point t j hj
    unfold VT XK WV
    rw [iblk1_eq m c (pt (kvPt t.val j)), iblk4_eq m c (pt (kvPt t.val j)), hb', hk']
    rfl
  unfold OUT ST
  rw [h3, hXQ, hWQ, rowSt_congr _ _ _ _ _ _ 3 hKT hVT]
  funext y
  exact (ValueMath.out_eq (m ((c : Thread nD τ).loc main_arg0)) (m ((c : Thread nD τ).loc main_arg1)) (m ((c : Thread nD τ).loc main_arg2)) (m ((c : Thread nD τ).loc main_arg3))
    hX hWq hWk hWv (bOf t) (qOf t) y).symm

/-- For finite inputs the result array ends holding the reference's function of the argument arrays. -/
theorem final_eq_G (c : Dev nD)
    (hX : ∀ y, ∃ r : ℝ, (m ((c : Thread nD τ).loc main_arg0)) y = (r : EReal))
    (hWq : ∀ y, ∃ r : ℝ, (m ((c : Thread nD τ).loc main_arg1)) y = (r : EReal))
    (hWk : ∀ y, ∃ r : ℝ, (m ((c : Thread nD τ).loc main_arg2)) y = (r : EReal))
    (hWv : ∀ y, ∃ r : ℝ, (m ((c : Thread nD τ).loc main_arg3)) y = (r : EReal)) :
    (dats (F := Ideal) m 0 c).arrAt 5 cfg0.N = Gout m c :=
  final5 m c (Gout m c) (out_block m c hX hWq hWk hWv)

end Cert.KernelIdeal.Body

end
-- ==== Proof.Assemble.lean ====
/-
  The claims about the idealized kernel, assembled.

  The idealized kernel is one pipelined region. Its run terminates with the result array at what the output
  window's write-backs leave in it and the four argument arrays unchanged, provided the body meets its obligation
  at every grid point, which it does. Forgetting the result gives the frame claim. For finite inputs the result
  array holds softmax attention of the argument arrays, index by index; the reference's result is the same
  function of its own argument arrays, which agree with the kernel's; so both runs end with one and the same
  result, which is the algebraic claim.
-/
import proofs.«127055_j20289425507095_2_alg».proof.Defs
import proofs.«127055_j20289425507095_2_alg».proof.Proof.RefFrame
import proofs.«127055_j20289425507095_2_alg».proof.Proof.RefIsG
import proofs.«127055_j20289425507095_2_alg».proof.Proof.Finite
import proofs.«127055_j20289425507095_2_alg».proof.Proof.KI.Body
import proofs.«127055_j20289425507095_2_alg».proof.Proof.KI.Launch
import proofs.«127055_j20289425507095_2_alg».proof.Proof.KI.Bridge

noncomputable section

namespace Cert.Proof.Assemble

open Idealize.ShloMosaic Idealize.ShloMosaic.TcCoe Idealize.SL.Sem

/-- Every weakly fair execution of the idealized kernel terminates without a fault and leaves the arguments
    unchanged: its run with the statement about the result forgotten. -/
theorem frame_ki : Cert.frame_KernelIdeal (hKernelIdeal := Cert.KernelIdeal.Gen.facts)
    (hPre_finite_inputs := Cert.Pre_finite_inputs.Gen.facts) := fun m ρ _ =>
  (θ_run Cert.KernelIdeal.defs _ _).mono (fun _ h c => (h c).2)
    (Cert.KernelIdeal.Body.run_main_of (F := Ideal) m ρ fun c => (Cert.KernelIdeal.Body.body_obligation m c).loose)

/-- At the ideal instance, from finite inputs on which the two memories agree, the idealized kernel and the
    reference both run, end with the same result array — softmax attention of the argument arrays — and leave
    their arguments unchanged. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Body.Gout m c, ?_, ?_⟩
  · -- the kernel: the result array is what the write-backs leave, which for finite inputs is the specification
    refine (θ_run Cert.KernelIdeal.defs _ _).mono (fun _ h c => ⟨(h c).1.trans ?_, (h c).2⟩)
      (Cert.KernelIdeal.Body.run_main_of (F := Ideal) m ρ fun c => (Cert.KernelIdeal.Body.body_obligation m c).loose)
    obtain ⟨hX, hWq, hWk, hWv⟩ := Cert.Proof.Finite.finite_of_pre m hpre c
    exact Cert.KernelIdeal.Body.final_eq_G m c hX hWq hWk hWv
  · -- the reference: its last stage is the specification of its own arguments, which are the kernel's
    refine (θ_run Cert.ReferenceIdeal.defs _ _).mono (fun _ h c => ⟨?_, (h c).2⟩)
      (Cert.ReferenceIdeal.Value.run (F := Ideal) m' ρ')
    show _ = Cert.KernelIdeal.Body.Gout m c
    unfold Cert.KernelIdeal.Body.Gout
    rw [(h c).1, Cert.ReferenceIdeal.Read.val_main_v19_eq, Cert.Proof.RefIsG.ref_eq_G,
      (hagree c).1, (hagree c).2.1, (hagree c).2.2.1, (hagree c).2.2.2]

end Cert.Proof.Assemble

end
-- ==== Proof.K.Conds.lean ====
/-
  The attention kernel's grid is (batch, query tile, key tile) = (4, 4, 4), visited in row-major order, so the
  point at position t has key tile t mod 4 and query tile (t / 4) mod 4. The body branches on three conditions of
  the point: the query tile is the batch's first (the key and value projections of the current key tile are
  computed and stored into their caches), the key tile is the row's first (the scaled query projection is stored
  and the running maximum, the running sum and the accumulator are reset), and the key tile is the row's last (the
  accumulator divided by the running sum is stored into the output block). Each is decided over the 64 points.
-/
import proofs.«127055_j20289425507095_2_alg».proof.Proof.Gen.Kernel.Launch
import proofs.«127055_j20289425507095_2_alg».proof.Proof.Gen.Kernel.Skeleton
import proofs.«127055_j20289425507095_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The query tile is the batch's first. -/
abbrev condQi0 (i : grid0.Coords) : Prop := k0_cond1 i = 1#1
/-- The key tile is the row's first. -/
abbrev condKi0 (i : grid0.Coords) : Prop := (Scalar.cmpi .ne (Scalar.extui (Scalar.cmpi .eq (BitVec.ofNat 32 (i 2).val) 0#32)) 0#32) = 1#1
/-- The key tile is the row's last. -/
abbrev condKi3 (i : grid0.Coords) : Prop := k0_cond3 i = 1#1

theorem hcondQi0 : ∀ t : Fin cfg0.N, condQi0 (grid0.coords t) ↔ (t.val / 4) % 4 = 0 :=
  (by decide +kernel : ∀ t : Fin grid0.N, condQi0 (grid0.coords t) ↔ (t.val / 4) % 4 = 0)
theorem hcondKi0 : ∀ t : Fin cfg0.N, condKi0 (grid0.coords t) ↔ t.val % 4 = 0 :=
  (by decide +kernel : ∀ t : Fin grid0.N, condKi0 (grid0.coords t) ↔ t.val % 4 = 0)
theorem hcondKi3 : ∀ t : Fin cfg0.N, condKi3 (grid0.coords t) ↔ t.val % 4 = 3 :=
  (by decide +kernel : ∀ t : Fin grid0.N, condKi3 (grid0.coords t) ↔ t.val % 4 = 3)

end Cert.Kernel.Body

end
-- ==== Proof.K.Spec.lean ====
/-
  What the attention kernel computes, stated without the pipeline.

  For one batch element and one tile of 1024 query rows the kernel keeps four arrays between the key tiles it
  visits: the scaled query projection `q` (the tile's rows of `x` times the transposed query weights, times 1/16),
  the running row maximum `mx`, the running row sum `l` and the running accumulator `acc`. At the row's first
  key tile they are reset (`mx` to minus infinity, `l` and `acc` to zero); at every key tile, with `kt` and `vt`
  that tile's key and value projections, `s = q ktᵀ`, the new maximum is `max mx (rowmax s)`, and with
  `a = exp (mx - mx')` and `p = exp (s - mx')` the sum becomes `a * l + rowsum p` and the accumulator
  `a * acc + p vt`; after the last key tile the output block is `acc / l`. These are the body's own pure terms,
  so the recursion below is a statement about the printed program at any float instance.
-/
import proofs.«127055_j20289425507095_2_alg».proof.Proof.Gen.Kernel.Skeleton
import Idealize.ShloMosaic.Lib.ValueIdx
import Idealize.ShloMosaic.PureOps.Ideal

noncomputable section

namespace Cert.Kernel.Spec

open Cert.Kernel Cert.Kernel.Gen
open Idealize.ShloMosaic Idealize.ShloMosaic.ValueIdx

variable {F : FTy → Type} [FloatOps F]

/-- What the kernel carries from one key tile to the next, for one tile of query rows. -/
structure OSt (F : FTy → Type) [FloatOps F] where
  q : Vec F S1024x256 .f32
  mx : Vec F S1024x1 .f32
  l : Vec F S1024x1 .f32
  acc : Vec F S1024x256 .f32

/-- One key tile's key projection: the tile's rows of `x` times the transposed key weights. -/
def kTile (xk : Vec F S1x1024x256 .f32) (wk : Vec F S256x256 .f32) : Vec F S1024x256 .bf16 := k0_pay5 xk wk
/-- One key tile's value projection. -/
def vTile (xk : Vec F S1x1024x256 .f32) (wv : Vec F S256x256 .f32) : Vec F S1024x256 .bf16 := k0_pay6 xk wv

/-- The state at the start of a row of key tiles: the scaled query projection, maximum minus infinity, sum and
    accumulator zero. -/
def freshSt (xq : Vec F S1x1024x256 .f32) (wq : Vec F S256x256 .f32) : OSt F :=
  ⟨k0_pay7 xq wq, k0_pay8, k0_pay9, k0_pay10⟩

/-- One key tile absorbed: the online softmax update. -/
def stepSt (kt vt : Vec F S1024x256 .bf16) (s : OSt F) : OSt F :=
  ⟨s.q, k0_pay2 (k0_pay12 kt s.q s.mx), k0_pay15 kt s.q s.mx s.l,
    k0_pay1 vt (k0_pay13 kt s.q s.mx) (k0_pay14 kt s.q s.mx) s.acc⟩

/-- The output block once the last key tile is absorbed: the accumulator over the sum. -/
def outOf (s : OSt F) : Vec F S1x1024x256 .f32 := k0_pay3 s.acc s.l

/-- The state after key tiles `0 … j` of a row, given each tile's key and value projections. -/
def rowSt (xq : Vec F S1x1024x256 .f32) (wq : Vec F S256x256 .f32) (kt vt : ℕ → Vec F S1024x256 .bf16) : ℕ → OSt F
  | 0 => stepSt (kt 0) (vt 0) (freshSt xq wq)
  | j + 1 => stepSt (kt (j + 1)) (vt (j + 1)) (rowSt xq wq kt vt j)

theorem rowSt_zero (xq : Vec F S1x1024x256 .f32) (wq : Vec F S256x256 .f32) (kt vt : ℕ → Vec F S1024x256 .bf16) :
    rowSt xq wq kt vt 0 = stepSt (kt 0) (vt 0) (freshSt xq wq) := rfl
theorem rowSt_succ (xq : Vec F S1x1024x256 .f32) (wq : Vec F S256x256 .f32) (kt vt : ℕ → Vec F S1024x256 .bf16) (j : ℕ) :
    rowSt xq wq kt vt (j + 1) = stepSt (kt (j + 1)) (vt (j + 1)) (rowSt xq wq kt vt j) := rfl

end Cert.Kernel.Spec

end
-- ==== Proof.K.Data.lean ====
/-
  The attention kernel over its grid: what each window hands the body at each point, which key and value
  projections each point stores into the two caches, and the per-row online-softmax state the scratch buffers hold
  after each point, as the specification's recursion read along the grid's order. The point at position n has batch
  n / 16, query tile (n / 4) mod 4 and key tile n mod 4; the key and value projections of key tile j of a batch are
  stored when the first query tile of that batch visits it, at position 16 (n / 16) + j, and a row of key tiles
  starts at position n - n mod 4.
-/
import proofs.«127055_j20289425507095_2_alg».proof.Proof.Gen.Kernel.Launch
import proofs.«127055_j20289425507095_2_alg».proof.Proof.Gen.Kernel.Skeleton
import proofs.«127055_j20289425507095_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«127055_j20289425507095_2_alg».proof.Proof.K.Conds
import proofs.«127055_j20289425507095_2_alg».proof.Proof.K.Spec
import proofs.«127055_j20289425507095_2_alg».proof.Proof.LibWholeStore

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Spec Cert.LibWholeStore

variable (m : (ℓ : Loc nD τ sig) → Buf (Elt F) ℓ)

/-- The TensorCore buffers' contents when the region is entered (no host operation precedes it). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem N_eq : cfg0.N = 64 := N_0

/-- The grid point at position `n` (positions are taken modulo the 64 points). -/
def pt (n : ℕ) : Fin cfg0.N := ⟨n % 64, by rw [N_eq]; exact Nat.mod_lt _ (by decide)⟩

theorem val_lt (t : Fin cfg0.N) : t.val < 64 := lt_of_lt_of_eq t.isLt N_eq

theorem pt_val (t : Fin cfg0.N) : pt t.val = t := Fin.ext (Nat.mod_eq_of_lt (val_lt t))

/-- The five input blocks at the point of position `n`: the query rows, the key rows, and the three weight matrices. -/
def XQ (c : Dev nD) (n : ℕ) : Vec F S1x1024x256 .f32 := iblk m c 0 (pt n)
def XK (c : Dev nD) (n : ℕ) : Vec F S1x1024x256 .f32 := iblk m c 1 (pt n)
def WQ (c : Dev nD) (n : ℕ) : Vec F S256x256 .f32 := iblk m c 2 (pt n)
def WK (c : Dev nD) (n : ℕ) : Vec F S256x256 .f32 := iblk m c 3 (pt n)
def WV (c : Dev nD) (n : ℕ) : Vec F S256x256 .f32 := iblk m c 4 (pt n)

/-- The key and value projections the point of position `n` computes from its key rows. -/
def KT (c : Dev nD) (n : ℕ) : Vec F S1024x256 .bf16 := kTile (XK m c n) (WK m c n)
def VT (c : Dev nD) (n : ℕ) : Vec F S1024x256 .bf16 := vTile (XK m c n) (WV m c n)

/-- Where key tile `j` of the batch of position `n` is projected: at the batch's first query tile. -/
def kvPt (n j : ℕ) : ℕ := 16 * (n / 16) + j
/-- Where the row of key tiles of position `n` starts. -/
def rowPt (n : ℕ) : ℕ := n - n % 4

/-- The online-softmax state after the point of position `n`: the row's key tiles `0 … n mod 4` absorbed. -/
def ST (c : Dev nD) (n : ℕ) : OSt F :=
  rowSt (XQ m c (rowPt n)) (WQ m c (rowPt n)) (fun j => KT m c (kvPt n j)) (fun j => VT m c (kvPt n j)) (n % 4)

/-- The output block the point of position `n` would store: accumulator over sum. -/
def OUT (c : Dev nD) (n : ℕ) : Vec F S1x1024x256 .f32 := outOf (ST m c n)

/-- At a row's first key tile the state is one update of the fresh state. -/
theorem ST_first (c : Dev nD) (n : ℕ) (h : n % 4 = 0) :
    ST m c n = stepSt (KT m c (kvPt n 0)) (VT m c (kvPt n 0)) (freshSt (XQ m c n) (WQ m c n)) := by
  unfold ST
  rw [h, show rowPt n = n from by unfold rowPt; omega]
  rfl

/-- At a later key tile it is one update of the state the point before left. -/
theorem ST_next (c : Dev nD) (n : ℕ) (h : n % 4 ≠ 0) :
    ST m c n = stepSt (KT m c (kvPt n (n % 4))) (VT m c (kvPt n (n % 4))) (ST m c (n - 1)) := by
  unfold ST
  obtain ⟨j, hj⟩ : ∃ j, n % 4 = j + 1 := ⟨n % 4 - 1, by omega⟩
  have h1 : (n - 1) % 4 = j := by omega
  have h2 : rowPt (n - 1) = rowPt n := by unfold rowPt; omega
  have h3 : (fun j' => KT m c (kvPt (n - 1) j')) = fun j' => KT m c (kvPt n j') :=
    funext fun j' => by rw [show kvPt (n - 1) j' = kvPt n j' from by unfold kvPt; omega]
  have h4 : (fun j' => VT m c (kvPt (n - 1) j')) = fun j' => VT m c (kvPt n j') :=
    funext fun j' => by rw [show kvPt (n - 1) j' = kvPt n j' from by unfold kvPt; omega]
  rw [hj, h1, h2, h3, h4]
  rfl

/-! ## The caches' tiles -/

theorem tile_inb (j : ℕ) (hj : j < 4) : ∀ a, (![1024 * j, 0] : Fin 2 → ℕ) a + S1024x256.size a ≤ S4096x256.size a := by
  intro a
  match a with
  | ⟨0, _⟩ => show 1024 * j + 1024 ≤ 4096; omega
  | ⟨1, _⟩ => show 0 + 256 ≤ 256; omega

/-- Rows `1024 j … 1024 j + 1023` of a cache. -/
def tile (x : Vec F S4096x256 .bf16) (j : ℕ) (hj : j < 4) : Vec F S1024x256 .bf16 :=
  View.ld x (Rect.unit ![1024 * j, 0] S1024x256.size (tile_inb j hj))

/-- The body's two offset chains into the caches are the key tile's first row, column zero. -/
theorem off2_eq : ∀ t : Fin cfg0.N, k0_off2 (grid0.coords t) = ![1024 * (t.val % 4), 0] :=
  (by decide +kernel : ∀ t : Fin grid0.N, k0_off2 (grid0.coords t) = ![1024 * (t.val % 4), 0])
theorem off1_eq : ∀ t : Fin cfg0.N, k0_off1 (grid0.coords t) = ![1024 * (t.val % 4), 0] :=
  (by decide +kernel : ∀ t : Fin grid0.N, k0_off1 (grid0.coords t) = ![1024 * (t.val % 4), 0])

end Cert.Kernel.Body

end
-- ==== Proof.K.RunA.lean ====
/-
  The kernel body run once, symbolically, at a point of one control case: first query tile, first key tile.
-/
import proofs.«127055_j20289425507095_2_alg».proof.Proof.Gen.Kernel.Launch
import proofs.«127055_j20289425507095_2_alg».proof.Proof.Gen.Kernel.Skeleton
import proofs.«127055_j20289425507095_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«127055_j20289425507095_2_alg».proof.Proof.K.Conds

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The whole body at a point of this case (first query tile, first key tile), on whole staging and scratch buffers owned at named contents:
    it runs to its end, every buffer it only reads is handed back as it was, and every buffer it stores into ends at
    its former contents with the stored pieces written over them, the pieces being those the run meets. -/
noncomputable def runA (c : Dev nD) (i : grid0.Coords) (arg3 : Memref sig .tc .vmem S1x1024x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x256 .f32) (harg14 : arg14.IsWhole)
    (hc1 : condQi0 i) (hc2 : condKi0 i) (hc3 : ¬condKi3 i)
    (x3 : Vec F S1x1024x256 .f32) (x4 : Vec F S1x1024x256 .f32) (x5 : Vec F S256x256 .f32) (x6 : Vec F S256x256 .f32) (x7 : Vec F S256x256 .f32) (x8 : Vec F S1x1024x256 .f32) (x9 : Vec F S1024x256 .f32) (x10 : Vec F S4096x256 .bf16) (x11 : Vec F S4096x256 .bf16) (x12 : Vec F S1024x1 .f32) (x13 : Vec F S1024x1 .f32) (x14 : Vec F S1024x256 .f32) :
    Σ' (L9 : List (View.Piece (Elt F) S1024x256 .f32)) (L10 : List (View.Piece (Elt F) S4096x256 .bf16)) (L11 : List (View.Piece (Elt F) S4096x256 .bf16)) (L12 : List (View.Piece (Elt F) S1024x1 .f32)) (L13 : List (View.Piece (Elt F) S1024x1 .f32)), { L14 : List (View.Piece (Elt F) S1024x256 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (arg9.view.read (Elt F) (arg9.view.writes (Elt F) (harg9.unread x9) L9)) ∗ owns (c : Thread nD τ) arg10 fullShare (arg10.view.read (Elt F) (arg10.view.writes (Elt F) (harg10.unread x10) L10)) ∗ owns (c : Thread nD τ) arg11 fullShare (arg11.view.read (Elt F) (arg11.view.writes (Elt F) (harg11.unread x11) L11)) ∗ owns (c : Thread nD τ) arg12 fullShare (arg12.view.read (Elt F) (arg12.view.writes (Elt F) (harg12.unread x12) L12)) ∗ owns (c : Thread nD τ) arg13 fullShare (arg13.view.read (Elt F) (arg13.view.writes (Elt F) (harg13.unread x13) L13)) ∗ owns (c : Thread nD τ) arg14 fullShare (arg14.view.read (Elt F) (arg14.view.writes (Elt F) (harg14.unread x14) L14))) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [cc0__attn_kernel_eq_skeleton]; unfold cc0__attn_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
    sl_exec (disch := first | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    iexists _; isplitr; swap; · iexact H14
    ipureintro; rfl

end Cert.Kernel.Body

end
-- ==== Proof.K.RunB.lean ====
/-
  The kernel body run once, symbolically, at a point of one control case: first query tile, a middle key tile.
-/
import proofs.«127055_j20289425507095_2_alg».proof.Proof.Gen.Kernel.Launch
import proofs.«127055_j20289425507095_2_alg».proof.Proof.Gen.Kernel.Skeleton
import proofs.«127055_j20289425507095_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«127055_j20289425507095_2_alg».proof.Proof.K.Conds

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The whole body at a point of this case (first query tile, a middle key tile), on whole staging and scratch buffers owned at named contents:
    it runs to its end, every buffer it only reads is handed back as it was, and every buffer it stores into ends at
    its former contents with the stored pieces written over them, the pieces being those the run meets. -/
noncomputable def runB (c : Dev nD) (i : grid0.Coords) (arg3 : Memref sig .tc .vmem S1x1024x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x256 .f32) (harg14 : arg14.IsWhole)
    (hc1 : condQi0 i) (hc2 : ¬condKi0 i) (hc3 : ¬condKi3 i)
    (x3 : Vec F S1x1024x256 .f32) (x4 : Vec F S1x1024x256 .f32) (x5 : Vec F S256x256 .f32) (x6 : Vec F S256x256 .f32) (x7 : Vec F S256x256 .f32) (x8 : Vec F S1x1024x256 .f32) (x9 : Vec F S1024x256 .f32) (x10 : Vec F S4096x256 .bf16) (x11 : Vec F S4096x256 .bf16) (x12 : Vec F S1024x1 .f32) (x13 : Vec F S1024x1 .f32) (x14 : Vec F S1024x256 .f32) :
    Σ' (L10 : List (View.Piece (Elt F) S4096x256 .bf16)) (L11 : List (View.Piece (Elt F) S4096x256 .bf16)) (L12 : List (View.Piece (Elt F) S1024x1 .f32)) (L13 : List (View.Piece (Elt F) S1024x1 .f32)), { L14 : List (View.Piece (Elt F) S1024x256 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (arg10.view.read (Elt F) (arg10.view.writes (Elt F) (harg10.unread x10) L10)) ∗ owns (c : Thread nD τ) arg11 fullShare (arg11.view.read (Elt F) (arg11.view.writes (Elt F) (harg11.unread x11) L11)) ∗ owns (c : Thread nD τ) arg12 fullShare (arg12.view.read (Elt F) (arg12.view.writes (Elt F) (harg12.unread x12) L12)) ∗ owns (c : Thread nD τ) arg13 fullShare (arg13.view.read (Elt F) (arg13.view.writes (Elt F) (harg13.unread x13) L13)) ∗ owns (c : Thread nD τ) arg14 fullShare (arg14.view.read (Elt F) (arg14.view.writes (Elt F) (harg14.unread x14) L14))) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0__attn_kernel_eq_skeleton]; unfold cc0__attn_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
    sl_exec (disch := first | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; swap; · iexact H10
      ipureintro; rfl
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    iexists _; isplitr; swap; · iexact H14
    ipureintro; rfl

end Cert.Kernel.Body

end
-- ==== Proof.K.RunC.lean ====
/-
  The kernel body run once, symbolically, at a point of one control case: first query tile, last key tile.
-/
import proofs.«127055_j20289425507095_2_alg».proof.Proof.Gen.Kernel.Launch
import proofs.«127055_j20289425507095_2_alg».proof.Proof.Gen.Kernel.Skeleton
import proofs.«127055_j20289425507095_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«127055_j20289425507095_2_alg».proof.Proof.K.Conds

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The whole body at a point of this case (first query tile, last key tile), on whole staging and scratch buffers owned at named contents:
    it runs to its end, every buffer it only reads is handed back as it was, and every buffer it stores into ends at
    its former contents with the stored pieces written over them, the pieces being those the run meets. -/
noncomputable def runC (c : Dev nD) (i : grid0.Coords) (arg3 : Memref sig .tc .vmem S1x1024x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x256 .f32) (harg14 : arg14.IsWhole)
    (hc1 : condQi0 i) (hc2 : ¬condKi0 i) (hc3 : condKi3 i)
    (x3 : Vec F S1x1024x256 .f32) (x4 : Vec F S1x1024x256 .f32) (x5 : Vec F S256x256 .f32) (x6 : Vec F S256x256 .f32) (x7 : Vec F S256x256 .f32) (x8 : Vec F S1x1024x256 .f32) (x9 : Vec F S1024x256 .f32) (x10 : Vec F S4096x256 .bf16) (x11 : Vec F S4096x256 .bf16) (x12 : Vec F S1024x1 .f32) (x13 : Vec F S1024x1 .f32) (x14 : Vec F S1024x256 .f32) :
    Σ' (L8 : List (View.Piece (Elt F) S1x1024x256 .f32)) (L10 : List (View.Piece (Elt F) S4096x256 .bf16)) (L11 : List (View.Piece (Elt F) S4096x256 .bf16)) (L12 : List (View.Piece (Elt F) S1024x1 .f32)) (L13 : List (View.Piece (Elt F) S1024x1 .f32)), { L14 : List (View.Piece (Elt F) S1024x256 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (arg8.view.read (Elt F) (arg8.view.writes (Elt F) (harg8.unread x8) L8)) ∗ owns (c : Thread nD τ) arg9 fullShare x9 ∗ owns (c : Thread nD τ) arg10 fullShare (arg10.view.read (Elt F) (arg10.view.writes (Elt F) (harg10.unread x10) L10)) ∗ owns (c : Thread nD τ) arg11 fullShare (arg11.view.read (Elt F) (arg11.view.writes (Elt F) (harg11.unread x11) L11)) ∗ owns (c : Thread nD τ) arg12 fullShare (arg12.view.read (Elt F) (arg12.view.writes (Elt F) (harg12.unread x12) L12)) ∗ owns (c : Thread nD τ) arg13 fullShare (arg13.view.read (Elt F) (arg13.view.writes (Elt F) (harg13.unread x13) L13)) ∗ owns (c : Thread nD τ) arg14 fullShare (arg14.view.read (Elt F) (arg14.view.writes (Elt F) (harg14.unread x14) L14))) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [cc0__attn_kernel_eq_skeleton]; unfold cc0__attn_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
    sl_exec (disch := first | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro; rfl
    isplitl [H9]
    · iexists _; isplitr; · ipureintro; exact harg9.read_unread _
      iexact H9
    isplitl [H10]
    · iexists _; isplitr; swap; · iexact H10
      ipureintro; rfl
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    iexists _; isplitr; swap; · iexact H14
    ipureintro; rfl

end Cert.Kernel.Body

end
-- ==== Proof.K.RunD.lean ====
/-
  The kernel body run once, symbolically, at a point of one control case: a later query tile, first key tile.
-/
import proofs.«127055_j20289425507095_2_alg».proof.Proof.Gen.Kernel.Launch
import proofs.«127055_j20289425507095_2_alg».proof.Proof.Gen.Kernel.Skeleton
import proofs.«127055_j20289425507095_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«127055_j20289425507095_2_alg».proof.Proof.K.Conds

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The whole body at a point of this case (a later query tile, first key tile), on whole staging and scratch buffers owned at named contents:
    it runs to its end, every buffer it only reads is handed back as it was, and every buffer it stores into ends at
    its former contents with the stored pieces written over them, the pieces being those the run meets. -/
noncomputable def runD (c : Dev nD) (i : grid0.Coords) (arg3 : Memref sig .tc .vmem S1x1024x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x256 .f32) (harg14 : arg14.IsWhole)
    (hc1 : ¬condQi0 i) (hc2 : condKi0 i) (hc3 : ¬condKi3 i)
    (x3 : Vec F S1x1024x256 .f32) (x4 : Vec F S1x1024x256 .f32) (x5 : Vec F S256x256 .f32) (x6 : Vec F S256x256 .f32) (x7 : Vec F S256x256 .f32) (x8 : Vec F S1x1024x256 .f32) (x9 : Vec F S1024x256 .f32) (x10 : Vec F S4096x256 .bf16) (x11 : Vec F S4096x256 .bf16) (x12 : Vec F S1024x1 .f32) (x13 : Vec F S1024x1 .f32) (x14 : Vec F S1024x256 .f32) :
    Σ' (L9 : List (View.Piece (Elt F) S1024x256 .f32)) (L12 : List (View.Piece (Elt F) S1024x1 .f32)) (L13 : List (View.Piece (Elt F) S1024x1 .f32)), { L14 : List (View.Piece (Elt F) S1024x256 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (arg9.view.read (Elt F) (arg9.view.writes (Elt F) (harg9.unread x9) L9)) ∗ owns (c : Thread nD τ) arg10 fullShare x10 ∗ owns (c : Thread nD τ) arg11 fullShare x11 ∗ owns (c : Thread nD τ) arg12 fullShare (arg12.view.read (Elt F) (arg12.view.writes (Elt F) (harg12.unread x12) L12)) ∗ owns (c : Thread nD τ) arg13 fullShare (arg13.view.read (Elt F) (arg13.view.writes (Elt F) (harg13.unread x13) L13)) ∗ owns (c : Thread nD τ) arg14 fullShare (arg14.view.read (Elt F) (arg14.view.writes (Elt F) (harg14.unread x14) L14))) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0__attn_kernel_eq_skeleton]; unfold cc0__attn_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
    sl_exec (disch := first | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; swap; · iexact H9
      ipureintro; rfl
    isplitl [H10]
    · iexists _; isplitr; · ipureintro; exact harg10.read_unread _
      iexact H10
    isplitl [H11]
    · iexists _; isplitr; · ipureintro; exact harg11.read_unread _
      iexact H11
    isplitl [H12]
    · iexists _; isplitr; swap; · iexact H12
      ipureintro; rfl
    isplitl [H13]
    · iexists _; isplitr; swap; · iexact H13
      ipureintro; rfl
    iexists _; isplitr; swap; · iexact H14
    ipureintro; rfl

end Cert.Kernel.Body

end
-- ==== Proof.K.RunE.lean ====
/-
  The kernel body run once, symbolically, at a point of one control case: a later query tile, a middle key tile.
-/
import proofs.«127055_j20289425507095_2_alg».proof.Proof.Gen.Kernel.Launch
import proofs.«127055_j20289425507095_2_alg».proof.Proof.Gen.Kernel.Skeleton
import proofs.«127055_j20289425507095_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«127055_j20289425507095_2_alg».proof.Proof.K.Conds

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The whole body at a point of this case (a later query tile, a middle key tile), on whole staging and scratch buffers owned at named contents:
    it runs to its end, every buffer it only reads is handed back as it was, and every buffer it stores into ends at
    its former contents with the stored pieces written over them, the pieces being those the run meets. -/
noncomputable def runE (c : Dev nD) (i : grid0.Coords) (arg3 : Memref sig .tc .vmem S1x1024x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x256 .f32) (harg14 : arg14.IsWhole)
    (hc1 : ¬condQi0 i) (hc2 : ¬condKi0 i) (hc3 : ¬condKi3 i)
    (x3 : Vec F S1x1024x256 .f32) (x4 : Vec F S1x1024x256 .f32) (x5 : Vec F S256x256 .f32) (x6 : Vec F S256x256 .f32) (x7 : Vec F S256x256 .f32) (x8 : Vec F S1x1024x256 .f32) (x9 : Vec F S1024x256 .f32) (x10 : Vec F S4096x256 .bf16) (x11 : Vec F S4096x256 .bf16) (x12 : Vec F S1024x1 .f32) (x13 : Vec F S1024x1 .f32) (x14 : Vec F S1024x256 .f32) :
    Σ' (L12 : List (View.Piece (Elt F) S1024x1 .f32)) (L13 : List (View.Piece (Elt F) S1024x1 .f32)), { L14 : List (View.Piece (Elt F) S1024x256 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (arg12.view.read (Elt F) (arg12.view.writes (Elt F) (harg12.unread x12) L12)) ∗ owns (c : Thread nD τ) arg13 fullShare (arg13.view.read (Elt F) (arg13.view.writes (Elt F) (harg13.unread x13) L13)) ∗ owns (c : Thread nD τ) arg14 fullShare (arg14.view.read (Elt F) (arg14.view.writes (Elt F) (harg14.unread x14) L14))) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0__attn_kernel_eq_skeleton]; unfold cc0__attn_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
    sl_exec (disch := first | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; swap; · iexact H12
      ipureintro; rfl
    isplitl [H13]
    · iexists _; isplitr; swap; · iexact H13
      ipureintro; rfl
    iexists _; isplitr; swap; · iexact H14
    ipureintro; rfl

end Cert.Kernel.Body

end
-- ==== Proof.K.RunG.lean ====
/-
  The kernel body run once, symbolically, at a point of one control case: a later query tile, last key tile.
-/
import proofs.«127055_j20289425507095_2_alg».proof.Proof.Gen.Kernel.Launch
import proofs.«127055_j20289425507095_2_alg».proof.Proof.Gen.Kernel.Skeleton
import proofs.«127055_j20289425507095_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«127055_j20289425507095_2_alg».proof.Proof.K.Conds

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The whole body at a point of this case (a later query tile, last key tile), on whole staging and scratch buffers owned at named contents:
    it runs to its end, every buffer it only reads is handed back as it was, and every buffer it stores into ends at
    its former contents with the stored pieces written over them, the pieces being those the run meets. -/
noncomputable def runG (c : Dev nD) (i : grid0.Coords) (arg3 : Memref sig .tc .vmem S1x1024x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x256 .f32) (harg14 : arg14.IsWhole)
    (hc1 : ¬condQi0 i) (hc2 : ¬condKi0 i) (hc3 : condKi3 i)
    (x3 : Vec F S1x1024x256 .f32) (x4 : Vec F S1x1024x256 .f32) (x5 : Vec F S256x256 .f32) (x6 : Vec F S256x256 .f32) (x7 : Vec F S256x256 .f32) (x8 : Vec F S1x1024x256 .f32) (x9 : Vec F S1024x256 .f32) (x10 : Vec F S4096x256 .bf16) (x11 : Vec F S4096x256 .bf16) (x12 : Vec F S1024x1 .f32) (x13 : Vec F S1024x1 .f32) (x14 : Vec F S1024x256 .f32) :
    Σ' (L8 : List (View.Piece (Elt F) S1x1024x256 .f32)) (L12 : List (View.Piece (Elt F) S1024x1 .f32)) (L13 : List (View.Piece (Elt F) S1024x1 .f32)), { L14 : List (View.Piece (Elt F) S1024x256 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (arg8.view.read (Elt F) (arg8.view.writes (Elt F) (harg8.unread x8) L8)) ∗ owns (c : Thread nD τ) arg9 fullShare x9 ∗ owns (c : Thread nD τ) arg10 fullShare x10 ∗ owns (c : Thread nD τ) arg11 fullShare x11 ∗ owns (c : Thread nD τ) arg12 fullShare (arg12.view.read (Elt F) (arg12.view.writes (Elt F) (harg12.unread x12) L12)) ∗ owns (c : Thread nD τ) arg13 fullShare (arg13.view.read (Elt F) (arg13.view.writes (Elt F) (harg13.unread x13) L13)) ∗ owns (c : Thread nD τ) arg14 fullShare (arg14.view.read (Elt F) (arg14.view.writes (Elt F) (harg14.unread x14) L14))) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0__attn_kernel_eq_skeleton]; unfold cc0__attn_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
    sl_exec (disch := first | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro; rfl
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; swap; · iexact H12
      ipureintro; rfl
    isplitl [H13]
    · iexists _; isplitr; swap; · iexact H13
      ipureintro; rfl
    iexists _; isplitr; swap; · iexact H14
    ipureintro; rfl

end Cert.Kernel.Body

end
-- ==== Proof.K.Steps.lean ====
/-
  What the body leaves in each buffer it stores into, case by case, in the specification's terms. In every case
  the maximum, sum and accumulator scratches end at one online-softmax update of a state s0 with a key tile kt and a
  value tile vt: s0 is the fresh state at a row's first key tile and what the scratches held otherwise; kt and vt
  are the projections just computed from the key rows while the batch's first query tile fills the caches, and the
  current key tile's rows of the caches otherwise. At a row's first key tile the query scratch ends at the scaled
  query projection; while the caches are being filled they end with the current tile's rows overwritten by the new
  projections; at a row's last key tile the output block ends at accumulator over sum.
-/
import proofs.«127055_j20289425507095_2_alg».proof.Proof.Gen.Kernel.Launch
import proofs.«127055_j20289425507095_2_alg».proof.Proof.Gen.Kernel.Skeleton
import proofs.«127055_j20289425507095_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«127055_j20289425507095_2_alg».proof.Proof.K.Data
import proofs.«127055_j20289425507095_2_alg».proof.Proof.K.RunA
import proofs.«127055_j20289425507095_2_alg».proof.Proof.K.RunB
import proofs.«127055_j20289425507095_2_alg».proof.Proof.K.RunC
import proofs.«127055_j20289425507095_2_alg».proof.Proof.K.RunD
import proofs.«127055_j20289425507095_2_alg».proof.Proof.K.RunE
import proofs.«127055_j20289425507095_2_alg».proof.Proof.K.RunG

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Spec Cert.LibWholeStore

theorem hz2 : (![0, 0] : Fin 2 → ℕ) = fun _ => 0 := funext fun a => by fin_cases a <;> rfl
theorem hz3 : (![0, 0, 0] : Fin 3 → ℕ) = fun _ => 0 := funext fun a => by fin_cases a <;> rfl

/-- The rows a cache was just stored into, read back through the same rectangle (the body's two offset chains are
    one chain): the stored tile. -/
theorem readCov_tile {κ : Kind} {sp : Space} (v : View sig κ sp S4096x256 .bf16) (i : grid0.Coords) (size : Fin 2 → ℕ)
    (inb1 : ∀ a, (k0_off1 i) a + size a ≤ S4096x256.size a) (inb2 : ∀ a, (k0_off2 i) a + size a ≤ S4096x256.size a)
    (w : (Rect.unit (s := S4096x256) (k0_off1 i) size inb1).shape.Idx → Elt F .bf16) :
    v.readCov [(⟨Rect.unit (s := S4096x256) (k0_off1 i) size inb1, w⟩ : View.Piece (Elt F) S4096x256 .bf16)]
      (Rect.unit (s := S4096x256) (k0_off2 i) size inb2).toLoadRect = w :=
  View.readCov_cons_toLoadRect v _ w []

set_option maxHeartbeats 4000000 in
/-- What the body leaves at a point of this case (first query tile, first key tile). -/
theorem runA_leaves (c : Dev nD) (i : grid0.Coords) (arg3 : Memref sig .tc .vmem S1x1024x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x256 .f32) (harg14 : arg14.IsWhole)
    (hc1 : condQi0 i) (hc2 : condKi0 i) (hc3 : ¬condKi3 i) (x3 : Vec F S1x1024x256 .f32) (x4 : Vec F S1x1024x256 .f32) (x5 : Vec F S256x256 .f32) (x6 : Vec F S256x256 .f32) (x7 : Vec F S256x256 .f32) (x8 : Vec F S1x1024x256 .f32) (x9 : Vec F S1024x256 .f32) (x10 : Vec F S4096x256 .bf16) (x11 : Vec F S4096x256 .bf16) (x12 : Vec F S1024x1 .f32) (x13 : Vec F S1024x1 .f32) (x14 : Vec F S1024x256 .f32) :
    arg9.view.read (Elt F) (arg9.view.writes (Elt F) (harg9.unread x9) (runA c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).1) = (freshSt x3 x5).q
      ∧ arg10.view.read (Elt F) (arg10.view.writes (Elt F) (harg10.unread x10) (runA c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.1) = arg10.view.read (Elt F) (arg10.view.writes (Elt F) (harg10.unread x10) [(⟨Rect.unit (s := S4096x256) (k0_off1 i) S1024x256.size (k0_off1_inb i hc1), kTile x4 x6⟩ : View.Piece (Elt F) S4096x256 .bf16)])
      ∧ arg11.view.read (Elt F) (arg11.view.writes (Elt F) (harg11.unread x11) (runA c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.2.1) = arg11.view.read (Elt F) (arg11.view.writes (Elt F) (harg11.unread x11) [(⟨Rect.unit (s := S4096x256) (k0_off1 i) S1024x256.size (k0_off1_inb i hc1), vTile x4 x7⟩ : View.Piece (Elt F) S4096x256 .bf16)])
      ∧ arg12.view.read (Elt F) (arg12.view.writes (Elt F) (harg12.unread x12) (runA c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.2.2.1) = (stepSt (kTile x4 x6) (vTile x4 x7) (freshSt x3 x5)).mx
      ∧ arg13.view.read (Elt F) (arg13.view.writes (Elt F) (harg13.unread x13) (runA c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.2.2.2.1) = (stepSt (kTile x4 x6) (vTile x4 x7) (freshSt x3 x5)).l
      ∧ arg14.view.read (Elt F) (arg14.view.writes (Elt F) (harg14.unread x14) (runA c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.2.2.2.2.1) = (stepSt (kTile x4 x6) (vTile x4 x7) (freshSt x3 x5)).acc := by
  unfold runA
  dsimp only
  sl_unfold_run_names
  refine ⟨?_, ?_, ?_, ?_, ?_, ?_⟩
  all_goals
    first
      | rw [read_writes_cons_whole (S := S1024x1) _ _ hz2]
      | rw [read_writes_cons_whole (S := S1024x256) _ _ hz2]
      | rw [read_writes_cons_whole (S := S1x1024x256) _ _ hz3]
      | skip
  all_goals
    simp only [View.readAt_eq_ld, View.readCov_cons_toLoadRect, readCov_tile,
      harg3.read_unread, harg4.read_unread, harg5.read_unread, harg6.read_unread, harg7.read_unread, harg8.read_unread,
      harg9.read_unread, harg10.read_unread, harg11.read_unread, harg12.read_unread, harg13.read_unread, harg14.read_unread,
      View.ld_unit_zero (S := S1024x256) hz2, View.ld_unit_zero (S := S1024x1) hz2, View.ld_unit_zero (S := S256x256) hz2,
      View.ld_unit_zero (S := S1x1024x256) hz3]
  all_goals (try simp only [kTile, vTile, stepSt, freshSt, outOf])
  all_goals (try rfl)

set_option maxHeartbeats 4000000 in
/-- What the body leaves at a point of this case (first query tile, a middle key tile). -/
theorem runB_leaves (c : Dev nD) (i : grid0.Coords) (arg3 : Memref sig .tc .vmem S1x1024x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x256 .f32) (harg14 : arg14.IsWhole)
    (hc1 : condQi0 i) (hc2 : ¬condKi0 i) (hc3 : ¬condKi3 i) (x3 : Vec F S1x1024x256 .f32) (x4 : Vec F S1x1024x256 .f32) (x5 : Vec F S256x256 .f32) (x6 : Vec F S256x256 .f32) (x7 : Vec F S256x256 .f32) (x8 : Vec F S1x1024x256 .f32) (x9 : Vec F S1024x256 .f32) (x10 : Vec F S4096x256 .bf16) (x11 : Vec F S4096x256 .bf16) (x12 : Vec F S1024x1 .f32) (x13 : Vec F S1024x1 .f32) (x14 : Vec F S1024x256 .f32) :
    arg10.view.read (Elt F) (arg10.view.writes (Elt F) (harg10.unread x10) (runB c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).1) = arg10.view.read (Elt F) (arg10.view.writes (Elt F) (harg10.unread x10) [(⟨Rect.unit (s := S4096x256) (k0_off1 i) S1024x256.size (k0_off1_inb i hc1), kTile x4 x6⟩ : View.Piece (Elt F) S4096x256 .bf16)])
      ∧ arg11.view.read (Elt F) (arg11.view.writes (Elt F) (harg11.unread x11) (runB c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.1) = arg11.view.read (Elt F) (arg11.view.writes (Elt F) (harg11.unread x11) [(⟨Rect.unit (s := S4096x256) (k0_off1 i) S1024x256.size (k0_off1_inb i hc1), vTile x4 x7⟩ : View.Piece (Elt F) S4096x256 .bf16)])
      ∧ arg12.view.read (Elt F) (arg12.view.writes (Elt F) (harg12.unread x12) (runB c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.2.1) = (stepSt (kTile x4 x6) (vTile x4 x7) (⟨x9, x12, x13, x14⟩ : OSt F)).mx
      ∧ arg13.view.read (Elt F) (arg13.view.writes (Elt F) (harg13.unread x13) (runB c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.2.2.1) = (stepSt (kTile x4 x6) (vTile x4 x7) (⟨x9, x12, x13, x14⟩ : OSt F)).l
      ∧ arg14.view.read (Elt F) (arg14.view.writes (Elt F) (harg14.unread x14) (runB c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.2.2.2.1) = (stepSt (kTile x4 x6) (vTile x4 x7) (⟨x9, x12, x13, x14⟩ : OSt F)).acc := by
  unfold runB
  dsimp only
  sl_unfold_run_names
  refine ⟨?_, ?_, ?_, ?_, ?_⟩
  all_goals
    first
      | rw [read_writes_cons_whole (S := S1024x1) _ _ hz2]
      | rw [read_writes_cons_whole (S := S1024x256) _ _ hz2]
      | rw [read_writes_cons_whole (S := S1x1024x256) _ _ hz3]
      | skip
  all_goals
    simp only [View.readAt_eq_ld, View.readCov_cons_toLoadRect, readCov_tile,
      harg3.read_unread, harg4.read_unread, harg5.read_unread, harg6.read_unread, harg7.read_unread, harg8.read_unread,
      harg9.read_unread, harg10.read_unread, harg11.read_unread, harg12.read_unread, harg13.read_unread, harg14.read_unread,
      View.ld_unit_zero (S := S1024x256) hz2, View.ld_unit_zero (S := S1024x1) hz2, View.ld_unit_zero (S := S256x256) hz2,
      View.ld_unit_zero (S := S1x1024x256) hz3]
  all_goals (try simp only [kTile, vTile, stepSt, freshSt, outOf])
  all_goals (try rfl)

set_option maxHeartbeats 4000000 in
/-- What the body leaves at a point of this case (first query tile, last key tile). -/
theorem runC_leaves (c : Dev nD) (i : grid0.Coords) (arg3 : Memref sig .tc .vmem S1x1024x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x256 .f32) (harg14 : arg14.IsWhole)
    (hc1 : condQi0 i) (hc2 : ¬condKi0 i) (hc3 : condKi3 i) (x3 : Vec F S1x1024x256 .f32) (x4 : Vec F S1x1024x256 .f32) (x5 : Vec F S256x256 .f32) (x6 : Vec F S256x256 .f32) (x7 : Vec F S256x256 .f32) (x8 : Vec F S1x1024x256 .f32) (x9 : Vec F S1024x256 .f32) (x10 : Vec F S4096x256 .bf16) (x11 : Vec F S4096x256 .bf16) (x12 : Vec F S1024x1 .f32) (x13 : Vec F S1024x1 .f32) (x14 : Vec F S1024x256 .f32) :
    arg8.view.read (Elt F) (arg8.view.writes (Elt F) (harg8.unread x8) (runC c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).1) = outOf (stepSt (kTile x4 x6) (vTile x4 x7) (⟨x9, x12, x13, x14⟩ : OSt F))
      ∧ arg10.view.read (Elt F) (arg10.view.writes (Elt F) (harg10.unread x10) (runC c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.1) = arg10.view.read (Elt F) (arg10.view.writes (Elt F) (harg10.unread x10) [(⟨Rect.unit (s := S4096x256) (k0_off1 i) S1024x256.size (k0_off1_inb i hc1), kTile x4 x6⟩ : View.Piece (Elt F) S4096x256 .bf16)])
      ∧ arg11.view.read (Elt F) (arg11.view.writes (Elt F) (harg11.unread x11) (runC c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.2.1) = arg11.view.read (Elt F) (arg11.view.writes (Elt F) (harg11.unread x11) [(⟨Rect.unit (s := S4096x256) (k0_off1 i) S1024x256.size (k0_off1_inb i hc1), vTile x4 x7⟩ : View.Piece (Elt F) S4096x256 .bf16)])
      ∧ arg12.view.read (Elt F) (arg12.view.writes (Elt F) (harg12.unread x12) (runC c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.2.2.1) = (stepSt (kTile x4 x6) (vTile x4 x7) (⟨x9, x12, x13, x14⟩ : OSt F)).mx
      ∧ arg13.view.read (Elt F) (arg13.view.writes (Elt F) (harg13.unread x13) (runC c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.2.2.2.1) = (stepSt (kTile x4 x6) (vTile x4 x7) (⟨x9, x12, x13, x14⟩ : OSt F)).l
      ∧ arg14.view.read (Elt F) (arg14.view.writes (Elt F) (harg14.unread x14) (runC c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.2.2.2.2.1) = (stepSt (kTile x4 x6) (vTile x4 x7) (⟨x9, x12, x13, x14⟩ : OSt F)).acc := by
  unfold runC
  dsimp only
  sl_unfold_run_names
  refine ⟨?_, ?_, ?_, ?_, ?_, ?_⟩
  all_goals
    first
      | rw [read_writes_cons_whole (S := S1024x1) _ _ hz2]
      | rw [read_writes_cons_whole (S := S1024x256) _ _ hz2]
      | rw [read_writes_cons_whole (S := S1x1024x256) _ _ hz3]
      | skip
  all_goals
    simp only [View.readAt_eq_ld, View.readCov_cons_toLoadRect, readCov_tile,
      harg3.read_unread, harg4.read_unread, harg5.read_unread, harg6.read_unread, harg7.read_unread, harg8.read_unread,
      harg9.read_unread, harg10.read_unread, harg11.read_unread, harg12.read_unread, harg13.read_unread, harg14.read_unread,
      View.ld_unit_zero (S := S1024x256) hz2, View.ld_unit_zero (S := S1024x1) hz2, View.ld_unit_zero (S := S256x256) hz2,
      View.ld_unit_zero (S := S1x1024x256) hz3]
  all_goals (try simp only [kTile, vTile, stepSt, freshSt, outOf])
  all_goals (try rfl)

set_option maxHeartbeats 4000000 in
/-- What the body leaves at a point of this case (a later query tile, first key tile). -/
theorem runD_leaves (c : Dev nD) (i : grid0.Coords) (arg3 : Memref sig .tc .vmem S1x1024x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x256 .f32) (harg14 : arg14.IsWhole)
    (hc1 : ¬condQi0 i) (hc2 : condKi0 i) (hc3 : ¬condKi3 i) (x3 : Vec F S1x1024x256 .f32) (x4 : Vec F S1x1024x256 .f32) (x5 : Vec F S256x256 .f32) (x6 : Vec F S256x256 .f32) (x7 : Vec F S256x256 .f32) (x8 : Vec F S1x1024x256 .f32) (x9 : Vec F S1024x256 .f32) (x10 : Vec F S4096x256 .bf16) (x11 : Vec F S4096x256 .bf16) (x12 : Vec F S1024x1 .f32) (x13 : Vec F S1024x1 .f32) (x14 : Vec F S1024x256 .f32) :
    arg9.view.read (Elt F) (arg9.view.writes (Elt F) (harg9.unread x9) (runD c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).1) = (freshSt x3 x5).q
      ∧ arg12.view.read (Elt F) (arg12.view.writes (Elt F) (harg12.unread x12) (runD c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.1) = (stepSt (View.ld x10 (Rect.unit (s := S4096x256) (k0_off2 i) S1024x256.size (k0_off2_inb i))) (View.ld x11 (Rect.unit (s := S4096x256) (k0_off2 i) S1024x256.size (k0_off2_inb i))) (freshSt x3 x5)).mx
      ∧ arg13.view.read (Elt F) (arg13.view.writes (Elt F) (harg13.unread x13) (runD c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.2.1) = (stepSt (View.ld x10 (Rect.unit (s := S4096x256) (k0_off2 i) S1024x256.size (k0_off2_inb i))) (View.ld x11 (Rect.unit (s := S4096x256) (k0_off2 i) S1024x256.size (k0_off2_inb i))) (freshSt x3 x5)).l
      ∧ arg14.view.read (Elt F) (arg14.view.writes (Elt F) (harg14.unread x14) (runD c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.2.2.1) = (stepSt (View.ld x10 (Rect.unit (s := S4096x256) (k0_off2 i) S1024x256.size (k0_off2_inb i))) (View.ld x11 (Rect.unit (s := S4096x256) (k0_off2 i) S1024x256.size (k0_off2_inb i))) (freshSt x3 x5)).acc := by
  unfold runD
  dsimp only
  sl_unfold_run_names
  refine ⟨?_, ?_, ?_, ?_⟩
  all_goals
    first
      | rw [read_writes_cons_whole (S := S1024x1) _ _ hz2]
      | rw [read_writes_cons_whole (S := S1024x256) _ _ hz2]
      | rw [read_writes_cons_whole (S := S1x1024x256) _ _ hz3]
      | skip
  all_goals
    simp only [View.readAt_eq_ld, View.readCov_cons_toLoadRect, readCov_tile,
      harg3.read_unread, harg4.read_unread, harg5.read_unread, harg6.read_unread, harg7.read_unread, harg8.read_unread,
      harg9.read_unread, harg10.read_unread, harg11.read_unread, harg12.read_unread, harg13.read_unread, harg14.read_unread,
      View.ld_unit_zero (S := S1024x256) hz2, View.ld_unit_zero (S := S1024x1) hz2, View.ld_unit_zero (S := S256x256) hz2,
      View.ld_unit_zero (S := S1x1024x256) hz3]
  all_goals (try simp only [kTile, vTile, stepSt, freshSt, outOf])
  all_goals (try rfl)

set_option maxHeartbeats 4000000 in
/-- What the body leaves at a point of this case (a later query tile, a middle key tile). -/
theorem runE_leaves (c : Dev nD) (i : grid0.Coords) (arg3 : Memref sig .tc .vmem S1x1024x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x256 .f32) (harg14 : arg14.IsWhole)
    (hc1 : ¬condQi0 i) (hc2 : ¬condKi0 i) (hc3 : ¬condKi3 i) (x3 : Vec F S1x1024x256 .f32) (x4 : Vec F S1x1024x256 .f32) (x5 : Vec F S256x256 .f32) (x6 : Vec F S256x256 .f32) (x7 : Vec F S256x256 .f32) (x8 : Vec F S1x1024x256 .f32) (x9 : Vec F S1024x256 .f32) (x10 : Vec F S4096x256 .bf16) (x11 : Vec F S4096x256 .bf16) (x12 : Vec F S1024x1 .f32) (x13 : Vec F S1024x1 .f32) (x14 : Vec F S1024x256 .f32) :
    arg12.view.read (Elt F) (arg12.view.writes (Elt F) (harg12.unread x12) (runE c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).1) = (stepSt (View.ld x10 (Rect.unit (s := S4096x256) (k0_off2 i) S1024x256.size (k0_off2_inb i))) (View.ld x11 (Rect.unit (s := S4096x256) (k0_off2 i) S1024x256.size (k0_off2_inb i))) (⟨x9, x12, x13, x14⟩ : OSt F)).mx
      ∧ arg13.view.read (Elt F) (arg13.view.writes (Elt F) (harg13.unread x13) (runE c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.1) = (stepSt (View.ld x10 (Rect.unit (s := S4096x256) (k0_off2 i) S1024x256.size (k0_off2_inb i))) (View.ld x11 (Rect.unit (s := S4096x256) (k0_off2 i) S1024x256.size (k0_off2_inb i))) (⟨x9, x12, x13, x14⟩ : OSt F)).l
      ∧ arg14.view.read (Elt F) (arg14.view.writes (Elt F) (harg14.unread x14) (runE c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.2.1) = (stepSt (View.ld x10 (Rect.unit (s := S4096x256) (k0_off2 i) S1024x256.size (k0_off2_inb i))) (View.ld x11 (Rect.unit (s := S4096x256) (k0_off2 i) S1024x256.size (k0_off2_inb i))) (⟨x9, x12, x13, x14⟩ : OSt F)).acc := by
  unfold runE
  dsimp only
  sl_unfold_run_names
  refine ⟨?_, ?_, ?_⟩
  all_goals
    first
      | rw [read_writes_cons_whole (S := S1024x1) _ _ hz2]
      | rw [read_writes_cons_whole (S := S1024x256) _ _ hz2]
      | rw [read_writes_cons_whole (S := S1x1024x256) _ _ hz3]
      | skip
  all_goals
    simp only [View.readAt_eq_ld, View.readCov_cons_toLoadRect, readCov_tile,
      harg3.read_unread, harg4.read_unread, harg5.read_unread, harg6.read_unread, harg7.read_unread, harg8.read_unread,
      harg9.read_unread, harg10.read_unread, harg11.read_unread, harg12.read_unread, harg13.read_unread, harg14.read_unread,
      View.ld_unit_zero (S := S1024x256) hz2, View.ld_unit_zero (S := S1024x1) hz2, View.ld_unit_zero (S := S256x256) hz2,
      View.ld_unit_zero (S := S1x1024x256) hz3]
  all_goals (try simp only [kTile, vTile, stepSt, freshSt, outOf])
  all_goals (try rfl)

set_option maxHeartbeats 4000000 in
/-- What the body leaves at a point of this case (a later query tile, last key tile). -/
theorem runG_leaves (c : Dev nD) (i : grid0.Coords) (arg3 : Memref sig .tc .vmem S1x1024x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x1024x256 .f32) (harg8 : arg8.IsWhole) (arg9 : Memref sig .tc .vmem S1024x256 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x256 .f32) (harg14 : arg14.IsWhole)
    (hc1 : ¬condQi0 i) (hc2 : ¬condKi0 i) (hc3 : condKi3 i) (x3 : Vec F S1x1024x256 .f32) (x4 : Vec F S1x1024x256 .f32) (x5 : Vec F S256x256 .f32) (x6 : Vec F S256x256 .f32) (x7 : Vec F S256x256 .f32) (x8 : Vec F S1x1024x256 .f32) (x9 : Vec F S1024x256 .f32) (x10 : Vec F S4096x256 .bf16) (x11 : Vec F S4096x256 .bf16) (x12 : Vec F S1024x1 .f32) (x13 : Vec F S1024x1 .f32) (x14 : Vec F S1024x256 .f32) :
    arg8.view.read (Elt F) (arg8.view.writes (Elt F) (harg8.unread x8) (runG c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).1) = outOf (stepSt (View.ld x10 (Rect.unit (s := S4096x256) (k0_off2 i) S1024x256.size (k0_off2_inb i))) (View.ld x11 (Rect.unit (s := S4096x256) (k0_off2 i) S1024x256.size (k0_off2_inb i))) (⟨x9, x12, x13, x14⟩ : OSt F))
      ∧ arg12.view.read (Elt F) (arg12.view.writes (Elt F) (harg12.unread x12) (runG c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.1) = (stepSt (View.ld x10 (Rect.unit (s := S4096x256) (k0_off2 i) S1024x256.size (k0_off2_inb i))) (View.ld x11 (Rect.unit (s := S4096x256) (k0_off2 i) S1024x256.size (k0_off2_inb i))) (⟨x9, x12, x13, x14⟩ : OSt F)).mx
      ∧ arg13.view.read (Elt F) (arg13.view.writes (Elt F) (harg13.unread x13) (runG c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.2.1) = (stepSt (View.ld x10 (Rect.unit (s := S4096x256) (k0_off2 i) S1024x256.size (k0_off2_inb i))) (View.ld x11 (Rect.unit (s := S4096x256) (k0_off2 i) S1024x256.size (k0_off2_inb i))) (⟨x9, x12, x13, x14⟩ : OSt F)).l
      ∧ arg14.view.read (Elt F) (arg14.view.writes (Elt F) (harg14.unread x14) (runG c i arg3 harg3 arg4 harg4 arg5 harg5 arg6 harg6 arg7 harg7 arg8 harg8 arg9 harg9 arg10 harg10 arg11 harg11 arg12 harg12 arg13 harg13 arg14 harg14 hc1 hc2 hc3 x3 x4 x5 x6 x7 x8 x9 x10 x11 x12 x13 x14).2.2.2.1) = (stepSt (View.ld x10 (Rect.unit (s := S4096x256) (k0_off2 i) S1024x256.size (k0_off2_inb i))) (View.ld x11 (Rect.unit (s := S4096x256) (k0_off2 i) S1024x256.size (k0_off2_inb i))) (⟨x9, x12, x13, x14⟩ : OSt F)).acc := by
  unfold runG
  dsimp only
  sl_unfold_run_names
  refine ⟨?_, ?_, ?_, ?_⟩
  all_goals
    first
      | rw [read_writes_cons_whole (S := S1024x1) _ _ hz2]
      | rw [read_writes_cons_whole (S := S1024x256) _ _ hz2]
      | rw [read_writes_cons_whole (S := S1x1024x256) _ _ hz3]
      | skip
  all_goals
    simp only [View.readAt_eq_ld, View.readCov_cons_toLoadRect, readCov_tile,
      harg3.read_unread, harg4.read_unread, harg5.read_unread, harg6.read_unread, harg7.read_unread, harg8.read_unread,
      harg9.read_unread, harg10.read_unread, harg11.read_unread, harg12.read_unread, harg13.read_unread, harg14.read_unread,
      View.ld_unit_zero (S := S1024x256) hz2, View.ld_unit_zero (S := S1024x1) hz2, View.ld_unit_zero (S := S256x256) hz2,
      View.ld_unit_zero (S := S1x1024x256) hz3]
  all_goals (try simp only [kTile, vTile, stepSt, freshSt, outOf])
  all_goals (try rfl)

end Cert.Kernel.Body

end
-- ==== Proof.K.Dats.lean ====
/-
  The pipeline's proof data for the attention kernel. Between grid points the six scratch buffers are held at some
  contents of which the following is known after the point of position n: the query scratch holds the row's scaled
  query projection and the maximum, sum and accumulator scratches hold the online-softmax state after that point;
  and, for every key tile the current batch has already projected (all four once the batch's first query tile is
  done, tiles 0 … n mod 4 during it), that tile's rows of the key cache and of the value cache hold its projections.
  Nothing is known of the other rows of the caches, and nothing at all before the first point. The two windows on
  the array x hold it at the two halves of the full share.
-/
import proofs.«127055_j20289425507095_2_alg».proof.Proof.Gen.Kernel.Launch
import proofs.«127055_j20289425507095_2_alg».proof.Proof.Gen.Kernel.Skeleton
import proofs.«127055_j20289425507095_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«127055_j20289425507095_2_alg».proof.Proof.K.Data

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Spec Cert.LibWholeStore

variable (m : (ℓ : Loc nD τ sig) → Buf (Elt F) ℓ)

/-- The six scratch buffers, whole. -/
abbrev scQ : Memref sig .tc .vmem S1024x256 .f32 := Memref.whole cc0_scratch0
abbrev scK : Memref sig .tc .vmem S4096x256 .bf16 := Memref.whole cc0_scratch1
abbrev scV : Memref sig .tc .vmem S4096x256 .bf16 := Memref.whole cc0_scratch2
abbrev scM : Memref sig .tc .vmem S1024x1 .f32 := Memref.whole cc0_scratch3
abbrev scL : Memref sig .tc .vmem S1024x1 .f32 := Memref.whole cc0_scratch4
abbrev scA : Memref sig .tc .vmem S1024x256 .f32 := Memref.whole cc0_scratch5

/-- What is known of the scratch contents after the point of position `n`. -/
def Inv (c : Dev nD) (n : ℕ) (d9 : Vec F S1024x256 .f32) (d10 d11 : Vec F S4096x256 .bf16)
    (d12 d13 : Vec F S1024x1 .f32) (d14 : Vec F S1024x256 .f32) : Prop :=
  d9 = (ST m c n).q ∧ d12 = (ST m c n).mx ∧ d13 = (ST m c n).l ∧ d14 = (ST m c n).acc
    ∧ ∀ (j : ℕ) (hj : j < 4), ((n / 4) % 4 = 0 → j ≤ n % 4) →
        tile d10 j hj = KT m c (kvPt n j) ∧ tile d11 j hj = VT m c (kvPt n j)

/-- The region's invariant before the point of position `n`: the scratch buffers owned at contents of which, past
    the first point, the facts above hold for the point before. -/
def PhiS (c : Dev nD) (n : ℕ) : sProp 𝕄 :=
  iprop(∃ (d9 : Vec F S1024x256 .f32) (d10 d11 : Vec F S4096x256 .bf16) (d12 d13 : Vec F S1024x1 .f32) (d14 : Vec F S1024x256 .f32),
    ⌜n ≠ 0 → Inv m c (n - 1) d9 d10 d11 d12 d13 d14⌝
      ∗ owns (c : Thread nD τ) scQ fullShare d9 ∗ owns (c : Thread nD τ) scK fullShare d10 ∗ owns (c : Thread nD τ) scV fullShare d11
      ∗ owns (c : Thread nD τ) scM fullShare d12 ∗ owns (c : Thread nD τ) scL fullShare d13 ∗ owns (c : Thread nD τ) scA fullShare d14)

/-- The proof data of the one pipeline on core `c`: the arrays as the region finds them; after the body each input's
    buffer at its block and the output's at the row's accumulator over sum; the invariant above; nothing owed; the
    two windows on `x` at half shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => OUT m c t.val
  Φ t := PhiS m c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = OUT m c t.val := by dsimp only [dats]

theorem Phi_eq (c : Dev nD) (t : Fin (cfg0.N + 1)) : (dats m 0 c).Φ t = PhiS m c t.val := by dsimp only [dats]

end Cert.Kernel.Body

end
-- ==== Proof.K.Tiles.lean ====
/-
  A cache of 4096 rows is four tiles of 1024 rows. After a store of one tile's rows, that tile reads the stored
  value and every other tile reads what it read before.
-/
import proofs.«127055_j20289425507095_2_alg».proof.Proof.Gen.Kernel.Launch
import proofs.«127055_j20289425507095_2_alg».proof.Proof.Gen.Kernel.Skeleton
import proofs.«127055_j20289425507095_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«127055_j20289425507095_2_alg».proof.Proof.K.Data

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Spec Cert.LibWholeStore

/-- The stored tile reads the stored value. -/
theorem tile_store_same (arg : Memref sig .tc .vmem S4096x256 .bf16) (harg : arg.IsWhole) (x : Vec F S4096x256 .bf16)
    (off : Fin 2 → ℕ) (inb : ∀ a, off a + S1024x256.size a ≤ S4096x256.size a)
    (w : (Rect.unit (s := S4096x256) off S1024x256.size inb).shape.Idx → Elt F .bf16) (j : ℕ) (hj : j < 4) (hoff : off = ![1024 * j, 0]) :
    tile (arg.view.read (Elt F) (arg.view.writes (Elt F) (harg.unread x)
      [(⟨Rect.unit (s := S4096x256) off S1024x256.size inb, w⟩ : View.Piece (Elt F) S4096x256 .bf16)])) j hj = w := by
  funext y
  refine View.read_writes_cons_rows_of_mem arg.view (harg.unread x) inb w [] _ y hoff ?_ ?_
  · show 1024 * j + 1 * (y 0).val = 1024 * j + (y 0).val
    omega
  · show 0 + 1 * (y 1).val = (y 1).val
    omega

/-- Any other tile reads what it read before the store. -/
theorem tile_store_other (arg : Memref sig .tc .vmem S4096x256 .bf16) (harg : arg.IsWhole) (x : Vec F S4096x256 .bf16)
    (off : Fin 2 → ℕ) (inb : ∀ a, off a + S1024x256.size a ≤ S4096x256.size a)
    (w : (Rect.unit (s := S4096x256) off S1024x256.size inb).shape.Idx → Elt F .bf16) (j : ℕ) (hoff : off = ![1024 * j, 0])
    (j' : ℕ) (hj' : j' < 4) (hne : j' ≠ j) :
    tile (arg.view.read (Elt F) (arg.view.writes (Elt F) (harg.unread x)
      [(⟨Rect.unit (s := S4096x256) off S1024x256.size inb, w⟩ : View.Piece (Elt F) S4096x256 .bf16)])) j' hj' = tile x j' hj' := by
  funext y
  have hy : (y 0).val < 1024 := (y 0).isLt
  refine (View.read_writes_cons_rows_of_not_mem arg.view (harg.unread x) inb w [] _ hoff (W := 1024) rfl ?_).trans ?_
  · show 1024 * j' + 1 * (y 0).val < 1024 * j ∨ 1024 * j + 1024 ≤ 1024 * j' + 1 * (y 0).val
    omega
  · rw [View.writes_nil, harg.read_unread]
    rfl

end Cert.Kernel.Body

end
-- ==== Proof.K.Sched.lean ====
/-
  The schedule's facts the body obligation needs, and the arithmetic of positions behind the invariant's step.
  The five input windows are never idle and the body leaves their buffers as it found them, so each holds its block
  at every point, fetched there or not. The output window is stored into, and written back, exactly at a row's
  last key tile; elsewhere it is idle. Positions: within a row (n mod 4 ≠ 0) the point before has the same row start
  and the same batch; at a batch's first query tile the point itself projects its key tile; at a later query tile
  every key tile of the batch has been projected.
-/
import proofs.«127055_j20289425507095_2_alg».proof.Proof.Gen.Kernel.Launch
import proofs.«127055_j20289425507095_2_alg».proof.Proof.Gen.Kernel.Skeleton
import proofs.«127055_j20289425507095_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«127055_j20289425507095_2_alg».proof.Proof.K.Dats
import proofs.«127055_j20289425507095_2_alg».proof.Proof.K.Tiles

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Spec Cert.LibWholeStore

variable (m : (ℓ : Loc nD τ sig) → Buf (Elt F) ℓ)

/-! ## Idle points and write-backs -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, t.val % 4 = 3 → cfg0.idle 5 (grid0.coords t) = false := by decide +kernel
theorem idleAt0_5 : ∀ t : Fin cfg0.N, ¬t.val % 4 = 3 → cfg0.idle 5 (grid0.coords t) = true := by decide +kernel
theorem noFlush0_5 : ∀ t : Fin cfg0.N, ¬t.val % 4 = 3 → (cfg0.win 5).flush t = false := by decide +kernel

/-! ## The staging memrefs the pipeline passes the body at a point -/

abbrev ms0 (t : Fin cfg0.N) : Memref sig .tc .vmem S1x1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024x256 .f32 := win0_5.stage (cfg0.slots t 5)
abbrev hs5 (t : Fin cfg0.N) : (ms5 t).IsWhole := hstage0_5 ((cfg0.slots t 5).cast nbuf0_5)

/-! ## Each input window's current buffer holds its block -/

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)

/-! ## The blocks at a point, by position -/

theorem XQ_val (c : Dev nD) (t : Fin cfg0.N) : XQ m c t.val = iblk m c 0 t := by unfold XQ; rw [pt_val]
theorem XK_val (c : Dev nD) (t : Fin cfg0.N) : XK m c t.val = iblk m c 1 t := by unfold XK; rw [pt_val]
theorem WQ_val (c : Dev nD) (t : Fin cfg0.N) : WQ m c t.val = iblk m c 2 t := by unfold WQ; rw [pt_val]
theorem WK_val (c : Dev nD) (t : Fin cfg0.N) : WK m c t.val = iblk m c 3 t := by unfold WK; rw [pt_val]
theorem WV_val (c : Dev nD) (t : Fin cfg0.N) : WV m c t.val = iblk m c 4 t := by unfold WV; rw [pt_val]

theorem KT_val (c : Dev nD) (t : Fin cfg0.N) : KT m c t.val = kTile (iblk m c 1 t) (iblk m c 3 t) := by
  unfold KT; rw [XK_val, WK_val]
theorem VT_val (c : Dev nD) (t : Fin cfg0.N) : VT m c t.val = vTile (iblk m c 1 t) (iblk m c 4 t) := by
  unfold VT; rw [XK_val, WV_val]

/-! ## Positions -/

/-- At a batch's first query tile the point projects its own key tile. -/
theorem kvPt_self (n : ℕ) (hq : (n / 4) % 4 = 0) : kvPt n (n % 4) = n := by unfold kvPt; omega

/-- The state after a row's first key tile, from the tiles the body used. -/
theorem ST_of_fresh (c : Dev nD) (n : ℕ) (h0 : n % 4 = 0) (kt vt : Vec F S1024x256 .bf16)
    (hkt : kt = KT m c (kvPt n (n % 4))) (hvt : vt = VT m c (kvPt n (n % 4))) :
    stepSt kt vt (freshSt (XQ m c n) (WQ m c n)) = ST m c n := by
  rw [ST_first m c n h0, hkt, hvt, h0]

/-- The state after a later key tile, from the tiles the body used and the state the point before left. -/
theorem ST_of_prev (c : Dev nD) (n : ℕ) (h0 : n % 4 ≠ 0) (kt vt : Vec F S1024x256 .bf16) (s0 : OSt F)
    (hkt : kt = KT m c (kvPt n (n % 4))) (hvt : vt = VT m c (kvPt n (n % 4))) (hs : s0 = ST m c (n - 1)) :
    stepSt kt vt s0 = ST m c n := by
  rw [ST_next m c n h0, hkt, hvt, hs]

/-- The body's load of the current key tile's rows of a cache is that tile. -/
theorem ld_off2 (t : Fin cfg0.N) (x : Vec F S4096x256 .bf16) :
    View.ld x (Rect.unit (s := S4096x256) (k0_off2 (grid0.coords t)) S1024x256.size (k0_off2_inb (grid0.coords t)))
      = tile x (t.val % 4) (Nat.mod_lt _ (by decide)) :=
  ld_unit_congr x (off2_eq t) _ _

/-- Past a batch's first query tile every key tile of the batch is in the caches (from the point before). -/
theorem tiles_later (c : Dev nD) (n : ℕ) (hn : n ≠ 0) (hq : (n / 4) % 4 ≠ 0)
    (d9 : Vec F S1024x256 .f32) (d10 d11 : Vec F S4096x256 .bf16) (d12 d13 : Vec F S1024x1 .f32) (d14 : Vec F S1024x256 .f32)
    (hInv : Inv m c (n - 1) d9 d10 d11 d12 d13 d14) (j : ℕ) (hj : j < 4) :
    tile d10 j hj = KT m c (kvPt n j) ∧ tile d11 j hj = VT m c (kvPt n j) := by
  have h := hInv.2.2.2.2 j hj (fun h0 => by omega)
  rwa [show kvPt (n - 1) j = kvPt n j from by unfold kvPt; omega] at h

/-- During a batch's first query tile the key tiles before the current one are in the caches (from the point before). -/
theorem tiles_earlier (c : Dev nD) (n : ℕ) (hk : n % 4 ≠ 0)
    (d9 : Vec F S1024x256 .f32) (d10 d11 : Vec F S4096x256 .bf16) (d12 d13 : Vec F S1024x1 .f32) (d14 : Vec F S1024x256 .f32)
    (hInv : Inv m c (n - 1) d9 d10 d11 d12 d13 d14) (j : ℕ) (hj : j < 4) (hlt : j < n % 4) :
    tile d10 j hj = KT m c (kvPt n j) ∧ tile d11 j hj = VT m c (kvPt n j) := by
  have h := hInv.2.2.2.2 j hj (fun h0 => by omega)
  rwa [show kvPt (n - 1) j = kvPt n j from by unfold kvPt; omega] at h

/-- The state the scratches held, named by the invariant of the point before. -/
theorem prev_state (c : Dev nD) (n : ℕ)
    (d9 : Vec F S1024x256 .f32) (d10 d11 : Vec F S4096x256 .bf16) (d12 d13 : Vec F S1024x1 .f32) (d14 : Vec F S1024x256 .f32)
    (hInv : Inv m c (n - 1) d9 d10 d11 d12 d13 d14) : (⟨d9, d12, d13, d14⟩ : OSt F) = ST m c (n - 1) := by
  obtain ⟨h9, h12, h13, h14, -⟩ := hInv
  rw [h9, h12, h13, h14]

end Cert.Kernel.Body

end
-- ==== Proof.K.InvStep.lean ====
/-
  One point's step of the invariant, in the four situations the grid meets: the batch's first query tile or a later
  one, crossed with the row's first key tile or a later one. Given what the body left in the buffers it stored into
  (as the case-by-case runs state it), the facts known of the scratch contents after the point before become the
  facts after this point, and the value the body would store into the output block is the row's accumulator over
  sum.
-/
import proofs.«127055_j20289425507095_2_alg».proof.Proof.Gen.Kernel.Launch
import proofs.«127055_j20289425507095_2_alg».proof.Proof.Gen.Kernel.Skeleton
import proofs.«127055_j20289425507095_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«127055_j20289425507095_2_alg».proof.Proof.K.Sched

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Spec Cert.LibWholeStore

variable (m : (ℓ : Loc nD τ sig) → Buf (Elt F) ℓ)

/-- A later query tile, a later key tile: the tiles come from the caches, the state from the point before. -/
theorem inv_later_next (c : Dev nD) (t : Fin cfg0.N) (hq : (t.val / 4) % 4 ≠ 0) (hk0 : t.val % 4 ≠ 0)
    (d9 : Vec F S1024x256 .f32) (d10 d11 : Vec F S4096x256 .bf16) (d12 d13 : Vec F S1024x1 .f32) (d14 : Vec F S1024x256 .f32) (hInv : t.val ≠ 0 → Inv m c (t.val - 1) d9 d10 d11 d12 d13 d14)
    (n12 n13 : Vec F S1024x1 .f32) (n14 : Vec F S1024x256 .f32)
    (h12 : n12 = (stepSt (View.ld d10 (Rect.unit (s := S4096x256) (k0_off2 (grid0.coords t)) S1024x256.size (k0_off2_inb (grid0.coords t)))) (View.ld d11 (Rect.unit (s := S4096x256) (k0_off2 (grid0.coords t)) S1024x256.size (k0_off2_inb (grid0.coords t)))) (⟨d9, d12, d13, d14⟩ : OSt F)).mx)
    (h13 : n13 = (stepSt (View.ld d10 (Rect.unit (s := S4096x256) (k0_off2 (grid0.coords t)) S1024x256.size (k0_off2_inb (grid0.coords t)))) (View.ld d11 (Rect.unit (s := S4096x256) (k0_off2 (grid0.coords t)) S1024x256.size (k0_off2_inb (grid0.coords t)))) (⟨d9, d12, d13, d14⟩ : OSt F)).l)
    (h14 : n14 = (stepSt (View.ld d10 (Rect.unit (s := S4096x256) (k0_off2 (grid0.coords t)) S1024x256.size (k0_off2_inb (grid0.coords t)))) (View.ld d11 (Rect.unit (s := S4096x256) (k0_off2 (grid0.coords t)) S1024x256.size (k0_off2_inb (grid0.coords t)))) (⟨d9, d12, d13, d14⟩ : OSt F)).acc) :
    Inv m c t.val d9 d10 d11 n12 n13 n14
      ∧ outOf (stepSt (View.ld d10 (Rect.unit (s := S4096x256) (k0_off2 (grid0.coords t)) S1024x256.size (k0_off2_inb (grid0.coords t)))) (View.ld d11 (Rect.unit (s := S4096x256) (k0_off2 (grid0.coords t)) S1024x256.size (k0_off2_inb (grid0.coords t)))) (⟨d9, d12, d13, d14⟩ : OSt F)) = OUT m c t.val := by
  have hn0 : t.val ≠ 0 := by omega
  have hI := hInv hn0
  have hkv := tiles_later m c t.val hn0 hq d9 d10 d11 d12 d13 d14 hI (t.val % 4) (Nat.mod_lt _ (by decide))
  have hST := ST_of_prev m c t.val hk0 _ _ _ ((ld_off2 t d10).trans hkv.1) ((ld_off2 t d11).trans hkv.2)
    (prev_state m c t.val d9 d10 d11 d12 d13 d14 hI)
  refine ⟨⟨?_, by rw [h12, hST], by rw [h13, hST], by rw [h14, hST],
    fun j hj _ => tiles_later m c t.val hn0 hq d9 d10 d11 d12 d13 d14 hI j hj⟩, by rw [hST]; rfl⟩
  rw [← hST]; rfl

/-- A later query tile, the row's first key tile: the tiles come from the caches, the state is fresh. -/
theorem inv_later_first (c : Dev nD) (t : Fin cfg0.N) (hq : (t.val / 4) % 4 ≠ 0) (hk0 : t.val % 4 = 0)
    (d9 : Vec F S1024x256 .f32) (d10 d11 : Vec F S4096x256 .bf16) (d12 d13 : Vec F S1024x1 .f32) (d14 : Vec F S1024x256 .f32) (hInv : t.val ≠ 0 → Inv m c (t.val - 1) d9 d10 d11 d12 d13 d14)
    (n9 : Vec F S1024x256 .f32) (n12 n13 : Vec F S1024x1 .f32) (n14 : Vec F S1024x256 .f32)
    (h9 : n9 = (freshSt (iblk m c 0 t) (iblk m c 2 t)).q)
    (h12 : n12 = (stepSt (View.ld d10 (Rect.unit (s := S4096x256) (k0_off2 (grid0.coords t)) S1024x256.size (k0_off2_inb (grid0.coords t)))) (View.ld d11 (Rect.unit (s := S4096x256) (k0_off2 (grid0.coords t)) S1024x256.size (k0_off2_inb (grid0.coords t)))) (freshSt (iblk m c 0 t) (iblk m c 2 t))).mx)
    (h13 : n13 = (stepSt (View.ld d10 (Rect.unit (s := S4096x256) (k0_off2 (grid0.coords t)) S1024x256.size (k0_off2_inb (grid0.coords t)))) (View.ld d11 (Rect.unit (s := S4096x256) (k0_off2 (grid0.coords t)) S1024x256.size (k0_off2_inb (grid0.coords t)))) (freshSt (iblk m c 0 t) (iblk m c 2 t))).l)
    (h14 : n14 = (stepSt (View.ld d10 (Rect.unit (s := S4096x256) (k0_off2 (grid0.coords t)) S1024x256.size (k0_off2_inb (grid0.coords t)))) (View.ld d11 (Rect.unit (s := S4096x256) (k0_off2 (grid0.coords t)) S1024x256.size (k0_off2_inb (grid0.coords t)))) (freshSt (iblk m c 0 t) (iblk m c 2 t))).acc) :
    Inv m c t.val n9 d10 d11 n12 n13 n14 := by
  have hn0 : t.val ≠ 0 := by omega
  have hI := hInv hn0
  have hkv := tiles_later m c t.val hn0 hq d9 d10 d11 d12 d13 d14 hI (t.val % 4) (Nat.mod_lt _ (by decide))
  have hST := ST_of_fresh m c t.val hk0 _ _ ((ld_off2 t d10).trans hkv.1) ((ld_off2 t d11).trans hkv.2)
  rw [XQ_val, WQ_val] at hST
  refine ⟨?_, by rw [h12, hST], by rw [h13, hST], by rw [h14, hST],
    fun j hj _ => tiles_later m c t.val hn0 hq d9 d10 d11 d12 d13 d14 hI j hj⟩
  rw [h9, ← hST]; rfl

/-- The batch's first query tile, a later key tile: the tiles are the ones just projected and stored, the state
    comes from the point before, and the caches gain the current tile. -/
theorem inv_first_next (c : Dev nD) (t : Fin cfg0.N) (hq : (t.val / 4) % 4 = 0) (hk0 : t.val % 4 ≠ 0)
    (hc1 : condQi0 (grid0.coords t))
    (d9 : Vec F S1024x256 .f32) (d10 d11 : Vec F S4096x256 .bf16) (d12 d13 : Vec F S1024x1 .f32) (d14 : Vec F S1024x256 .f32) (hInv : t.val ≠ 0 → Inv m c (t.val - 1) d9 d10 d11 d12 d13 d14)
    (n10 n11 : Vec F S4096x256 .bf16) (n12 n13 : Vec F S1024x1 .f32) (n14 : Vec F S1024x256 .f32)
    (h10 : n10 = (scK : Memref sig .tc .vmem S4096x256 .bf16).view.read (Elt F) ((scK : Memref sig .tc .vmem S4096x256 .bf16).view.writes (Elt F) ((Memref.isWhole_whole cc0_scratch1).unread d10) [(⟨Rect.unit (s := S4096x256) (k0_off1 (grid0.coords t)) S1024x256.size (k0_off1_inb (grid0.coords t) hc1), kTile (iblk m c 1 t) (iblk m c 3 t)⟩ : View.Piece (Elt F) S4096x256 .bf16)]))
    (h11 : n11 = (scV : Memref sig .tc .vmem S4096x256 .bf16).view.read (Elt F) ((scV : Memref sig .tc .vmem S4096x256 .bf16).view.writes (Elt F) ((Memref.isWhole_whole cc0_scratch2).unread d11) [(⟨Rect.unit (s := S4096x256) (k0_off1 (grid0.coords t)) S1024x256.size (k0_off1_inb (grid0.coords t) hc1), vTile (iblk m c 1 t) (iblk m c 4 t)⟩ : View.Piece (Elt F) S4096x256 .bf16)]))
    (h12 : n12 = (stepSt (kTile (iblk m c 1 t) (iblk m c 3 t)) (vTile (iblk m c 1 t) (iblk m c 4 t)) (⟨d9, d12, d13, d14⟩ : OSt F)).mx)
    (h13 : n13 = (stepSt (kTile (iblk m c 1 t) (iblk m c 3 t)) (vTile (iblk m c 1 t) (iblk m c 4 t)) (⟨d9, d12, d13, d14⟩ : OSt F)).l)
    (h14 : n14 = (stepSt (kTile (iblk m c 1 t) (iblk m c 3 t)) (vTile (iblk m c 1 t) (iblk m c 4 t)) (⟨d9, d12, d13, d14⟩ : OSt F)).acc) :
    Inv m c t.val d9 n10 n11 n12 n13 n14
      ∧ outOf (stepSt (kTile (iblk m c 1 t) (iblk m c 3 t)) (vTile (iblk m c 1 t) (iblk m c 4 t)) (⟨d9, d12, d13, d14⟩ : OSt F)) = OUT m c t.val := by
  have hn0 : t.val ≠ 0 := by omega
  have hI := hInv hn0
  have hself := kvPt_self t.val hq
  have hkt : kTile (iblk m c 1 t) (iblk m c 3 t) = KT m c (kvPt t.val (t.val % 4)) := by rw [hself, KT_val]
  have hvt : vTile (iblk m c 1 t) (iblk m c 4 t) = VT m c (kvPt t.val (t.val % 4)) := by rw [hself, VT_val]
  have hST := ST_of_prev m c t.val hk0 _ _ _ hkt hvt (prev_state m c t.val d9 d10 d11 d12 d13 d14 hI)
  refine ⟨⟨?_, by rw [h12, hST], by rw [h13, hST], by rw [h14, hST], fun j hj hle => ?_⟩, by rw [hST]; rfl⟩
  · rw [← hST]; rfl
  · have hle' := hle hq
    by_cases hjk : j = t.val % 4
    · subst hjk
      exact ⟨by rw [h10, tile_store_same _ _ _ _ _ _ _ _ (off1_eq t), hkt], by rw [h11, tile_store_same _ _ _ _ _ _ _ _ (off1_eq t), hvt]⟩
    · have hlt : j < t.val % 4 := by omega
      have hp := tiles_earlier m c t.val hk0 d9 d10 d11 d12 d13 d14 hI j hj hlt
      exact ⟨by rw [h10, tile_store_other _ _ _ _ _ _ _ (off1_eq t) j hj hjk, hp.1], by rw [h11, tile_store_other _ _ _ _ _ _ _ (off1_eq t) j hj hjk, hp.2]⟩

/-- The batch's first query tile, the row's first key tile: the tiles are the ones just projected and stored, the
    state is fresh, and of the caches only the current tile is known. Nothing is assumed of the point before. -/
theorem inv_first_first (c : Dev nD) (t : Fin cfg0.N) (hq : (t.val / 4) % 4 = 0) (hk0 : t.val % 4 = 0)
    (hc1 : condQi0 (grid0.coords t))
    (d10 d11 : Vec F S4096x256 .bf16)
    (n9 : Vec F S1024x256 .f32) (n10 n11 : Vec F S4096x256 .bf16) (n12 n13 : Vec F S1024x1 .f32) (n14 : Vec F S1024x256 .f32)
    (h9 : n9 = (freshSt (iblk m c 0 t) (iblk m c 2 t)).q)
    (h10 : n10 = (scK : Memref sig .tc .vmem S4096x256 .bf16).view.read (Elt F) ((scK : Memref sig .tc .vmem S4096x256 .bf16).view.writes (Elt F) ((Memref.isWhole_whole cc0_scratch1).unread d10) [(⟨Rect.unit (s := S4096x256) (k0_off1 (grid0.coords t)) S1024x256.size (k0_off1_inb (grid0.coords t) hc1), kTile (iblk m c 1 t) (iblk m c 3 t)⟩ : View.Piece (Elt F) S4096x256 .bf16)]))
    (h11 : n11 = (scV : Memref sig .tc .vmem S4096x256 .bf16).view.read (Elt F) ((scV : Memref sig .tc .vmem S4096x256 .bf16).view.writes (Elt F) ((Memref.isWhole_whole cc0_scratch2).unread d11) [(⟨Rect.unit (s := S4096x256) (k0_off1 (grid0.coords t)) S1024x256.size (k0_off1_inb (grid0.coords t) hc1), vTile (iblk m c 1 t) (iblk m c 4 t)⟩ : View.Piece (Elt F) S4096x256 .bf16)]))
    (h12 : n12 = (stepSt (kTile (iblk m c 1 t) (iblk m c 3 t)) (vTile (iblk m c 1 t) (iblk m c 4 t)) (freshSt (iblk m c 0 t) (iblk m c 2 t))).mx)
    (h13 : n13 = (stepSt (kTile (iblk m c 1 t) (iblk m c 3 t)) (vTile (iblk m c 1 t) (iblk m c 4 t)) (freshSt (iblk m c 0 t) (iblk m c 2 t))).l)
    (h14 : n14 = (stepSt (kTile (iblk m c 1 t) (iblk m c 3 t)) (vTile (iblk m c 1 t) (iblk m c 4 t)) (freshSt (iblk m c 0 t) (iblk m c 2 t))).acc) :
    Inv m c t.val n9 n10 n11 n12 n13 n14 := by
  have hself := kvPt_self t.val hq
  have hkt : kTile (iblk m c 1 t) (iblk m c 3 t) = KT m c (kvPt t.val (t.val % 4)) := by rw [hself, KT_val]
  have hvt : vTile (iblk m c 1 t) (iblk m c 4 t) = VT m c (kvPt t.val (t.val % 4)) := by rw [hself, VT_val]
  have hST := ST_of_fresh m c t.val hk0 _ _ hkt hvt
  rw [XQ_val, WQ_val] at hST
  refine ⟨?_, by rw [h12, hST], by rw [h13, hST], by rw [h14, hST], fun j hj hle => ?_⟩
  · rw [h9, ← hST]; rfl
  · have hle' := hle hq
    have hjk : j = t.val % 4 := by omega
    subst hjk
    exact ⟨by rw [h10, tile_store_same _ _ _ _ _ _ _ _ (off1_eq t), hkt], by rw [h11, tile_store_same _ _ _ _ _ _ _ _ (off1_eq t), hvt]⟩

end Cert.Kernel.Body

end
-- ==== Proof.K.Body.lean ====
/-
  The body obligation: at every grid point, from the invariant, the five input windows' buffers at their blocks
  and the output window's buffer at whatever it holds, the kernel body runs to the invariant of the next point, the
  inputs' buffers as they were, and the output's buffer at the row's accumulator over sum where the row ends, and
  untouched elsewhere. The point's position decides which of the six control cases it is; that case's run applies,
  and the invariant's step for the case gives the facts about the new scratch contents.
-/
import proofs.«127055_j20289425507095_2_alg».proof.Proof.Gen.Kernel.Launch
import proofs.«127055_j20289425507095_2_alg».proof.Proof.Gen.Kernel.Skeleton
import proofs.«127055_j20289425507095_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«127055_j20289425507095_2_alg».proof.Proof.K.Steps
import proofs.«127055_j20289425507095_2_alg».proof.Proof.K.InvStep

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Spec Cert.LibWholeStore

variable (m : (ℓ : Loc nD τ sig) → Buf (Elt F) ℓ)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [Phi_eq, Phi_eq, Fin.coe_castSucc, Fin.val_succ]
  rw [show (dats m 0 c).leavesExact 0 t = owns (c : Thread nD τ) (ms0 t) fullShare ((dats m 0 c).after 0 t) from by
    unfold Dat.leavesExact; rw [liveAt0_0 t], after0_0]
  rw [show (dats m 0 c).leavesExact 1 t = owns (c : Thread nD τ) (ms1 t) fullShare ((dats m 0 c).after 1 t) from by
    unfold Dat.leavesExact; rw [liveAt0_1 t], after0_1]
  rw [show (dats m 0 c).leavesExact 2 t = owns (c : Thread nD τ) (ms2 t) fullShare ((dats m 0 c).after 2 t) from by
    unfold Dat.leavesExact; rw [liveAt0_2 t], after0_2]
  rw [show (dats m 0 c).leavesExact 3 t = owns (c : Thread nD τ) (ms3 t) fullShare ((dats m 0 c).after 3 t) from by
    unfold Dat.leavesExact; rw [liveAt0_3 t], after0_3]
  rw [show (dats m 0 c).leavesExact 4 t = owns (c : Thread nD τ) (ms4 t) fullShare ((dats m 0 c).after 4 t) from by
    unfold Dat.leavesExact; rw [liveAt0_4 t], after0_4]
  have hN := val_lt t
  unfold PhiS
  by_cases hq : (t.val / 4) % 4 = 0
  · by_cases hk0 : t.val % 4 = 0
    · have hk3 : ¬t.val % 4 = 3 := by omega
      rw [Dat.leavesExact_idle (dats m 0 c) 5 t (idleAt0_5 t hk3) (noFlush0_5 t hk3)]
      iintro ⟨⟨%d9, %d10, %d11, %d12, %d13, %d14, %hInv, HS9, HS10, HS11, HS12, HS13, HS14⟩, Ho, ⟨%e0, H0⟩, ⟨%e1, H1⟩, ⟨%e2, H2⟩, ⟨%e3, H3⟩, ⟨%e4, H4⟩, ⟨%e5, H5⟩⟩
      have hc1 : condQi0 (grid0.coords t) := (hcondQi0 t).mpr hq
      have hc2 : condKi0 (grid0.coords t) := (hcondKi0 t).mpr hk0
      have hc3 : ¬condKi3 (grid0.coords t) := fun h => hk3 ((hcondKi3 t).mp h)
      obtain ⟨h9, h10, h11, h12, h13, h14⟩ := runA_leaves c (grid0.coords t) (ms0 t) (hs0 t) (ms1 t) (hs1 t) (ms2 t) (hs2 t) (ms3 t) (hs3 t) (ms4 t) (hs4 t) (ms5 t) (hs5 t) scQ (Memref.isWhole_whole _) scK (Memref.isWhole_whole _) scV (Memref.isWhole_whole _) scM (Memref.isWhole_whole _) scL (Memref.isWhole_whole _) scA (Memref.isWhole_whole _) hc1 hc2 hc3 (iblk m c 0 t) (iblk m c 1 t) (iblk m c 2 t) (iblk m c 3 t) (iblk m c 4 t) ((dats m 0 c).before 5 t e5) d9 d10 d11 d12 d13 d14
      have hstep := inv_first_first m c t hq hk0 hc1 d10 d11 _ _ _ _ _ _ h9 h10 h11 h12 h13 h14
      iapply ((runA c (grid0.coords t) (ms0 t) (hs0 t) (ms1 t) (hs1 t) (ms2 t) (hs2 t) (ms3 t) (hs3 t) (ms4 t) (hs4 t) (ms5 t) (hs5 t) scQ (Memref.isWhole_whole _) scK (Memref.isWhole_whole _) scV (Memref.isWhole_whole _) scM (Memref.isWhole_whole _) scL (Memref.isWhole_whole _) scA (Memref.isWhole_whole _) hc1 hc2 hc3 (iblk m c 0 t) (iblk m c 1 t) (iblk m c 2 t) (iblk m c 3 t) (iblk m c 4 t) ((dats m 0 c).before 5 t e5) d9 d10 d11 d12 d13 d14).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [HS9]; · iexact HS9
      isplitl [HS10]; · iexact HS10
      isplitl [HS11]; · iexact HS11
      isplitl [HS12]; · iexact HS12
      isplitl [HS13]; · iexact HS13
      isplitl [HS14]; · iexact HS14
      iintro ⟨H0, H1, H2, H3, H4, H5, HS9, HS10, HS11, HS12, HS13, HS14⟩
      isplitl [HS9 HS10 HS11 HS12 HS13 HS14]
      · iexists _; iexists _; iexists _; iexists _; iexists _; iexists _
        isplitr; swap
        · isplitl [HS9]; · iexact HS9
          isplitl [HS10]; · iexact HS10
          isplitl [HS11]; · iexact HS11
          isplitl [HS12]; · iexact HS12
          isplitl [HS13]; · iexact HS13
          iexact HS14
        ipureintro; intro _; rw [Nat.add_sub_cancel]; exact hstep
      isplitl [Ho]; · iexact Ho
      isplitl [H0]; · iexact H0
      isplitl [H1]; · iexact H1
      isplitl [H2]; · iexact H2
      isplitl [H3]; · iexact H3
      isplitl [H4]; · iexact H4
      iexists _; iexact H5
    · by_cases hk3 : t.val % 4 = 3
      ·
        rw [show (dats m 0 c).leavesExact 5 t = owns (c : Thread nD τ) (ms5 t) fullShare ((dats m 0 c).after 5 t) from by
          unfold Dat.leavesExact; rw [liveAt0_5 t hk3], after0_5]
        iintro ⟨⟨%d9, %d10, %d11, %d12, %d13, %d14, %hInv, HS9, HS10, HS11, HS12, HS13, HS14⟩, Ho, ⟨%e0, H0⟩, ⟨%e1, H1⟩, ⟨%e2, H2⟩, ⟨%e3, H3⟩, ⟨%e4, H4⟩, ⟨%e5, H5⟩⟩
        have hc1 : condQi0 (grid0.coords t) := (hcondQi0 t).mpr hq
        have hc2 : ¬condKi0 (grid0.coords t) := fun h => hk0 ((hcondKi0 t).mp h)
        have hc3 : condKi3 (grid0.coords t) := (hcondKi3 t).mpr hk3
        obtain ⟨h8, h10, h11, h12, h13, h14⟩ := runC_leaves c (grid0.coords t) (ms0 t) (hs0 t) (ms1 t) (hs1 t) (ms2 t) (hs2 t) (ms3 t) (hs3 t) (ms4 t) (hs4 t) (ms5 t) (hs5 t) scQ (Memref.isWhole_whole _) scK (Memref.isWhole_whole _) scV (Memref.isWhole_whole _) scM (Memref.isWhole_whole _) scL (Memref.isWhole_whole _) scA (Memref.isWhole_whole _) hc1 hc2 hc3 (iblk m c 0 t) (iblk m c 1 t) (iblk m c 2 t) (iblk m c 3 t) (iblk m c 4 t) ((dats m 0 c).before 5 t e5) d9 d10 d11 d12 d13 d14
        have hstep := inv_first_next m c t hq hk0 hc1 d9 d10 d11 d12 d13 d14 hInv _ _ _ _ _ h10 h11 h12 h13 h14
        iapply ((runC c (grid0.coords t) (ms0 t) (hs0 t) (ms1 t) (hs1 t) (ms2 t) (hs2 t) (ms3 t) (hs3 t) (ms4 t) (hs4 t) (ms5 t) (hs5 t) scQ (Memref.isWhole_whole _) scK (Memref.isWhole_whole _) scV (Memref.isWhole_whole _) scM (Memref.isWhole_whole _) scL (Memref.isWhole_whole _) scA (Memref.isWhole_whole _) hc1 hc2 hc3 (iblk m c 0 t) (iblk m c 1 t) (iblk m c 2 t) (iblk m c 3 t) (iblk m c 4 t) ((dats m 0 c).before 5 t e5) d9 d10 d11 d12 d13 d14).2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [HS9]; · iexact HS9
        isplitl [HS10]; · iexact HS10
        isplitl [HS11]; · iexact HS11
        isplitl [HS12]; · iexact HS12
        isplitl [HS13]; · iexact HS13
        isplitl [HS14]; · iexact HS14
        iintro ⟨H0, H1, H2, H3, H4, H5, HS9, HS10, HS11, HS12, HS13, HS14⟩
        isplitl [HS9 HS10 HS11 HS12 HS13 HS14]
        · iexists _; iexists _; iexists _; iexists _; iexists _; iexists _
          isplitr; swap
          · isplitl [HS9]; · iexact HS9
            isplitl [HS10]; · iexact HS10
            isplitl [HS11]; · iexact HS11
            isplitl [HS12]; · iexact HS12
            isplitl [HS13]; · iexact HS13
            iexact HS14
          ipureintro; intro _; rw [Nat.add_sub_cancel]; exact hstep.1
        isplitl [Ho]; · iexact Ho
        isplitl [H0]; · iexact H0
        isplitl [H1]; · iexact H1
        isplitl [H2]; · iexact H2
        isplitl [H3]; · iexact H3
        isplitl [H4]; · iexact H4
        rw [← hstep.2, ← h8]
        iexact H5
      ·
        rw [Dat.leavesExact_idle (dats m 0 c) 5 t (idleAt0_5 t hk3) (noFlush0_5 t hk3)]
        iintro ⟨⟨%d9, %d10, %d11, %d12, %d13, %d14, %hInv, HS9, HS10, HS11, HS12, HS13, HS14⟩, Ho, ⟨%e0, H0⟩, ⟨%e1, H1⟩, ⟨%e2, H2⟩, ⟨%e3, H3⟩, ⟨%e4, H4⟩, ⟨%e5, H5⟩⟩
        have hc1 : condQi0 (grid0.coords t) := (hcondQi0 t).mpr hq
        have hc2 : ¬condKi0 (grid0.coords t) := fun h => hk0 ((hcondKi0 t).mp h)
        have hc3 : ¬condKi3 (grid0.coords t) := fun h => hk3 ((hcondKi3 t).mp h)
        obtain ⟨h10, h11, h12, h13, h14⟩ := runB_leaves c (grid0.coords t) (ms0 t) (hs0 t) (ms1 t) (hs1 t) (ms2 t) (hs2 t) (ms3 t) (hs3 t) (ms4 t) (hs4 t) (ms5 t) (hs5 t) scQ (Memref.isWhole_whole _) scK (Memref.isWhole_whole _) scV (Memref.isWhole_whole _) scM (Memref.isWhole_whole _) scL (Memref.isWhole_whole _) scA (Memref.isWhole_whole _) hc1 hc2 hc3 (iblk m c 0 t) (iblk m c 1 t) (iblk m c 2 t) (iblk m c 3 t) (iblk m c 4 t) ((dats m 0 c).before 5 t e5) d9 d10 d11 d12 d13 d14
        have hstep := inv_first_next m c t hq hk0 hc1 d9 d10 d11 d12 d13 d14 hInv _ _ _ _ _ h10 h11 h12 h13 h14
        iapply ((runB c (grid0.coords t) (ms0 t) (hs0 t) (ms1 t) (hs1 t) (ms2 t) (hs2 t) (ms3 t) (hs3 t) (ms4 t) (hs4 t) (ms5 t) (hs5 t) scQ (Memref.isWhole_whole _) scK (Memref.isWhole_whole _) scV (Memref.isWhole_whole _) scM (Memref.isWhole_whole _) scL (Memref.isWhole_whole _) scA (Memref.isWhole_whole _) hc1 hc2 hc3 (iblk m c 0 t) (iblk m c 1 t) (iblk m c 2 t) (iblk m c 3 t) (iblk m c 4 t) ((dats m 0 c).before 5 t e5) d9 d10 d11 d12 d13 d14).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [HS9]; · iexact HS9
        isplitl [HS10]; · iexact HS10
        isplitl [HS11]; · iexact HS11
        isplitl [HS12]; · iexact HS12
        isplitl [HS13]; · iexact HS13
        isplitl [HS14]; · iexact HS14
        iintro ⟨H0, H1, H2, H3, H4, H5, HS9, HS10, HS11, HS12, HS13, HS14⟩
        isplitl [HS9 HS10 HS11 HS12 HS13 HS14]
        · iexists _; iexists _; iexists _; iexists _; iexists _; iexists _
          isplitr; swap
          · isplitl [HS9]; · iexact HS9
            isplitl [HS10]; · iexact HS10
            isplitl [HS11]; · iexact HS11
            isplitl [HS12]; · iexact HS12
            isplitl [HS13]; · iexact HS13
            iexact HS14
          ipureintro; intro _; rw [Nat.add_sub_cancel]; exact hstep.1
        isplitl [Ho]; · iexact Ho
        isplitl [H0]; · iexact H0
        isplitl [H1]; · iexact H1
        isplitl [H2]; · iexact H2
        isplitl [H3]; · iexact H3
        isplitl [H4]; · iexact H4
        iexists _; iexact H5
  · by_cases hk0 : t.val % 4 = 0
    · have hk3 : ¬t.val % 4 = 3 := by omega
      rw [Dat.leavesExact_idle (dats m 0 c) 5 t (idleAt0_5 t hk3) (noFlush0_5 t hk3)]
      iintro ⟨⟨%d9, %d10, %d11, %d12, %d13, %d14, %hInv, HS9, HS10, HS11, HS12, HS13, HS14⟩, Ho, ⟨%e0, H0⟩, ⟨%e1, H1⟩, ⟨%e2, H2⟩, ⟨%e3, H3⟩, ⟨%e4, H4⟩, ⟨%e5, H5⟩⟩
      have hc1 : ¬condQi0 (grid0.coords t) := fun h => hq ((hcondQi0 t).mp h)
      have hc2 : condKi0 (grid0.coords t) := (hcondKi0 t).mpr hk0
      have hc3 : ¬condKi3 (grid0.coords t) := fun h => hk3 ((hcondKi3 t).mp h)
      obtain ⟨h9, h12, h13, h14⟩ := runD_leaves c (grid0.coords t) (ms0 t) (hs0 t) (ms1 t) (hs1 t) (ms2 t) (hs2 t) (ms3 t) (hs3 t) (ms4 t) (hs4 t) (ms5 t) (hs5 t) scQ (Memref.isWhole_whole _) scK (Memref.isWhole_whole _) scV (Memref.isWhole_whole _) scM (Memref.isWhole_whole _) scL (Memref.isWhole_whole _) scA (Memref.isWhole_whole _) hc1 hc2 hc3 (iblk m c 0 t) (iblk m c 1 t) (iblk m c 2 t) (iblk m c 3 t) (iblk m c 4 t) ((dats m 0 c).before 5 t e5) d9 d10 d11 d12 d13 d14
      have hstep := inv_later_first m c t hq hk0 d9 d10 d11 d12 d13 d14 hInv _ _ _ _ h9 h12 h13 h14
      iapply ((runD c (grid0.coords t) (ms0 t) (hs0 t) (ms1 t) (hs1 t) (ms2 t) (hs2 t) (ms3 t) (hs3 t) (ms4 t) (hs4 t) (ms5 t) (hs5 t) scQ (Memref.isWhole_whole _) scK (Memref.isWhole_whole _) scV (Memref.isWhole_whole _) scM (Memref.isWhole_whole _) scL (Memref.isWhole_whole _) scA (Memref.isWhole_whole _) hc1 hc2 hc3 (iblk m c 0 t) (iblk m c 1 t) (iblk m c 2 t) (iblk m c 3 t) (iblk m c 4 t) ((dats m 0 c).before 5 t e5) d9 d10 d11 d12 d13 d14).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [HS9]; · iexact HS9
      isplitl [HS10]; · iexact HS10
      isplitl [HS11]; · iexact HS11
      isplitl [HS12]; · iexact HS12
      isplitl [HS13]; · iexact HS13
      isplitl [HS14]; · iexact HS14
      iintro ⟨H0, H1, H2, H3, H4, H5, HS9, HS10, HS11, HS12, HS13, HS14⟩
      isplitl [HS9 HS10 HS11 HS12 HS13 HS14]
      · iexists _; iexists _; iexists _; iexists _; iexists _; iexists _
        isplitr; swap
        · isplitl [HS9]; · iexact HS9
          isplitl [HS10]; · iexact HS10
          isplitl [HS11]; · iexact HS11
          isplitl [HS12]; · iexact HS12
          isplitl [HS13]; · iexact HS13
          iexact HS14
        ipureintro; intro _; rw [Nat.add_sub_cancel]; exact hstep
      isplitl [Ho]; · iexact Ho
      isplitl [H0]; · iexact H0
      isplitl [H1]; · iexact H1
      isplitl [H2]; · iexact H2
      isplitl [H3]; · iexact H3
      isplitl [H4]; · iexact H4
      iexists _; iexact H5
    · by_cases hk3 : t.val % 4 = 3
      ·
        rw [show (dats m 0 c).leavesExact 5 t = owns (c : Thread nD τ) (ms5 t) fullShare ((dats m 0 c).after 5 t) from by
          unfold Dat.leavesExact; rw [liveAt0_5 t hk3], after0_5]
        iintro ⟨⟨%d9, %d10, %d11, %d12, %d13, %d14, %hInv, HS9, HS10, HS11, HS12, HS13, HS14⟩, Ho, ⟨%e0, H0⟩, ⟨%e1, H1⟩, ⟨%e2, H2⟩, ⟨%e3, H3⟩, ⟨%e4, H4⟩, ⟨%e5, H5⟩⟩
        have hc1 : ¬condQi0 (grid0.coords t) := fun h => hq ((hcondQi0 t).mp h)
        have hc2 : ¬condKi0 (grid0.coords t) := fun h => hk0 ((hcondKi0 t).mp h)
        have hc3 : condKi3 (grid0.coords t) := (hcondKi3 t).mpr hk3
        obtain ⟨h8, h12, h13, h14⟩ := runG_leaves c (grid0.coords t) (ms0 t) (hs0 t) (ms1 t) (hs1 t) (ms2 t) (hs2 t) (ms3 t) (hs3 t) (ms4 t) (hs4 t) (ms5 t) (hs5 t) scQ (Memref.isWhole_whole _) scK (Memref.isWhole_whole _) scV (Memref.isWhole_whole _) scM (Memref.isWhole_whole _) scL (Memref.isWhole_whole _) scA (Memref.isWhole_whole _) hc1 hc2 hc3 (iblk m c 0 t) (iblk m c 1 t) (iblk m c 2 t) (iblk m c 3 t) (iblk m c 4 t) ((dats m 0 c).before 5 t e5) d9 d10 d11 d12 d13 d14
        have hstep := inv_later_next m c t hq hk0 d9 d10 d11 d12 d13 d14 hInv _ _ _ h12 h13 h14
        iapply ((runG c (grid0.coords t) (ms0 t) (hs0 t) (ms1 t) (hs1 t) (ms2 t) (hs2 t) (ms3 t) (hs3 t) (ms4 t) (hs4 t) (ms5 t) (hs5 t) scQ (Memref.isWhole_whole _) scK (Memref.isWhole_whole _) scV (Memref.isWhole_whole _) scM (Memref.isWhole_whole _) scL (Memref.isWhole_whole _) scA (Memref.isWhole_whole _) hc1 hc2 hc3 (iblk m c 0 t) (iblk m c 1 t) (iblk m c 2 t) (iblk m c 3 t) (iblk m c 4 t) ((dats m 0 c).before 5 t e5) d9 d10 d11 d12 d13 d14).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [HS9]; · iexact HS9
        isplitl [HS10]; · iexact HS10
        isplitl [HS11]; · iexact HS11
        isplitl [HS12]; · iexact HS12
        isplitl [HS13]; · iexact HS13
        isplitl [HS14]; · iexact HS14
        iintro ⟨H0, H1, H2, H3, H4, H5, HS9, HS10, HS11, HS12, HS13, HS14⟩
        isplitl [HS9 HS10 HS11 HS12 HS13 HS14]
        · iexists _; iexists _; iexists _; iexists _; iexists _; iexists _
          isplitr; swap
          · isplitl [HS9]; · iexact HS9
            isplitl [HS10]; · iexact HS10
            isplitl [HS11]; · iexact HS11
            isplitl [HS12]; · iexact HS12
            isplitl [HS13]; · iexact HS13
            iexact HS14
          ipureintro; intro _; rw [Nat.add_sub_cancel]; exact hstep.1
        isplitl [Ho]; · iexact Ho
        isplitl [H0]; · iexact H0
        isplitl [H1]; · iexact H1
        isplitl [H2]; · iexact H2
        isplitl [H3]; · iexact H3
        isplitl [H4]; · iexact H4
        rw [← hstep.2, ← h8]
        iexact H5
      ·
        rw [Dat.leavesExact_idle (dats m 0 c) 5 t (idleAt0_5 t hk3) (noFlush0_5 t hk3)]
        iintro ⟨⟨%d9, %d10, %d11, %d12, %d13, %d14, %hInv, HS9, HS10, HS11, HS12, HS13, HS14⟩, Ho, ⟨%e0, H0⟩, ⟨%e1, H1⟩, ⟨%e2, H2⟩, ⟨%e3, H3⟩, ⟨%e4, H4⟩, ⟨%e5, H5⟩⟩
        have hc1 : ¬condQi0 (grid0.coords t) := fun h => hq ((hcondQi0 t).mp h)
        have hc2 : ¬condKi0 (grid0.coords t) := fun h => hk0 ((hcondKi0 t).mp h)
        have hc3 : ¬condKi3 (grid0.coords t) := fun h => hk3 ((hcondKi3 t).mp h)
        obtain ⟨h12, h13, h14⟩ := runE_leaves c (grid0.coords t) (ms0 t) (hs0 t) (ms1 t) (hs1 t) (ms2 t) (hs2 t) (ms3 t) (hs3 t) (ms4 t) (hs4 t) (ms5 t) (hs5 t) scQ (Memref.isWhole_whole _) scK (Memref.isWhole_whole _) scV (Memref.isWhole_whole _) scM (Memref.isWhole_whole _) scL (Memref.isWhole_whole _) scA (Memref.isWhole_whole _) hc1 hc2 hc3 (iblk m c 0 t) (iblk m c 1 t) (iblk m c 2 t) (iblk m c 3 t) (iblk m c 4 t) ((dats m 0 c).before 5 t e5) d9 d10 d11 d12 d13 d14
        have hstep := inv_later_next m c t hq hk0 d9 d10 d11 d12 d13 d14 hInv _ _ _ h12 h13 h14
        iapply ((runE c (grid0.coords t) (ms0 t) (hs0 t) (ms1 t) (hs1 t) (ms2 t) (hs2 t) (ms3 t) (hs3 t) (ms4 t) (hs4 t) (ms5 t) (hs5 t) scQ (Memref.isWhole_whole _) scK (Memref.isWhole_whole _) scV (Memref.isWhole_whole _) scM (Memref.isWhole_whole _) scL (Memref.isWhole_whole _) scA (Memref.isWhole_whole _) hc1 hc2 hc3 (iblk m c 0 t) (iblk m c 1 t) (iblk m c 2 t) (iblk m c 3 t) (iblk m c 4 t) ((dats m 0 c).before 5 t e5) d9 d10 d11 d12 d13 d14).2.2.2 Set.univ _)
        isplitl [H0]; · iexact H0
        isplitl [H1]; · iexact H1
        isplitl [H2]; · iexact H2
        isplitl [H3]; · iexact H3
        isplitl [H4]; · iexact H4
        isplitl [H5]; · iexact H5
        isplitl [HS9]; · iexact HS9
        isplitl [HS10]; · iexact HS10
        isplitl [HS11]; · iexact HS11
        isplitl [HS12]; · iexact HS12
        isplitl [HS13]; · iexact HS13
        isplitl [HS14]; · iexact HS14
        iintro ⟨H0, H1, H2, H3, H4, H5, HS9, HS10, HS11, HS12, HS13, HS14⟩
        isplitl [HS9 HS10 HS11 HS12 HS13 HS14]
        · iexists _; iexists _; iexists _; iexists _; iexists _; iexists _
          isplitr; swap
          · isplitl [HS9]; · iexact HS9
            isplitl [HS10]; · iexact HS10
            isplitl [HS11]; · iexact HS11
            isplitl [HS12]; · iexact HS12
            isplitl [HS13]; · iexact HS13
            iexact HS14
          ipureintro; intro _; rw [Nat.add_sub_cancel]; exact hstep.1
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Body

end
-- ==== Proof.K.Launch.lean ====
/-
  The launch of the attention kernel. The program is one pipelined region and the return. Two of the region's
  windows read the same array, so the array's full share is split into its two halves, one for each of the two
  windows; every other array goes to its one window whole. The six scratch buffers are the region's invariant at
  the first point and are given back at the last. After the run each window's array holds what the pipeline's
  write-backs leave in it: the output array the last of them, an input array what it held at entry.
-/
import proofs.«127055_j20289425507095_2_alg».proof.Proof.Gen.Kernel.Launch
import proofs.«127055_j20289425507095_2_alg».proof.Proof.Gen.Kernel.Skeleton
import proofs.«127055_j20289425507095_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«127055_j20289425507095_2_alg».proof.Proof.K.Data
import proofs.«127055_j20289425507095_2_alg».proof.Proof.K.Dats
import Idealize.ShloMosaic.Lib.Pipeline.Launch

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Spec Cert.LibWholeStore

variable (m : (ℓ : Loc nD τ sig) → Buf (Elt F) ℓ) (ρ : Dev nD → PrngReg)

/-- The buffers behind the windows' arrays are the four arguments and the result. -/
theorem arrRefs_eq : Finset.univ.image (Pipeline.arrRef spec0)
    = ({main_arg0, main_arg1, main_arg2, main_arg3, main_v0} : Finset (Ref sig .tc)) := by decide

/-- A window's array at entry is its buffer, whole, at the entry contents. -/
theorem arr_pts (c : Dev nD) (w : Fin cfg0.W) :
    ((cfg0.win w).arr.view.loc (c : Thread nD τ) ↦[(cfg0.win w).arr.view.set]{(dats m 0 c).share w} (dats m 0 c).arrAt w 0 : sProp 𝕄)
      = ((c : Thread nD τ).loc (Pipeline.arrRef spec0 w) ↦{(dats m 0 c).share w} V m c (Pipeline.arrRef spec0 w)) := by
  rw [(arr_whole0 w).set_eq_univ]; rfl

theorem share_0 (c : Dev nD) : (dats m 0 c).share (0 : Fin 6) = fullShare.left := by unfold Dat.share; rfl
theorem share_1 (c : Dev nD) : (dats m 0 c).share (1 : Fin 6) = fullShare.right := by unfold Dat.share; rfl
theorem share_2 (c : Dev nD) : (dats m 0 c).share (2 : Fin 6) = fullShare := by unfold Dat.share; rfl
theorem share_3 (c : Dev nD) : (dats m 0 c).share (3 : Fin 6) = fullShare := by unfold Dat.share; rfl
theorem share_4 (c : Dev nD) : (dats m 0 c).share (4 : Fin 6) = fullShare := by unfold Dat.share; rfl
theorem share_5 (c : Dev nD) : (dats m 0 c).share (5 : Fin 6) = fullShare := by unfold Dat.share; rfl

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [arrRefs_eq, bigSep_W0, bigSep_insert (by decide), bigSep_insert (by decide), bigSep_insert (by decide),
    bigSep_insert (by decide), bigSep_singleton]
  beta_reduce
  rw [arr_pts m c 0, arr_pts m c 1, arr_pts m c 2, arr_pts m c 3, arr_pts m c 4, arr_pts m c 5,
    share_0, share_1, share_2, share_3, share_4, share_5]
  show iprop(((c : Thread nD τ).loc main_arg0 ↦{fullShare} V m c main_arg0)
      ∗ ((c : Thread nD τ).loc main_arg1 ↦{fullShare} V m c main_arg1)
      ∗ ((c : Thread nD τ).loc main_arg2 ↦{fullShare} V m c main_arg2)
      ∗ ((c : Thread nD τ).loc main_arg3 ↦{fullShare} V m c main_arg3)
      ∗ ((c : Thread nD τ).loc main_v0 ↦{fullShare} V m c main_v0))
    ⊢ (iprop(((c : Thread nD τ).loc main_arg0 ↦{fullShare.left} V m c main_arg0)
      ∗ ((c : Thread nD τ).loc main_arg0 ↦{fullShare.right} V m c main_arg0)
      ∗ ((c : Thread nD τ).loc main_arg1 ↦{fullShare} V m c main_arg1)
      ∗ ((c : Thread nD τ).loc main_arg2 ↦{fullShare} V m c main_arg2)
      ∗ ((c : Thread nD τ).loc main_arg3 ↦{fullShare} V m c main_arg3)
      ∗ ((c : Thread nD τ).loc main_v0 ↦{fullShare} V m c main_v0)) : sProp 𝕄)
  iintro ⟨H0, H1, H2, H3, H5⟩
  ihave H0' := (pointsTo_share (PosShare.mem_left_op_right fullShare)).1 $$ H0
  icases H0' with ⟨Ha, Hb⟩
  isplitl [Ha]; · iexact Ha
  isplitl [Hb]; · iexact Hb
  isplitl [H1]; · iexact H1
  isplitl [H2]; · iexact H2
  isplitl [H3]; · iexact H3
  iexact H5

/-- The region's invariant at the first point is the six scratch buffers at whatever they hold: nothing is
    claimed of their contents before the first point. -/
theorem phi0_intro (c : Dev nD) :
    (iprop(emp ∗ Pipeline.scopedRest spec0 c) : sProp 𝕄) ⊢ (dats m 0 c).Φ 0 := by
  rw [Phi_eq, scopedRest0_eq]
  show _ ⊢ PhiS m c 0
  unfold PhiS
  simp only [owns_whole]
  iintro ⟨-, ⟨%d9, H9⟩, ⟨%d10, H10⟩, ⟨%d11, H11⟩, ⟨%d12, H12⟩, ⟨%d13, H13⟩, ⟨%d14, H14⟩⟩
  iexists d9, d10, d11, d12, d13, d14
  isplitr
  · ipureintro; intro h; exact absurd rfl h
  isplitl [H9]; · iexact H9
  isplitl [H10]; · iexact H10
  isplitl [H11]; · iexact H11
  isplitl [H12]; · iexact H12
  isplitl [H13]; · iexact H13
  iexact H14

/-- At the last point the invariant gives the six scratch buffers back. -/
theorem phi1_exit (c : Dev nD) :
    (dats m 0 c).Φ (Fin.last cfg0.N) ⊢ (iprop(emp ∗ Pipeline.scopedRest spec0 c) : sProp 𝕄) := by
  rw [Phi_eq, scopedRest0_eq]
  unfold PhiS
  simp only [owns_whole]
  iintro ⟨%d9, %d10, %d11, %d12, %d13, %d14, -, H9, H10, H11, H12, H13, H14⟩
  isplitr; · iempintro
  isplitl [H9]; · iexists d9; iexact H9
  isplitl [H10]; · iexists d10; iexact H10
  isplitl [H11]; · iexists d11; iexact H11
  isplitl [H12]; · iexists d12; iexact H12
  isplitl [H13]; · iexists d13; iexact H13
  iexists d14; iexact H14

/-- The launch: under the body's obligation at the proof data above, every weakly fair execution of the program
    from a memory with zero counters terminates; the result array ends at what the pipeline's write-backs leave
    in it and the four argument arrays end as they were. -/
theorem run_main_of
    (hbody : ∀ c, Pipeline.BodyObligationLoose (dats (F := F) m 0 c) (defs₀ (F := F)) Variants.none () Set.univ) :
    θ_run defs (onTc (τ := τ) (main (F := F))) ⟨m, fun _ => 0, ρ⟩ (fun r => ∀ c : Dev nD,
      r.2.mem ((c.tc : Thread nD τ).loc main_v0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_region_noSem_shared cfgs (dats m) () cellOf_inj (0 : Fin 1) winFacts₀0
    (emb₁ : Emb (UR sig nD τ) 𝕄) defs₀ Variants.none m ρ main
    (hbody := hbody) (hne := block_pos0) (harr := arr_whole0) (hstage := stage_whole0)
    (howed := fun _ _ => rfl)
    (u₀ := initOf (Pipeline.cells cfgs cellOf_inj) (Pipeline.launchToks cfgs cellOf_inj))
    (hu₀ := BI.Entails.refl _)
    (V := fun c b => m ((c : Thread nD τ).loc b))
    (hmain := fun c Q => by
      simp only [main, Prog.lift, Prog.bind_op, Prog.bind_ret]
      iintro ⟨Hk, Hb⟩; iapply Hk; iexact Hb)
    (hsplit := hsplit m)
    (X := fun _ => iprop(emp)) (Y := fun _ => iprop(emp)) (Z := fun _ => iprop(emp))
    (hX := fun c => by rw [unscopedRest0_eq]; iintro -; isplitr <;> iempintro)
    (hin := phi0_intro m) (hout := phi1_exit m)
    (QY := fun _ _ => True)
    (hY := fun c s' => by
      iintro ⟨-, -, HSI⟩; imodintro
      isplitr; · ipureintro; trivial
      iexact HSI)
    (hQ := fun s h c =>
      ⟨(h c).1 (5 : Fin 6),
        ((h c).1 (0 : Fin 6)).trans ((dats m 0 c).arrAt_in (0 : Fin 6) rfl _),
        ((h c).1 (2 : Fin 6)).trans ((dats m 0 c).arrAt_in (2 : Fin 6) rfl _),
        ((h c).1 (3 : Fin 6)).trans ((dats m 0 c).arrAt_in (3 : Fin 6) rfl _),
        ((h c).1 (4 : Fin 6)).trans ((dats m 0 c).arrAt_in (4 : Fin 6) rfl _)⟩)

end Cert.Kernel.Body

end
-- ==== Proof.lean ====
/-
  A fused attention kernel against the textbook attention, on the extended reals.

  The kernel takes x : [4, 4096, 256] and three weight matrices [256, 256]. For each batch element and each tile of
  1024 query rows it visits the four tiles of 1024 key rows in turn. While the batch's first query tile makes its
  pass, the key and value projections of each key tile (its rows of x times the transposed key and value weights) are
  computed and kept in two caches, which the later query tiles of the batch read back. At a row's first key tile the
  query projection, scaled by 1/16, is kept, and a running row maximum, row sum and accumulator are reset to minus
  infinity, zero and zero. At every key tile, with s the scores of the query tile against the key tile, the maximum
  becomes m' = max m (rowmax s), and with a = exp (m - m') and p = exp (s - m') the sum becomes a l + rowsum p and
  the accumulator a acc + p v. After the last key tile the block of the result is acc / l. The reference computes
  softmax ((x Wqᵀ) (x Wkᵀ)ᵀ / sqrt 256) (x Wvᵀ), the row maximum subtracted before exponentiating.

  Frames. The kernel is one pipelined region over a 4 x 4 x 4 grid whose first two windows read the same array, held
  at the two halves of its share. Between points the six scratch buffers are held at contents of which it is known
  that the caches hold the projections of every key tile the batch has met, and that the other four hold the row's
  online-softmax state; one run of the body per control case carries these facts from a point to the next, for any
  float instance, which gives both the word-level and the idealized program's run. The reference is straight-line
  host code.

  Values. On finite inputs the scale moves across the finite sums of the scores (the kernel scales the query, the
  reference the score, and sqrt 256 = 16), the rescaling factors of the online update telescope because every
  running maximum past the first tile is finite and exp of minus infinity is zero, and the final quotient of sums
  is the sum of quotients because the normalizer is a positive real. So the block the last key tile of a row
  stores is the reference's function on that block, and the blocks cover the result.
-/
import proofs.«127055_j20289425507095_2_alg».proof.Defs
import proofs.«127055_j20289425507095_2_alg».proof.Proof.Gen.Kernel
import proofs.«127055_j20289425507095_2_alg».proof.Proof.Gen.KernelIdeal
import proofs.«127055_j20289425507095_2_alg».proof.Proof.Gen.ReferenceIdeal
import proofs.«127055_j20289425507095_2_alg».proof.Proof.Gen.Pre_finite_inputs
import proofs.«127055_j20289425507095_2_alg».proof.Proof.RefFrame
import proofs.«127055_j20289425507095_2_alg».proof.Proof.Assemble
import proofs.«127055_j20289425507095_2_alg».proof.Proof.K.Body
import proofs.«127055_j20289425507095_2_alg».proof.Proof.K.Launch

noncomputable section

namespace Cert.Proof

open Idealize.ShloMosaic Idealize.ShloMosaic.TcCoe Idealize.SL.Sem

/-- Every weakly fair execution of the word-level kernel terminates without a fault and leaves the four argument
    arrays as it found them: its run, with what it says of the result forgotten. -/
theorem frame_k : Cert.frame_Kernel (hKernel := Cert.Kernel.Gen.facts)
    (hPre_finite_inputs := Cert.Pre_finite_inputs.Gen.facts) := fun m ρ _ =>
  (θ_run Cert.Kernel.defs _ _).mono (fun _ h c => (h c).2)
    (Cert.Kernel.Body.run_main_of (F := Bits) m ρ fun c => (Cert.Kernel.Body.body_obligation m c).loose)

theorem claim : Cert.Claim :=
  ⟨Cert.Kernel.Gen.facts, Cert.KernelIdeal.Gen.facts, Cert.ReferenceIdeal.Gen.facts, Cert.Pre_finite_inputs.Gen.facts,
    frame_k, Cert.Proof.Assemble.frame_ki, Cert.Proof.RefSide.frame_ri, Cert.Proof.RefSide.preserves,
    Cert.Proof.Assemble.algebraic⟩

end Cert.Proof

end
